-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v49)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v49) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S1600000 : Shape := ⟨1, ![1600000]⟩
abbrev S64x128 : Shape := ⟨2, ![64, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg9 : FVec F S128x64 .f32) (main_arg10 : FVec F S128x64 .f32) (main_arg11 : FVec F S64 .f32) (main_v33 : IVec S_ 1) : IVec S_ 1 :=
  let main_v34 : FVec F S128x64 .f32 := Host.absf main_arg9
  let main_cst_12 : FVec F S_ .f32 := constant S_ .f32 0x7F800000#32
  let main_v35 : FVec F S128x64 .f32 := broadcastInDim S128x64 ![] bcast_S_S128x64 main_cst_12
  let main_v36 : IVec S128x64 1 := cmpf .olt main_v34 main_v35
  let main_c_13 : IVec S_ 1 := constantI S_ 1 1#1
  let main_v37 : IVec S_ 1 := (fun x v => Host.reduce IntOp.andi x v reducesTo_S128x64_S_d0_1 h_S_) main_v36 main_c_13
  let main_v38 : IVec S_ 1 := andi main_v33 main_v37
  let main_v39 : FVec F S128x64 .f32 := Host.absf main_arg10
  let main_cst_14 : FVec F S_ .f32 := constant S_ .f32 0x7F800000#32
  let main_v40 : FVec F S128x64 .f32 := broadcastInDim S128x64 ![] bcast_S_S128x64 main_cst_14
  let main_v41 : IVec S128x64 1 := cmpf .olt main_v39 main_v40
  let main_c_15 : IVec S_ 1 := constantI S_ 1 1#1
  let main_v42 : IVec S_ 1 := (fun x v => Host.reduce IntOp.andi x v reducesTo_S128x64_S_d0_1 h_S_) main_v41 main_c_15
  let main_v43 : IVec S_ 1 := andi main_v38 main_v42
  let main_v44 : FVec F S64 .f32 := Host.absf main_arg11
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  main_v48

def fn_part1 {F : FTy → Type} [FloatOps F] (main_arg6 : FVec F S128x128 .f32) (main_arg7 : FVec F S128x128 .f32) (main_arg8 : FVec F S128 .f32) (main_arg9 : FVec F S128x64 .f32) (main_arg10 : FVec F S128x64 .f32) (main_arg11 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_arg11 main_v33

def fn {F : FTy → Type} [FloatOps F] (main_arg0 : FVec F S100000x64 .f32) (main_arg1 : IVec S1600000 32) (main_arg2 : IVec S1600000 32) (main_arg3 : FVec F S64x128 .f32) (main_arg4 : FVec F S64x128 .f32) (main_arg5 : FVec F S128 .f32) (main_arg6 : FVec F S128x128 .f32) (main_arg7 : FVec F S128x128 .f32) (main_arg8 : FVec F S128 .f32) (main_arg9 : FVec F S128x64 .f32) (main_arg10 : FVec F S128x64 .f32) (main_arg11 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x128 .f32 := Host.absf main_arg3
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  let main_v9 : FVec F S64x128 .f32 := Host.absf main_arg4
  let main_cst_2 : FVec F S_ .f32 := constant S_ .f32 0x7F800000#32
  let main_v10 : FVec F S64x128 .f32 := broadcastInDim S64x128 ![] bcast_S_S64x128 main_cst_2
  let main_v11 : IVec S64x128 1 := cmpf .olt main_v9 main_v10
  let main_c_3 : IVec S_ 1 := constantI S_ 1 1#1
  let main_v12 : IVec S_ 1 := (fun x v => Host.reduce IntOp.andi x v reducesTo_S64x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_arg10 main_arg11 main_v13 main_v16
-- ==== Kernel.lean ====
abbrev S100000x64 : Shape := ⟨2, ![100000, 64]⟩
abbrev S1600000 : Shape := ⟨1, ![1600000]⟩
abbrev S64x128 : Shape := ⟨2, ![64, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x64 : Shape := ⟨2, ![1600000, 64]⟩
abbrev S1x128 : Shape := ⟨2, ![1, 128]⟩
abbrev S100000x128 : Shape := ⟨2, ![100000, 128]⟩
abbrev S2000x64 : Shape := ⟨2, ![2000, 64]⟩
abbrev S2000x1 : Shape := ⟨2, ![2000, 1]⟩
abbrev S2000x128 : Shape := ⟨2, ![2000, 128]⟩
abbrev S1600000x128 : Shape := ⟨2, ![1600000, 128]⟩
abbrev S1x64 : Shape := ⟨2, ![1, 64]⟩

abbrev nBuf : Space → Nat
  | .hbm => 78
  | .vmem => 43
  | .smem => 0
  | _ => 0

abbrev bufTy : (tb : Table) → Fin (tcTables nBuf tb) → BufTy
  | .hbm, ⟨0, _⟩ => ⟨S100000x64, .f32⟩
  | .hbm, ⟨1, _⟩ => ⟨S1600000, .i32⟩
  | .hbm, ⟨2, _⟩ => ⟨S1600000, .i32⟩
  | .hbm, ⟨3, _⟩ => ⟨S64x128, .f32⟩
  | .hbm, ⟨4, _⟩ => ⟨S64x128, .f32⟩
  | .hbm, ⟨5, _⟩ => ⟨S128, .f32⟩
  | .hbm, ⟨6, _⟩ => ⟨S128x128, .f32⟩
  | .hbm, ⟨7, _⟩ => ⟨S128x128, .f32⟩
  | .hbm, ⟨8, _⟩ => ⟨S128, .f32⟩
  | .hbm, ⟨9, _⟩ => ⟨S128x64, .f32⟩
  | .hbm, ⟨10, _⟩ => ⟨S128x64, .f32⟩
  | .hbm, ⟨11, _⟩ => ⟨S64, .f32⟩
  | .hbm, ⟨12, _⟩ => ⟨S_, .f32⟩
  | .hbm, ⟨13, _⟩ => ⟨S1600000, .f32⟩
  | .hbm, ⟨14, _⟩ => ⟨S_, .f32⟩
  | .hbm, ⟨15, _⟩ => ⟨S100000, .f32⟩
  | .hbm, ⟨16, _⟩ => ⟨S1600000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S100000x1, .f32⟩
  | .hbm, ⟨25, _⟩ => ⟨S100000x64, .bf16⟩
  | .hbm, ⟨26, _⟩ => ⟨S_, .i32⟩
  | .hbm, ⟨27, _⟩ => ⟨S1600000, .i32⟩
  | .hbm, ⟨28, _⟩ => ⟨S1600000, .i1⟩
  | .hbm, ⟨29, _⟩ => ⟨S_, .i32⟩
  | .hbm, ⟨30, _⟩ => ⟨S1600000, .i32⟩
  | .hbm, ⟨31, _⟩ => ⟨S1600000, .i32⟩
  | .hbm, ⟨32, _⟩ => ⟨S1600000, .i32⟩
  | .hbm, ⟨33, _⟩ => ⟨S1600000x1, .i32⟩
  | .hbm, ⟨34, _⟩ => ⟨S1600000x64, .bf16⟩
  | .hbm, ⟨35, _⟩ => ⟨S1600000x64, .f32⟩
  | .hbm, ⟨36, _⟩ => ⟨S_, .f32⟩
  | .hbm, ⟨37, _⟩ => ⟨S100000x64, .f32⟩
  | .hbm, ⟨38, _⟩ => ⟨S1600000x1, .i32⟩
  | .hbm, ⟨39, _⟩ => ⟨S100000x64, .f32⟩
  | .hbm, ⟨40, _⟩ => ⟨S1x128, .f32⟩
  | .hbm, ⟨41, _⟩ => ⟨S100000x128, .f32⟩
  | .hbm, ⟨42, _⟩ => ⟨S100000x128, .bf16⟩
  | .hbm, ⟨43, _⟩ => ⟨S_, .i32⟩
  | .hbm, ⟨44, _⟩ => ⟨S1600000, .i32⟩
  | .hbm, ⟨45, _⟩ => ⟨S1600000, .i1⟩
  | .hbm, ⟨46, _⟩ => ⟨S_, .i32⟩
  | .hbm, ⟨47, _⟩ => ⟨S1600000, .i32⟩
  | .hbm, ⟨48, _⟩ => ⟨S1600000, .i32⟩
  | .hbm, ⟨49, _⟩ => ⟨S1600000, .i32⟩
  | .hbm, ⟨50, _⟩ => ⟨S1600000x1, .i32⟩
  | .hbm, ⟨51, _⟩ => ⟨S1600000x128, .bf16⟩
  | .hbm, ⟨52, _⟩ => ⟨S1600000x128, .f32⟩
  | .hbm, ⟨53, _⟩ => ⟨S_, .f32⟩
  | .hbm, ⟨54, _⟩ => ⟨S100000x128, .f32⟩
  | .hbm, ⟨55, _⟩ => ⟨S1600000x1, .i32⟩
  | .hbm, ⟨56, _⟩ => ⟨S100000x128, .f32⟩
  | .hbm, ⟨57, _⟩ => ⟨S1x128, .f32⟩
  | .hbm, ⟨58, _⟩ => ⟨S100000x128, .f32⟩
  | .hbm, ⟨59, _⟩ => ⟨S100000x128, .bf16⟩
  | .hbm, ⟨60, _⟩ => ⟨S100000x64, .f32⟩
  | .hbm, ⟨61, _⟩ => ⟨S100000x64, .bf16⟩
  | .hbm, ⟨62, _⟩ => ⟨S_, .i32⟩
  | .hbm, ⟨63, _⟩ => ⟨S1600000, .i32⟩
  | .hbm, ⟨64, _⟩ => ⟨S1600000, .i1⟩
  | .hbm, ⟨65, _⟩ => ⟨S_, .i32⟩
  | .hbm, ⟨66, _⟩ => ⟨S1600000, .i32⟩
  | .hbm, ⟨67, _⟩ => ⟨S1600000, .i32⟩
  | .hbm, ⟨68, _⟩ => ⟨S1600000, .i32⟩
  | .hbm, ⟨69, _⟩ => ⟨S1600000x1, .i32⟩
  | .hbm, ⟨70, _⟩ => ⟨S1600000x64, .bf16⟩
  | .hbm, ⟨71, _⟩ => ⟨S1600000x64, .f32⟩
  | .hbm, ⟨72, _⟩ => ⟨S_, .f32⟩
  | .hbm, ⟨73, _⟩ => ⟨S100000x64, .f32⟩
  | .hbm, ⟨74, _⟩ => ⟨S1600000x1, .i32⟩
  | .hbm, ⟨75, _⟩ => ⟨S100000x64, .f32⟩
  | .hbm, ⟨76, _⟩ => ⟨S1x64, .f32⟩
  | .hbm, ⟨77, _⟩ => ⟨S100000x64, .f32⟩
  | .local _ .vmem, ⟨0, _⟩ => ⟨S2000x64, .f32⟩
  | .local _ .vmem, ⟨1, _⟩ => ⟨S2000x64, .f32⟩
  | .local _ .vmem, ⟨2, _⟩ => ⟨S2000x64, .f32⟩
  | .local _ .vmem, ⟨3, _⟩ => ⟨S2000x64, .f32⟩
  | .local _ .vmem, ⟨4, _⟩ => ⟨S2000x1, .f32⟩
  | .local _ .vmem, ⟨5, _⟩ => ⟨S2000x1, .f32⟩
  | .local _ .vmem, ⟨6, _⟩ => ⟨S64x128, .f32⟩
  | .local _ .vmem, ⟨7, _⟩ => ⟨S64x128, .f32⟩
  | .local _ .vmem, ⟨8, _⟩ => ⟨S1x128, .f32⟩
  | .local _ .vmem, ⟨9, _⟩ => ⟨S2000x128, .f32⟩
  | .local _ .vmem, ⟨10, _⟩ => ⟨S2000x128, .f32⟩
  | .local _ .vmem, ⟨11, _⟩ => ⟨S2000x128, .bf16⟩
  | .local _ .vmem, ⟨12, _⟩ => ⟨S2000x128, .bf16⟩
  | .local _ .vmem, ⟨13, _⟩ => ⟨S2000x128, .f32⟩
  | .local _ .vmem, ⟨14, _⟩ => ⟨S2000x128, .f32⟩
  | .local _ .vmem, ⟨15, _⟩ => ⟨S2000x128, .f32⟩
  | .local _ .vmem, ⟨16, _⟩ => ⟨S2000x128, .f32⟩
  | .local _ .vmem, ⟨17, _⟩ => ⟨S2000x1, .f32⟩
  | .local _ .vmem, ⟨18, _⟩ => ⟨S2000x1, .f32⟩
  | .local _ .vmem, ⟨19, _⟩ => ⟨S128x128, .f32⟩
  | .local _ .vmem, ⟨20, _⟩ => ⟨S128x128, .f32⟩
  | .local _ .vmem, ⟨21, _⟩ => ⟨S1x128, .f32⟩
  | .local _ .vmem, ⟨22, _⟩ => ⟨S2000x128, .f32⟩
  | .local _ .vmem, ⟨23, _⟩ => ⟨S2000x128, .f32⟩
  | .local _ .vmem, ⟨24, _⟩ => ⟨S2000x128, .bf16⟩
  | .local _ .vmem, ⟨25, _⟩ => ⟨S2000x128, .bf16⟩
  | .local _ .vmem, ⟨26, _⟩ => ⟨S2000x128, .bf16⟩
  | .local _ .vmem, ⟨27, _⟩ => ⟨S2000x128, .bf16⟩
  | .local _ .vmem, ⟨28, _⟩ => ⟨S128x64, .f32⟩
  | .local _ .vmem, ⟨29, _⟩ => ⟨S2000x64, .f32⟩
  | .local _ .vmem, ⟨30, _⟩ => ⟨S2000x64, .f32⟩
  | .local _ .vmem, ⟨31, _⟩ => ⟨S2000x64, .bf16⟩
  | .local _ .vmem, ⟨32, _⟩ => ⟨S2000x64, .bf16⟩
  | .local _ .vmem, ⟨33, _⟩ => ⟨S2000x128, .f32⟩
  | .local _ .vmem, ⟨34, _⟩ => ⟨S2000x128, .f32⟩
  | .local _ .vmem, ⟨35, _⟩ => ⟨S2000x64, .f32⟩
  | .local _ .vmem, ⟨36, _⟩ => ⟨S2000x64, .f32⟩
  | .local _ .vmem, ⟨37, _⟩ => ⟨S2000x1, .f32⟩
  | .local _ .vmem, ⟨38, _⟩ => ⟨S2000x1, .f32⟩
  | .local _ .vmem, ⟨39, _⟩ => ⟨S128x64, .f32⟩
  | .local _ .vmem, ⟨40, _⟩ => ⟨S1x64, .f32⟩
  | .local _ .vmem, ⟨41, _⟩ => ⟨S2000x64, .f32⟩
  | .local _ .vmem, ⟨42, _⟩ => ⟨S2000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | _, _ => false

abbrev semScoped : Fin 0 → Bool
  | ⟨_, h⟩ => absurd h (Nat.not_lt_zero _)

abbrev dmaSemScoped : Fin 43 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | _ => false

abbrev sig : RefSig :=
  ofTc nBuf bufTy 0 43 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_cst_0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst_1 : Ref sig .tc := ⟨.hbm, 18, rfl⟩
abbrev main_v4 : Ref sig .tc := ⟨.hbm, 19, rfl⟩
abbrev main_v5 : Ref sig .tc := ⟨.hbm, 20, rfl⟩
abbrev main_cst_2 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_c : Ref sig .tc := ⟨.hbm, 26, rfl⟩
abbrev main_v10 : Ref sig .tc := ⟨.hbm, 27, rfl⟩
abbrev main_v11 : Ref sig .tc := ⟨.hbm, 28, rfl⟩
abbrev main_c_3 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_cst_4 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22_0 : Ref sig .tc := ⟨.hbm, 41, rfl⟩
abbrev main_v22_1 : Ref sig .tc := ⟨.hbm, 42, rfl⟩
abbrev main_c_5 : Ref sig .tc := ⟨.hbm, 43, rfl⟩
abbrev main_v23 : Ref sig .tc := ⟨.hbm, 44, rfl⟩
abbrev main_v24 : Ref sig .tc := ⟨.hbm, 45, rfl⟩
abbrev main_c_6 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_cst_7 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35_0 : Ref sig .tc := ⟨.hbm, 58, rfl⟩
abbrev main_v35_1 : Ref sig .tc := ⟨.hbm, 59, rfl⟩
abbrev main_v36_0 : Ref sig .tc := ⟨.hbm, 60, rfl⟩
abbrev main_v36_1 : Ref sig .tc := ⟨.hbm, 61, rfl⟩
abbrev main_c_8 : Ref sig .tc := ⟨.hbm, 62, rfl⟩
abbrev main_v37 : Ref sig .tc := ⟨.hbm, 63, rfl⟩
abbrev main_v38 : Ref sig .tc := ⟨.hbm, 64, rfl⟩
abbrev main_c_9 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_cst_10 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg1_1 : Ref sig .tc := ⟨.vmem, 16, rfl⟩
abbrev cc1_stg2_0 : Ref sig .tc := ⟨.vmem, 17, rfl⟩
abbrev cc1_stg2_1 : Ref sig .tc := ⟨.vmem, 18, rfl⟩
abbrev cc1_stg3_0 : Ref sig .tc := ⟨.vmem, 19, rfl⟩
abbrev cc1_stg4_0 : Ref sig .tc := ⟨.vmem, 20, rfl⟩
abbrev cc1_stg5_0 : Ref sig .tc := ⟨.vmem, 21, rfl⟩
abbrev cc1_stg6_0 : Ref sig .tc := ⟨.vmem, 22, rfl⟩
abbrev cc1_stg6_1 : Ref sig .tc := ⟨.vmem, 23, rfl⟩
abbrev cc1_stg7_0 : Ref sig .tc := ⟨.vmem, 24, rfl⟩
abbrev cc1_stg7_1 : Ref sig .tc := ⟨.vmem, 25, rfl⟩
abbrev cc2_stg0_0 : Ref sig .tc := ⟨.vmem, 26, rfl⟩
abbrev cc2_stg0_1 : Ref sig .tc := ⟨.vmem, 27, rfl⟩
abbrev cc2_stg1_0 : Ref sig .tc := ⟨.vmem, 28, rfl⟩
abbrev cc2_stg2_0 : Ref sig .tc := ⟨.vmem, 29, rfl⟩
abbrev cc2_stg2_1 : Ref sig .tc := ⟨.vmem, 30, rfl⟩
abbrev cc2_stg3_0 : Ref sig .tc := ⟨.vmem, 31, rfl⟩
abbrev cc2_stg3_1 : Ref sig .tc := ⟨.vmem, 32, rfl⟩
abbrev cc3_stg0_0 : Ref sig .tc := ⟨.vmem, 33, rfl⟩
abbrev cc3_stg0_1 : Ref sig .tc := ⟨.vmem, 34, rfl⟩
abbrev cc3_stg1_0 : Ref sig .tc := ⟨.vmem, 35, rfl⟩
abbrev cc3_stg1_1 : Ref sig .tc := ⟨.vmem, 36, rfl⟩
abbrev cc3_stg2_0 : Ref sig .tc := ⟨.vmem, 37, rfl⟩
abbrev cc3_stg2_1 : Ref sig .tc := ⟨.vmem, 38, rfl⟩
abbrev cc3_stg3_0 : Ref sig .tc := ⟨.vmem, 39, rfl⟩
abbrev cc3_stg4_0 : Ref sig .tc := ⟨.vmem, 40, rfl⟩
abbrev cc3_stg5_0 : Ref sig .tc := ⟨.vmem, 41, rfl⟩
abbrev cc3_stg5_1 : Ref sig .tc := ⟨.vmem, 42, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc1_sem0_0 : DmaSem sig := 13
abbrev cc1_sem0_1 : DmaSem sig := 14
abbrev cc1_sem1_0 : DmaSem sig := 15
abbrev cc1_sem1_1 : DmaSem sig := 16
abbrev cc1_sem2_0 : DmaSem sig := 17
abbrev cc1_sem2_1 : DmaSem sig := 18
abbrev cc1_sem3_0 : DmaSem sig := 19
abbrev cc1_sem4_0 : DmaSem sig := 20
abbrev cc1_sem5_0 : DmaSem sig := 21
abbrev cc1_sem6_0 : DmaSem sig := 22
abbrev cc1_sem6_1 : DmaSem sig := 23
abbrev cc1_sem7_0 : DmaSem sig := 24
abbrev cc1_sem7_1 : DmaSem sig := 25
abbrev cc2_sem0_0 : DmaSem sig := 26
abbrev cc2_sem0_1 : DmaSem sig := 27
abbrev cc2_sem1_0 : DmaSem sig := 28
abbrev cc2_sem2_0 : DmaSem sig := 29
abbrev cc2_sem2_1 : DmaSem sig := 30
abbrev cc2_sem3_0 : DmaSem sig := 31
abbrev cc2_sem3_1 : DmaSem sig := 32
abbrev cc3_sem0_0 : DmaSem sig := 33
abbrev cc3_sem0_1 : DmaSem sig := 34
abbrev cc3_sem1_0 : DmaSem sig := 35
abbrev cc3_sem1_1 : DmaSem sig := 36
abbrev cc3_sem2_0 : DmaSem sig := 37
abbrev cc3_sem2_1 : DmaSem sig := 38
abbrev cc3_sem3_0 : DmaSem sig := 39
abbrev cc3_sem4_0 : DmaSem sig := 40
abbrev cc3_sem5_0 : DmaSem sig := 41
abbrev cc3_sem5_1 : DmaSem sig := 42

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2000x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S2000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S2000x128 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S2000x64 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S2000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S128x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S2000x64 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  bitsLt_bf16_f32 : FTy.bits .bf16 < FTy.bits .f32
  bcast_S_S100000x64 : S_.BroadcastsInDim S100000x64 (![] : Fin 0 → Fin S100000x64.rank)
  shapeCasts_S128_S1x128 : S128.ShapeCasts S1x128
  inb_S2000x64_S2000x64_0_0 : ∀ a, (![0, 0] : Fin 2 → Nat) a + S2000x64.size a ≤ S2000x64.size a
  h_S2000x64 : 0 < S2000x64.numel
  shapeCasts_S2000x64_S2000x64 : S2000x64.ShapeCasts S2000x64
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x64 : S2000x1.Broadcasts S2000x64
  inb_S64x128_S64x128_0_0 : ∀ a, (![0, 0] : Fin 2 → Nat) a + S64x128.size a ≤ S64x128.size a
  h_S64x128 : 0 < S64x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S2000x128_S2000x128_0_0 : ∀ a, (![0, 0] : Fin 2 → Nat) a + S2000x128.size a ≤ S2000x128.size a
  h_S2000x128 : 0 < S2000x128.numel
  packedbf16_S2000x128_S2000x128_0_0 : (Rect.unit (s := S2000x128) ![0, 0] S2000x128.size inb_S2000x128_S2000x128_0_0).PackedRows (EltTy.packing .bf16)
  bcast_S_S100000x128 : S_.BroadcastsInDim S100000x128 (![] : Fin 0 → Fin S100000x128.rank)
  shapeCasts_S2000x128_S2000x128 : S2000x128.ShapeCasts S2000x128
  broadcasts_S2000x1_S2000x128 : S2000x1.Broadcasts S2000x128
  inb_S128x128_S128x128_0_0 : ∀ a, (![0, 0] : Fin 2 → Nat) a + S128x128.size a ≤ S128x128.size a
  h_S128x128 : 0 < S128x128.numel
  inb_S128x64_S128x64_0_0 : ∀ a, (![0, 0] : Fin 2 → Nat) a + S128x64.size a ≤ S128x64.size a
  h_S128x64 : 0 < S128x64.numel
  packedbf16_S2000x64_S2000x64_0_0 : (Rect.unit (s := S2000x64) ![0, 0] S2000x64.size inb_S2000x64_S2000x64_0_0).PackedRows (EltTy.packing .bf16)
  shapeCasts_S64_S1x64 : S64.ShapeCasts S1x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  scatter_S100000_S1600000x1_S1600000_n_0_0_1_wf : ScatterDims.WF S100000 S1600000x1 S1600000 [] [0] [0] 1
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S2000x64_S64x128_S2000x128_1_0_0_1_n_n_wf : DotDims.WF S2000x64 S64x128 S2000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S2000x128_S128x128_S2000x128_1_0_0_1_n_n_wf : DotDims.WF S2000x128 S128x128 S2000x128 [1] [0] [0] [1] [] []
  dot_S2000x128_S128x64_S2000x64_1_0_0_1_n_n_wf : DotDims.WF S2000x128 S128x64 S2000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x64.size a ≤ S100000x64.size a
  hwx0_0 : ∀ i : grid0.Coords, EltTy.bits .f32 = 32 ∨ (Rect.block (s := S100000x64) S2000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x64.size a ≤ S100000x64.size a
  hwx0_1 : ∀ i : grid0.Coords, EltTy.bits .f32 = 32 ∨ (Rect.block (s := S100000x64) S2000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x1.size a ≤ S100000x1.size a
  hwx0_2 : ∀ i : grid0.Coords, EltTy.bits .f32 = 32 ∨ (Rect.block (s := S100000x1) S2000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x128.size a ≤ S64x128.size a
  hwx0_3 : ∀ i : grid0.Coords, EltTy.bits .f32 = 32 ∨ (Rect.block (s := S64x128) S64x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x128.size a ≤ S64x128.size a
  hwx0_4 : ∀ i : grid0.Coords, EltTy.bits .f32 = 32 ∨ (Rect.block (s := S64x128) S64x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2000x128.size a ≤ S100000x128.size a
  hwx0_6 : ∀ i : grid0.Coords, EltTy.bits .f32 = 32 ∨ (Rect.block (s := S100000x128) S2000x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2000x128.size a ≤ S100000x128.size a
  hwx0_7 : ∀ i : grid0.Coords, EltTy.bits .bf16 = 32 ∨ (Rect.block (s := S100000x128) S2000x128.size (cc0_transform_7 i) (hinb0_7 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S100000x128.size a
  hwx1_1 : ∀ i : grid1.Coords, EltTy.bits .f32 = 32 ∨ (Rect.block (s := S100000x128) S2000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x1.size a ≤ S100000x1.size a
  hwx1_2 : ∀ i : grid1.Coords, EltTy.bits .f32 = 32 ∨ (Rect.block (s := S100000x1) S2000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2000x128.size a ≤ S100000x128.size a
  hwx1_6 : ∀ i : grid1.Coords, EltTy.bits .f32 = 32 ∨ (Rect.block (s := S100000x128) S2000x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S2000x128.size a ≤ S100000x128.size a
  hwx1_7 : ∀ i : grid1.Coords, EltTy.bits .bf16 = 32 ∨ (Rect.block (s := S100000x128) S2000x128.size (cc1_transform_7 i) (hinb1_7 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S100000x128.size a
  hwx2_0 : ∀ i : grid2.Coords, EltTy.bits .bf16 = 32 ∨ (Rect.block (s := S100000x128) S2000x128.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x64.size a ≤ S128x64.size a
  hwx2_1 : ∀ i : grid2.Coords, EltTy.bits .f32 = 32 ∨ (Rect.block (s := S128x64) S128x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x64.size a ≤ S100000x64.size a
  hwx2_2 : ∀ i : grid2.Coords, EltTy.bits .f32 = 32 ∨ (Rect.block (s := S100000x64) S2000x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x64.size a ≤ S100000x64.size a
  hwx2_3 : ∀ i : grid2.Coords, EltTy.bits .bf16 = 32 ∨ (Rect.block (s := S100000x64) S2000x64.size (cc2_transform_3 i) (hinb2_3 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S100000x128.size a
  hwx3_0 : ∀ i : grid3.Coords, EltTy.bits .f32 = 32 ∨ (Rect.block (s := S100000x128) S2000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x64.size a ≤ S100000x64.size a
  hwx3_1 : ∀ i : grid3.Coords, EltTy.bits .f32 = 32 ∨ (Rect.block (s := S100000x64) S2000x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x1.size a ≤ S100000x1.size a
  hwx3_2 : ∀ i : grid3.Coords, EltTy.bits .f32 = 32 ∨ (Rect.block (s := S100000x1) S2000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x64.size a ≤ S128x64.size a
  hwx3_3 : ∀ i : grid3.Coords, EltTy.bits .f32 = 32 ∨ (Rect.block (s := S128x64) S128x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x64.size a ≤ S1x64.size a
  hwx3_4 : ∀ i : grid3.Coords, EltTy.bits .f32 = 32 ∨ (Rect.block (s := S1x64) S1x64.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S2000x64.size a ≤ S100000x64.size a
  hwx3_5 : ∀ i : grid3.Coords, EltTy.bits .f32 = 32 ∨ (Rect.block (s := S100000x64) S2000x64.size (cc3_transform_5 i) (hinb3_5 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S2000x64_S64x128_S2000x128_1_0_0_1_n_n : DotDims S2000x64 S64x128 S2000x128 where
  lhsContracting := [1]
  rhsContracting := [0]
  lhsNonContracting := [0]
  rhsNonContracting := [1]
  lhsBatch := []
  rhsBatch := []
  wf := dot_S2000x64_S64x128_S2000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf

abbrev win0_0 : Pipeline.Window sig grid0 :=
  Pipeline.Window.ofSpec (Memref.whole main_arg0) S2000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v20) S2000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S2000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S64x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S64x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v21) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v22_0) S2000x128.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v22_1) S2000x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v22_0) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v33) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v8) S2000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v34) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v35_0) S2000x128.size cc1_transform_6 reads1_6 true false 2 stage1_6 sem1_6
    hrank1 hreads1_6 hinb1_6 nbuf1_6 (Memref.isWhole_whole _) hwx1_6 hstage1_6

abbrev win1_7 : Pipeline.Window sig grid1 :=
  Pipeline.Window.ofSpec (Memref.whole main_v35_1) S2000x128.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v35_1) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg10) S128x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v36_0) S2000x64.size cc2_transform_2 reads2_2 true false 2 stage2_2 sem2_2
    hrank2 hreads2_2 hinb2_2 nbuf2_2 (Memref.isWhole_whole _) hwx2_2 hstage2_2

abbrev win2_3 : Pipeline.Window sig grid2 :=
  Pipeline.Window.ofSpec (Memref.whole main_v36_1) S2000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v35_0) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v47) S2000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v8) S2000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_arg9) S128x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v48) S1x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v49) S2000x64.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

class Facts : Prop extends Facts₀ where

variable [Facts]
-- ==== ReferenceIdeal.lean ====
abbrev S100000x64 : Shape := ⟨2, ![100000, 64]⟩
abbrev S1600000 : Shape := ⟨1, ![1600000]⟩
abbrev S64x128 : Shape := ⟨2, ![64, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S_ : Shape := ⟨0, ![]⟩
abbrev S100000 : Shape := ⟨1, ![100000]⟩
abbrev S1600000x1 : Shape := ⟨2, ![1600000, 1]⟩
abbrev S1600000x64 : Shape := ⟨2, ![1600000, 64]⟩
abbrev S100000x1 : Shape := ⟨2, ![100000, 1]⟩
abbrev S100000x128 : Shape := ⟨2, ![100000, 128]⟩
abbrev S1x128 : Shape := ⟨2, ![1, 128]⟩
abbrev S1600000x128 : Shape := ⟨2, ![1600000, 128]⟩
abbrev S1x64 : Shape := ⟨2, ![1, 64]⟩

abbrev nBuf : Space → Nat
  | .hbm => 96
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S1600000, .i32⟩
  | .hbm, ⟨2, _⟩ => ⟨S1600000, .i32⟩
  | .hbm, ⟨3, _⟩ => ⟨S64x128, .f32⟩
  | .hbm, ⟨4, _⟩ => ⟨S64x128, .f32⟩
  | .hbm, ⟨5, _⟩ => ⟨S128, .f32⟩
  | .hbm, ⟨6, _⟩ => ⟨S128x128, .f32⟩
  | .hbm, ⟨7, _⟩ => ⟨S128x128, .f32⟩
  | .hbm, ⟨8, _⟩ => ⟨S128, .f32⟩
  | .hbm, ⟨9, _⟩ => ⟨S128x64, .f32⟩
  | .hbm, ⟨10, _⟩ => ⟨S128x64, .f32⟩
  | .hbm, ⟨11, _⟩ => ⟨S64, .f32⟩
  | .hbm, ⟨12, _⟩ => ⟨S_, .f32⟩
  | .hbm, ⟨13, _⟩ => ⟨S1600000, .f32⟩
  | .hbm, ⟨14, _⟩ => ⟨S_, .f32⟩
  | .hbm, ⟨15, _⟩ => ⟨S100000, .f32⟩
  | .hbm, ⟨16, _⟩ => ⟨S1600000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S_, .i32⟩
  | .hbm, ⟨22, _⟩ => ⟨S1600000, .i32⟩
  | .hbm, ⟨23, _⟩ => ⟨S1600000, .i1⟩
  | .hbm, ⟨24, _⟩ => ⟨S_, .i32⟩
  | .hbm, ⟨25, _⟩ => ⟨S1600000, .i32⟩
  | .hbm, ⟨26, _⟩ => ⟨S1600000, .i32⟩
  | .hbm, ⟨27, _⟩ => ⟨S1600000, .i32⟩
  | .hbm, ⟨28, _⟩ => ⟨S1600000x1, .i32⟩
  | .hbm, ⟨29, _⟩ => ⟨S1600000x64, .f32⟩
  | .hbm, ⟨30, _⟩ => ⟨S_, .f32⟩
  | .hbm, ⟨31, _⟩ => ⟨S100000x64, .f32⟩
  | .hbm, ⟨32, _⟩ => ⟨S1600000x1, .i32⟩
  | .hbm, ⟨33, _⟩ => ⟨S100000x64, .f32⟩
  | .hbm, ⟨34, _⟩ => ⟨S100000x1, .f32⟩
  | .hbm, ⟨35, _⟩ => ⟨S100000x64, .f32⟩
  | .hbm, ⟨36, _⟩ => ⟨S100000x64, .f32⟩
  | .hbm, ⟨37, _⟩ => ⟨S100000x128, .f32⟩
  | .hbm, ⟨38, _⟩ => ⟨S100000x128, .f32⟩
  | .hbm, ⟨39, _⟩ => ⟨S100000x128, .f32⟩
  | .hbm, ⟨40, _⟩ => ⟨S1x128, .f32⟩
  | .hbm, ⟨41, _⟩ => ⟨S100000x128, .f32⟩
  | .hbm, ⟨42, _⟩ => ⟨S100000x128, .f32⟩
  | .hbm, ⟨43, _⟩ => ⟨S_, .f32⟩
  | .hbm, ⟨44, _⟩ => ⟨S100000x128, .f32⟩
  | .hbm, ⟨45, _⟩ => ⟨S100000x128, .f32⟩
  | .hbm, ⟨46, _⟩ => ⟨S_, .i32⟩
  | .hbm, ⟨47, _⟩ => ⟨S1600000, .i32⟩
  | .hbm, ⟨48, _⟩ => ⟨S1600000, .i1⟩
  | .hbm, ⟨49, _⟩ => ⟨S_, .i32⟩
  | .hbm, ⟨50, _⟩ => ⟨S1600000, .i32⟩
  | .hbm, ⟨51, _⟩ => ⟨S1600000, .i32⟩
  | .hbm, ⟨52, _⟩ => ⟨S1600000, .i32⟩
  | .hbm, ⟨53, _⟩ => ⟨S1600000x1, .i32⟩
  | .hbm, ⟨54, _⟩ => ⟨S1600000x128, .f32⟩
  | .hbm, ⟨55, _⟩ => ⟨S_, .f32⟩
  | .hbm, ⟨56, _⟩ => ⟨S100000x128, .f32⟩
  | .hbm, ⟨57, _⟩ => ⟨S1600000x1, .i32⟩
  | .hbm, ⟨58, _⟩ => ⟨S100000x128, .f32⟩
  | .hbm, ⟨59, _⟩ => ⟨S100000x1, .f32⟩
  | .hbm, ⟨60, _⟩ => ⟨S100000x128, .f32⟩
  | .hbm, ⟨61, _⟩ => ⟨S100000x128, .f32⟩
  | .hbm, ⟨62, _⟩ => ⟨S100000x128, .f32⟩
  | .hbm, ⟨63, _⟩ => ⟨S100000x128, .f32⟩
  | .hbm, ⟨64, _⟩ => ⟨S100000x128, .f32⟩
  | .hbm, ⟨65, _⟩ => ⟨S1x128, .f32⟩
  | .hbm, ⟨66, _⟩ => ⟨S100000x128, .f32⟩
  | .hbm, ⟨67, _⟩ => ⟨S100000x128, .f32⟩
  | .hbm, ⟨68, _⟩ => ⟨S_, .f32⟩
  | .hbm, ⟨69, _⟩ => ⟨S100000x128, .f32⟩
  | .hbm, ⟨70, _⟩ => ⟨S100000x128, .f32⟩
  | .hbm, ⟨71, _⟩ => ⟨S_, .i32⟩
  | .hbm, ⟨72, _⟩ => ⟨S1600000, .i32⟩
  | .hbm, ⟨73, _⟩ => ⟨S1600000, .i1⟩
  | .hbm, ⟨74, _⟩ => ⟨S_, .i32⟩
  | .hbm, ⟨75, _⟩ => ⟨S1600000, .i32⟩
  | .hbm, ⟨76, _⟩ => ⟨S1600000, .i32⟩
  | .hbm, ⟨77, _⟩ => ⟨S1600000, .i32⟩
  | .hbm, ⟨78, _⟩ => ⟨S1600000x1, .i32⟩
  | .hbm, ⟨79, _⟩ => ⟨S1600000x128, .f32⟩
  | .hbm, ⟨80, _⟩ => ⟨S_, .f32⟩
  | .hbm, ⟨81, _⟩ => ⟨S100000x128, .f32⟩
  | .hbm, ⟨82, _⟩ => ⟨S1600000x1, .i32⟩
  | .hbm, ⟨83, _⟩ => ⟨S100000x128, .f32⟩
  | .hbm, ⟨84, _⟩ => ⟨S100000x1, .f32⟩
  | .hbm, ⟨85, _⟩ => ⟨S100000x128, .f32⟩
  | .hbm, ⟨86, _⟩ => ⟨S100000x128, .f32⟩
  | .hbm, ⟨87, _⟩ => ⟨S100000x64, .f32⟩
  | .hbm, ⟨88, _⟩ => ⟨S100000x64, .f32⟩
  | .hbm, ⟨89, _⟩ => ⟨S100000x64, .f32⟩
  | .hbm, ⟨90, _⟩ => ⟨S1x64, .f32⟩
  | .hbm, ⟨91, _⟩ => ⟨S100000x64, .f32⟩
  | .hbm, ⟨92, _⟩ => ⟨S100000x64, .f32⟩
  | .hbm, ⟨93, _⟩ => ⟨S_, .f32⟩
  | .hbm, ⟨94, _⟩ => ⟨S100000x64, .f32⟩
  | .hbm, ⟨95, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_cst_0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst_1 : Ref sig .tc := ⟨.hbm, 18, rfl⟩
abbrev main_v4 : Ref sig .tc := ⟨.hbm, 19, rfl⟩
abbrev main_v5 : Ref sig .tc := ⟨.hbm, 20, rfl⟩
abbrev main_c : Ref sig .tc := ⟨.hbm, 21, rfl⟩
abbrev main_v6 : Ref sig .tc := ⟨.hbm, 22, rfl⟩
abbrev main_v7 : Ref sig .tc := ⟨.hbm, 23, rfl⟩
abbrev main_c_2 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_cst_3 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_call0_cst : Ref sig .tc := ⟨.hbm, 43, rfl⟩
abbrev main_call0_v0 : Ref sig .tc := ⟨.hbm, 44, rfl⟩
abbrev main_v25 : Ref sig .tc := ⟨.hbm, 45, rfl⟩
abbrev main_c_4 : Ref sig .tc := ⟨.hbm, 46, rfl⟩
abbrev main_v26 : Ref sig .tc := ⟨.hbm, 47, rfl⟩
abbrev main_v27 : Ref sig .tc := ⟨.hbm, 48, rfl⟩
abbrev main_c_5 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_cst_6 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_call1_cst : Ref sig .tc := ⟨.hbm, 68, rfl⟩
abbrev main_call1_v0 : Ref sig .tc := ⟨.hbm, 69, rfl⟩
abbrev main_v45 : Ref sig .tc := ⟨.hbm, 70, rfl⟩
abbrev main_c_7 : Ref sig .tc := ⟨.hbm, 71, rfl⟩
abbrev main_v46 : Ref sig .tc := ⟨.hbm, 72, rfl⟩
abbrev main_v47 : Ref sig .tc := ⟨.hbm, 73, rfl⟩
abbrev main_c_8 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_cst_9 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_call2_cst : Ref sig .tc := ⟨.hbm, 93, rfl⟩
abbrev main_call2_v0 : Ref sig .tc := ⟨.hbm, 94, rfl⟩
abbrev main_v65 : Ref sig .tc := ⟨.hbm, 95, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1600000x1_S1600000_n_0_0_1_wf : ScatterDims.WF S100000 S1600000x1 S1600000 [] [0] [0] 1
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x128_S100000x128_1_0_0_1_n_n_wf : DotDims.WF S100000x64 S64x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []
  dot_S100000x128_S128x64_S100000x64_1_0_0_1_n_n_wf : DotDims.WF S100000x128 S128x64 S100000x64 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x128_S100000x128_1_0_0_1_n_n : DotDims S100000x64 S64x128 S100000x128 where
  lhsContracting := [1]
  rhsContracting := [0]
  lhsNonContracting := [0]
  rhsNonContracting := [1]
  lhsBatch := []
  rhsBatch := []
  wf := dot_S100000x64_S64x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf

class Facts : Prop extends Facts₀ where

variable [Facts]
-- ==== Proof.KernelRun.lean ====
/-
  The idealized kernel's run with its result named.

  Every weakly fair execution of the kernel's @main terminates without a fault; afterwards each argument array is as
  launched and the result array holds what the fold of @main's seven segments (three stretches of host operations and
  four regions) leaves in it: the last region's output array.
-/
import proofs.«120637_j50062138802388_2_alg».proof.Proof.KernelIdealFrameP

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run of the seven segments, read against the final state: the result array at the fold's last contents, every
    argument array as launched. -/
theorem run_result : θ_run defs (onTc (τ := τ) (main (F := F))) ⟨m, fun _ => 0, ρ⟩ (fun r => ∀ c : Dev nD,
      r.2.mem ((c.tc : Thread nD τ).loc main_v49) = W7 m ρ c (Proc.devRef .tc main_v49)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v49 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c),
       (h c _ (mem_uc main_arg7 (by decide))).trans (W7_main_arg7 m ρ c),
       (h c _ (mem_uc main_arg8 (by decide))).trans (W7_main_arg8 m ρ c),
       (h c _ (mem_uc main_arg9 (by decide))).trans (W7_main_arg9 m ρ c),
       (h c _ (mem_uc main_arg10 (by decide))).trans (W7_main_arg10 m ρ c),
       (h c _ (mem_uc main_arg11 (by decide))).trans (W7_main_arg11 m ρ c)⟩)

end Cert.KernelIdeal.RunValue

end
-- ==== Proof.LibPlainDot.lean ====
/-
  A plain matrix product at the exact extended reals: for dimension numbers that contract the left operand's
  second axis against the right operand's first (no batch axis), the contraction sum at the output entry (p, q)
  is the sum over k of left (p, k) times right (k, q). From that, two readings of "rows times columns plus a row
  vector": a matrix unit's product into a zero accumulator with the vector re-laid as one row and repeated down the
  rows, and a host contraction with the vector broadcast in two steps. Both are the function `affine`. Also: the
  logistic function is one over one plus the exponential of the negated argument, on every extended real.
-/
import Idealize.ShloMosaic.Lib.ValueIdx
import Idealize.ShloMosaic.Lib.ValueLayout
import Idealize.ShloMosaic.Lib.Pipeline.Value
import Idealize.ShloMosaic.PureOps.Ideal.Laws

noncomputable section

namespace Cert.LibPlainDot

open Idealize.ShloMosaic Idealize.ShloMosaic.ValueIdx

/-- The output entry (p, q) of rows-times-columns plus a row vector: the sum over k of x (p, k) · w (k, q), plus b q. -/
def affine {M K N : ℕ} (x : FVec Ideal ⟨2, ![M, K]⟩ .f32) (w : FVec Ideal ⟨2, ![K, N]⟩ .f32) (b : FVec Ideal ⟨1, ![N]⟩ .f32) :
    FVec Ideal ⟨2, ![M, N]⟩ .f32 :=
  fun i => (∑ k : Fin K, x (ix2 (n0 := M) (i 0) k) * w (ix2 (n1 := N) k (i 1))) + b (ix1 (n := N) (i 1))

theorem affine_apply {M K N : ℕ} (x : FVec Ideal ⟨2, ![M, K]⟩ .f32) (w : FVec Ideal ⟨2, ![K, N]⟩ .f32) (b : FVec Ideal ⟨1, ![N]⟩ .f32)
    (p : Fin M) (q : Fin N) : affine x w b (ix2 p q) = (∑ k : Fin K, x (ix2 p k) * w (ix2 k q)) + b (ix1 q) := rfl

/-- A block of T rows of `affine`: when x holds rows r … r + T − 1 of X, and w and b are W and B, the block's entry at y
    is `affine X W B` at the array index i whose row is r plus y's row and whose column is y's. -/
theorem affine_rows {M K N T : ℕ} (X : FVec Ideal ⟨2, ![M, K]⟩ .f32) (W : FVec Ideal ⟨2, ![K, N]⟩ .f32) (B : FVec Ideal ⟨1, ![N]⟩ .f32)
    (x : FVec Ideal ⟨2, ![T, K]⟩ .f32) (w : FVec Ideal ⟨2, ![K, N]⟩ .f32) (b : FVec Ideal ⟨1, ![N]⟩ .f32) (r : ℕ)
    (hx : ∀ (p : Fin T) (k : Fin K) (hp : r + p.val < M), x (ix2 p k) = X (ix2 ⟨r + p.val, hp⟩ k))
    (hw : ∀ z, w z = W z) (hb : ∀ z, b z = B z)
    (y : (⟨2, ![T, N]⟩ : Shape).Idx) (i : (⟨2, ![M, N]⟩ : Shape).Idx)
    (hi0 : (i 0).val = r + (y 0).val) (hi1 : (i 1).val = (y 1).val) :
    affine x w b y = affine X W B i := by
  obtain ⟨p, q, rfl⟩ : ∃ (p : Fin T) (q : Fin N), y = ix2 p q := ⟨y 0, y 1, eq_ix2 y⟩
  obtain ⟨p', q', rfl⟩ : ∃ (p' : Fin M) (q' : Fin N), i = ix2 p' q' := ⟨i 0, i 1, eq_ix2 i⟩
  have h0 : p'.val = r + p.val := hi0
  have h1 : q' = q := Fin.ext hi1
  subst h1
  have hp' : p' = ⟨r + p.val, h0 ▸ p'.isLt⟩ := Fin.ext h0
  rw [affine_apply, affine_apply, hb]
  refine congrArg (· + B (ix1 q')) (Finset.sum_congr rfl fun k _ => ?_)
  rw [hx p k (h0 ▸ p'.isLt), hw, ← hp']

/-- The contraction index of a plain product is its one coordinate, so the contraction sum is a sum over `Fin K`. -/
theorem plain_sum {M K N : ℕ} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (l : (⟨2, ![M, K]⟩ : Shape).Idx → EReal) (r : (⟨2, ![K, N]⟩ : Shape).Idx → EReal) (p : Fin M) (q : Fin N) :
    ∑ k : d.contr.Idx, l (d.lhsIdx (ix2 p q) k) * r (d.rhsIdx (ix2 p q) k) = ∑ k : Fin K, l (ix2 p k) * r (ix2 k q) := by
  obtain ⟨lc, rc, ln, rn, lb, rb, wf⟩ := d
  simp only at h1 h2 h3 h4 h5 h6
  subst h1 h2 h3 h4 h5 h6
  generalize hD : (⟨[1], [0], [0], [1], [], [], wf⟩ : DotDims ⟨2, ![M, K]⟩ ⟨2, ![K, N]⟩ ⟨2, ![M, N]⟩) = D
  have c1 : D.lhsContracting = [1] := by subst hD; rfl
  have c2 : D.rhsContracting = [0] := by subst hD; rfl
  have hr : D.contr.rank = 1 := by subst hD; rfl
  have hs : D.contr.size ⟨0, by omega⟩ = K := by subst hD; rfl
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ =>
      subst hD
      unfold DotDims.lhsIdx
      split
      · rename_i hb; exact absurd hb List.not_mem_nil
      · split
        · rfl
        · rename_i hn; exact absurd (List.mem_singleton.mpr rfl) hn
    | ⟨1, _⟩ => exact (D.lhsIdx_val_of_single c1 _ _).trans hk)
  have er : D.rhsIdx (ix2 p q) ((contrEquiv1 D K hr hs).symm k) = ix2 k q := funext fun a => Fin.ext (by
    match a with
    | ⟨0, _⟩ => exact (D.rhsIdx_val_of_single c2 _ _).trans hk
    | ⟨1, _⟩ =>
      subst hD
      unfold DotDims.rhsIdx
      split
      · rename_i hb; exact absurd hb List.not_mem_nil
      · split
        · rfl
        · rename_i hn; exact absurd (List.mem_singleton.mpr rfl) hn)
  rw [el, er]

/-- A matrix unit's product of two operands narrowed to bf16 into a zero accumulator, plus a vector re-laid as one
    row and repeated down the rows: at (p, q) it is `affine`. Narrowing is the identity on exact values. -/
theorem matmul_bias_apply {M K N : ℕ} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (x : FVec Ideal ⟨2, ![M, K]⟩ .f32) (w : FVec Ideal ⟨2, ![K, N]⟩ .f32) (b : FVec Ideal ⟨1, ![N]⟩ .f32)
    (hb : FTy.bf16.bits < FTy.f32.bits)
    (hc : (⟨1, ![N]⟩ : Shape).ShapeCasts ⟨2, ![1, N]⟩) (hbc : (⟨2, ![1, N]⟩ : Shape).Broadcasts ⟨2, ![M, N]⟩)
    (p : Fin M) (q : Fin N) :
    addf (matmul d none (truncf .bf16 x hb) (truncf .bf16 w hb) (constant ⟨2, ![M, N]⟩ .f32 0x00000000#32))
        (broadcastTo ⟨2, ![M, N]⟩ (shapeCast ⟨2, ![1, N]⟩ b hc) hbc) (ix2 p q)
      = affine x w b (ix2 p q) := by
  rw [affine_apply, addf_apply, broadcastTo_1b_ab_apply, shapeCast_a_1a_apply]
  refine congrArg (· + b (ix1 q)) ?_
  refine (Ideal.matmul_constant_zero_apply d none _ _ (ix2 p q)).trans ?_
  exact plain_sum d h1 h2 h3 h4 h5 h6 x w p q

/-- A vector broadcast to one row reads, at (u, i), the vector at i. -/
theorem bcast_a_1a_apply {a : ℕ} (x : (⟨1, ![a]⟩ : Shape).Idx → EReal)
    (h : (⟨1, ![a]⟩ : Shape).BroadcastsInDim ⟨2, ![1, a]⟩ ![1]) (u : Fin 1) (i : Fin a) :
    broadcastInDim ⟨2, ![1, a]⟩ ![1] h x (ix2 u i) = x (ix1 i) :=
  broadcastInDim_apply _ h x _ _ (fun ax => match ax with
    | ⟨0, _⟩ => by
      show i.val = if a = 1 then 0 else i.val
      split
      · have := i.isLt; omega
      · rfl)

/-- One row broadcast down the rows reads, at (p, c), the row at c. -/
theorem bcast_1b_ab_apply {a b : ℕ} (v : (⟨2, ![1, b]⟩ : Shape).Idx → EReal)
    (h : (⟨2, ![1, b]⟩ : Shape).BroadcastsInDim ⟨2, ![a, b]⟩ ![0, 1]) (p : Fin a) (c : Fin b) :
    broadcastInDim ⟨2, ![a, b]⟩ ![0, 1] h v (ix2 p c) = v (ix2 (0 : Fin 1) c) :=
  broadcastInDim_apply _ h v _ (ix2 (0 : Fin 1) c) (fun ax => match ax with
    | ⟨0, _⟩ => by
      show (0 : ℕ) = if (1 : ℕ) = 1 then 0 else p.val
      rw [if_pos rfl]
    | ⟨1, _⟩ => by
      show c.val = if b = 1 then 0 else c.val
      split
      · have := c.isLt; omega
      · rfl)

/-- A host contraction of the same kind plus the vector broadcast to one row and then down the rows: `affine`. -/
theorem dot_bias_eq {M K N : ℕ} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (x : FVec Ideal ⟨2, ![M, K]⟩ .f32) (w : FVec Ideal ⟨2, ![K, N]⟩ .f32) (b : FVec Ideal ⟨1, ![N]⟩ .f32)
    (hr : (⟨1, ![N]⟩ : Shape).BroadcastsInDim ⟨2, ![1, N]⟩ ![1])
    (hbc : (⟨2, ![1, N]⟩ : Shape).BroadcastsInDim ⟨2, ![M, N]⟩ ![0, 1]) :
    addf (Host.dotGeneral (F := Ideal) d none x w)
        (broadcastInDim ⟨2, ![M, N]⟩ ![0, 1] hbc (broadcastInDim ⟨2, ![1, N]⟩ ![1] hr b))
      = affine x w b := by
  funext j
  obtain ⟨p, q, rfl⟩ : ∃ (p : Fin M) (q : Fin N), j = ix2 p q := ⟨j 0, j 1, eq_ix2 j⟩
  rw [affine_apply, addf_apply, bcast_1b_ab_apply, bcast_a_1a_apply]
  refine congrArg (· + b (ix1 q)) ?_
  simp only [Host.dotGeneral]
  rw [Ideal.dotGeneral_apply]
  exact plain_sum d h1 h2 h3 h4 h5 h6 x w p q

/-- The float word of 1.0 denotes the extended real one. -/
theorem one_f32 : Ideal.ofBits .f32 0x3F800000#32 = 1 := IdealRules.sign_bit.ideal_onePat .f32

/-- The host's spelling of the logistic function — one over (one plus the exponential of the negation), the ones
    broadcast constants — is, entry by entry, the logistic function a vector unit applies. -/
theorem host_sigmoid_eq {s : Shape} (y : FVec Ideal s .f32) (h : (⟨0, ![]⟩ : Shape).BroadcastsInDim s ![]) :
    Host.divf (F := Ideal) (broadcastInDim s ![] h (constant (F := Ideal) ⟨0, ![]⟩ .f32 0x3F800000#32))
        (addf (broadcastInDim s ![] h (constant (F := Ideal) ⟨0, ![]⟩ .f32 0x3F800000#32)) (Host.exp (F := Ideal) (Host.negf (F := Ideal) y)))
      = logistic y := by
  funext i
  simp only [Host.divf, Host.exp, Host.negf, addf, logistic, broadcastInDim, constant, Ideal.hostDivf_def, Ideal.logistic_def,
    Ideal.ofBits_def, one_f32, Ideal.logistic, Ideal.addf_def, Ideal.hostUnary_exp_def, Ideal.hostNegf_def, Ideal.negf_def]

/-- One graph layer's update of the node features: the logistic function of (features plus aggregated neighbours) times
    the weights plus the bias. -/
def ginLayer {M K N : ℕ} (h n : FVec Ideal ⟨2, ![M, K]⟩ .f32) (w : FVec Ideal ⟨2, ![K, N]⟩ .f32) (b : FVec Ideal ⟨1, ![N]⟩ .f32) :
    FVec Ideal ⟨2, ![M, N]⟩ .f32 :=
  fun i => Ideal.logistic (affine (fun j => h j + n j) w b i)

/-- The vector unit's form: the two operands (each through an identity re-lay) added, narrowed, multiplied into a zero
    accumulator, the bias row added, the logistic function applied. -/
theorem gin_pay_eq {M K N : ℕ} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (x n : FVec Ideal ⟨2, ![M, K]⟩ .f32) (w : FVec Ideal ⟨2, ![K, N]⟩ .f32) (b : FVec Ideal ⟨1, ![N]⟩ .f32)
    (hb : FTy.bf16.bits < FTy.f32.bits) (hs : (⟨2, ![M, K]⟩ : Shape).ShapeCasts ⟨2, ![M, K]⟩)
    (hc : (⟨1, ![N]⟩ : Shape).ShapeCasts ⟨2, ![1, N]⟩) (hbc : (⟨2, ![1, N]⟩ : Shape).Broadcasts ⟨2, ![M, N]⟩) :
    logistic (addf (matmul d none (truncf .bf16 (addf (shapeCast ⟨2, ![M, K]⟩ x hs) (shapeCast ⟨2, ![M, K]⟩ n hs)) hb) (truncf .bf16 w hb)
        (constant ⟨2, ![M, N]⟩ .f32 0x00000000#32)) (broadcastTo ⟨2, ![M, N]⟩ (shapeCast ⟨2, ![1, N]⟩ b hc) hbc))
      = ginLayer x n w b := by
  funext j
  obtain ⟨p, q, rfl⟩ : ∃ (p : Fin M) (q : Fin N), j = ix2 p q := ⟨j 0, j 1, eq_ix2 j⟩
  rw [shapeCast_self, shapeCast_self]
  show Ideal.logistic _ = Ideal.logistic _
  exact congrArg Ideal.logistic (matmul_bias_apply d h1 h2 h3 h4 h5 h6 (addf x n) w b hb hc hbc p q)

/-- A block of T rows of a layer's update, as `affine_rows`. -/
theorem ginLayer_rows {M K N T : ℕ} (H Nb : FVec Ideal ⟨2, ![M, K]⟩ .f32) (W : FVec Ideal ⟨2, ![K, N]⟩ .f32) (B : FVec Ideal ⟨1, ![N]⟩ .f32)
    (x n : FVec Ideal ⟨2, ![T, K]⟩ .f32) (w : FVec Ideal ⟨2, ![K, N]⟩ .f32) (b : FVec Ideal ⟨1, ![N]⟩ .f32) (r : ℕ)
    (hx : ∀ (p : Fin T) (k : Fin K) (hp : r + p.val < M), x (ix2 p k) = H (ix2 ⟨r + p.val, hp⟩ k))
    (hn : ∀ (p : Fin T) (k : Fin K) (hp : r + p.val < M), n (ix2 p k) = Nb (ix2 ⟨r + p.val, hp⟩ k))
    (hw : ∀ z, w z = W z) (hb : ∀ z, b z = B z)
    (y : (⟨2, ![T, N]⟩ : Shape).Idx) (i : (⟨2, ![M, N]⟩ : Shape).Idx)
    (hi0 : (i 0).val = r + (y 0).val) (hi1 : (i 1).val = (y 1).val) :
    ginLayer x n w b y = ginLayer H Nb W B i :=
  congrArg Ideal.logistic (affine_rows (fun j => H j + Nb j) W B (fun j => x j + n j) w b r
    (fun p k hp => by show x (ix2 p k) + n (ix2 p k) = _; rw [hx p k hp, hn p k hp]) hw hb y i hi0 hi1)

/-- The host's form: the contraction of the sum with the weights, the bias broadcast in two steps, and the logistic
    function spelt as one over one plus the exponential of the negation. -/
theorem host_gin_eq {M K N : ℕ} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (h n : FVec Ideal ⟨2, ![M, K]⟩ .f32) (w : FVec Ideal ⟨2, ![K, N]⟩ .f32) (b : FVec Ideal ⟨1, ![N]⟩ .f32)
    (hr : (⟨1, ![N]⟩ : Shape).BroadcastsInDim ⟨2, ![1, N]⟩ ![1])
    (hbc : (⟨2, ![1, N]⟩ : Shape).BroadcastsInDim ⟨2, ![M, N]⟩ ![0, 1])
    (hone : (⟨0, ![]⟩ : Shape).BroadcastsInDim ⟨2, ![M, N]⟩ ![]) :
    Host.divf (F := Ideal) (broadcastInDim ⟨2, ![M, N]⟩ ![] hone (constant (F := Ideal) ⟨0, ![]⟩ .f32 0x3F800000#32))
        (addf (broadcastInDim ⟨2, ![M, N]⟩ ![] hone (constant (F := Ideal) ⟨0, ![]⟩ .f32 0x3F800000#32))
          (Host.exp (F := Ideal) (Host.negf (F := Ideal) (addf (Host.dotGeneral (F := Ideal) d none (addf h n) w)
            (broadcastInDim ⟨2, ![M, N]⟩ ![0, 1] hbc (broadcastInDim ⟨2, ![1, N]⟩ ![1] hr b))))))
      = ginLayer h n w b := by
  rw [host_sigmoid_eq, dot_bias_eq d h1 h2 h3 h4 h5 h6 (addf h n) w b hr hbc]
  rfl

end Cert.LibPlainDot

end
-- ==== Proof.LibMatProd.lean ====
/-
  The product of two matrices over the extended reals, entry by entry: entry (p, q) of x times w is the sum over k of
  x (p, k) · w (k, q). Three readings of it. A host contraction of x's second axis with w's first axis is this product.
  A matrix unit's product of the two operands narrowed to bf16, accumulated into zeros, is this product, since
  narrowing changes nothing on exact values. And a band of consecutive rows of the product is the product of that band
  of rows of x with w, which is what one block of a row-tiled computation holds.
-/
import proofs.«120637_j50062138802388_2_alg».proof.Proof.LibPlainDot

noncomputable section

namespace Cert.LibMatProd

open Idealize.ShloMosaic Idealize.ShloMosaic.ValueIdx Cert.LibPlainDot

/-- Entry (p, q) of rows times columns: the sum over k of x (p, k) · w (k, q). -/
def matProd {M K N : ℕ} (x : FVec Ideal ⟨2, ![M, K]⟩ .f32) (w : FVec Ideal ⟨2, ![K, N]⟩ .f32) : FVec Ideal ⟨2, ![M, N]⟩ .f32 :=
  fun i => ∑ k : Fin K, x (ix2 (n0 := M) (i 0) k) * w (ix2 (n1 := N) k (i 1))

theorem matProd_apply {M K N : ℕ} (x : FVec Ideal ⟨2, ![M, K]⟩ .f32) (w : FVec Ideal ⟨2, ![K, N]⟩ .f32) (p : Fin M) (q : Fin N) :
    matProd x w (ix2 p q) = ∑ k : Fin K, x (ix2 p k) * w (ix2 k q) := rfl

/-- A host contraction of the left operand's second axis with the right operand's first axis is the matrix product. -/
theorem host_dot_eq {M K N : ℕ} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (x : FVec Ideal ⟨2, ![M, K]⟩ .f32) (w : FVec Ideal ⟨2, ![K, N]⟩ .f32) :
    Host.dotGeneral (F := Ideal) d none x w = matProd x w := by
  funext j
  obtain ⟨p, q, rfl⟩ : ∃ (p : Fin M) (q : Fin N), j = ix2 p q := ⟨j 0, j 1, eq_ix2 j⟩
  rw [matProd_apply]
  simp only [Host.dotGeneral]
  rw [Ideal.dotGeneral_apply]
  exact plain_sum d h1 h2 h3 h4 h5 h6 x w p q

/-- A matrix unit's product of two operands narrowed to bf16, accumulated into zeros, is the matrix product of the
    operands themselves: on exact values narrowing is the identity and the zero accumulator adds nothing. -/
theorem matmul_eq {M K N : ℕ} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (x : FVec Ideal ⟨2, ![M, K]⟩ .f32) (w : FVec Ideal ⟨2, ![K, N]⟩ .f32) (hb : FTy.bf16.bits < FTy.f32.bits) :
    matmul d none (truncf .bf16 x hb) (truncf .bf16 w hb) (constant ⟨2, ![M, N]⟩ .f32 0x00000000#32) = matProd x w := by
  funext j
  obtain ⟨p, q, rfl⟩ : ∃ (p : Fin M) (q : Fin N), j = ix2 p q := ⟨j 0, j 1, eq_ix2 j⟩
  rw [matProd_apply]
  refine (Ideal.matmul_constant_zero_apply d none _ _ (ix2 p q)).trans ?_
  exact plain_sum d h1 h2 h3 h4 h5 h6 x w p q

/-- Rows r, …, r + T − 1 of a product: when x holds those rows of X and w is W, the entry of x times w at y is the entry
    of X times W at the index whose row is r plus y's row and whose column is y's. -/
theorem matProd_rows {M K N T : ℕ} (X : FVec Ideal ⟨2, ![M, K]⟩ .f32) (W : FVec Ideal ⟨2, ![K, N]⟩ .f32)
    (x : FVec Ideal ⟨2, ![T, K]⟩ .f32) (w : FVec Ideal ⟨2, ![K, N]⟩ .f32) (r : ℕ)
    (hx : ∀ (p : Fin T) (k : Fin K) (hp : r + p.val < M), x (ix2 p k) = X (ix2 ⟨r + p.val, hp⟩ k))
    (hw : ∀ z, w z = W z)
    (y : (⟨2, ![T, N]⟩ : Shape).Idx) (i : (⟨2, ![M, N]⟩ : Shape).Idx)
    (hi0 : (i 0).val = r + (y 0).val) (hi1 : (i 1).val = (y 1).val) :
    matProd x w y = matProd X W i := by
  obtain ⟨p, q, rfl⟩ : ∃ (p : Fin T) (q : Fin N), y = ix2 p q := ⟨y 0, y 1, eq_ix2 y⟩
  obtain ⟨p', q', rfl⟩ : ∃ (p' : Fin M) (q' : Fin N), i = ix2 p' q' := ⟨i 0, i 1, eq_ix2 i⟩
  have h0 : p'.val = r + p.val := hi0
  have h1 : q' = q := Fin.ext hi1
  subst h1
  have hp' : p' = ⟨r + p.val, h0 ▸ p'.isLt⟩ := Fin.ext h0
  rw [matProd_apply, matProd_apply]
  refine Finset.sum_congr rfl fun k _ => ?_
  rw [hx p k (h0 ▸ p'.isLt), hw, ← hp']

end Cert.LibMatProd

end
-- ==== Proof.LibBiasRelu.lean ====
/-
  A matrix plus a row vector, clamped below at zero: entry (p, q) of `biasRelu a b` is max (a (p, q) + b (0, q)) 0,
  where b is a one-row matrix and 0 is the value of the all-zero float word. Two spellings of it: a vector unit's
  (identity re-lays, the row repeated down the rows, a maximum against the splat zero) and a host's (the row broadcast
  down the rows, a maximum against a broadcast scalar zero). A band of consecutive rows of it is the same function of
  the band of a.
-/
import proofs.«120637_j50062138802388_2_alg».proof.Proof.LibPlainDot

noncomputable section

namespace Cert.LibBiasRelu

open Idealize.ShloMosaic Idealize.ShloMosaic.ValueIdx

/-- Entry (p, q): the larger of a (p, q) + b (0, q) and the value of the zero word. -/
def biasRelu {M N : ℕ} (a : FVec Ideal ⟨2, ![M, N]⟩ .f32) (b : FVec Ideal ⟨2, ![1, N]⟩ .f32) : FVec Ideal ⟨2, ![M, N]⟩ .f32 :=
  fun i => max (a i + b (ix2 (n0 := 1) (n1 := N) (0 : Fin 1) (i 1))) (Ideal.ofBits .f32 0x00000000#32)

theorem biasRelu_apply {M N : ℕ} (a : FVec Ideal ⟨2, ![M, N]⟩ .f32) (b : FVec Ideal ⟨2, ![1, N]⟩ .f32) (p : Fin M) (q : Fin N) :
    biasRelu a b (ix2 p q) = max (a (ix2 p q) + b (ix2 (0 : Fin 1) q)) (Ideal.ofBits .f32 0x00000000#32) := rfl

/-- The vector unit's spelling. -/
theorem vector_form {M N : ℕ} (a : FVec Ideal ⟨2, ![M, N]⟩ .f32) (b : FVec Ideal ⟨2, ![1, N]⟩ .f32)
    (h1 : (⟨2, ![M, N]⟩ : Shape).ShapeCasts ⟨2, ![M, N]⟩) (h2 : (⟨2, ![1, N]⟩ : Shape).ShapeCasts ⟨2, ![1, N]⟩)
    (hb : (⟨2, ![1, N]⟩ : Shape).Broadcasts ⟨2, ![M, N]⟩) :
    maximumf (addf (shapeCast ⟨2, ![M, N]⟩ a h1) (broadcastTo ⟨2, ![M, N]⟩ (shapeCast ⟨2, ![1, N]⟩ b h2) hb))
        (broadcast ⟨2, ![M, N]⟩ (Scalar.ofBits (F := Ideal) .f32 0x00000000#32)) = biasRelu a b := by
  funext j
  obtain ⟨p, q, rfl⟩ : ∃ (p : Fin M) (q : Fin N), j = ix2 p q := ⟨j 0, j 1, eq_ix2 j⟩
  rw [shapeCast_self, shapeCast_self, maximumf_apply, addf_apply, broadcastTo_1b_ab_apply, biasRelu_apply]
  rfl

/-- The host's spelling. -/
theorem host_form {M N : ℕ} (a : FVec Ideal ⟨2, ![M, N]⟩ .f32) (b : FVec Ideal ⟨2, ![1, N]⟩ .f32)
    (hbc : (⟨2, ![1, N]⟩ : Shape).BroadcastsInDim ⟨2, ![M, N]⟩ ![0, 1])
    (h0 : (⟨0, ![]⟩ : Shape).BroadcastsInDim ⟨2, ![M, N]⟩ ![]) :
    maximumf (addf a (broadcastInDim ⟨2, ![M, N]⟩ ![0, 1] hbc b))
        (broadcastInDim ⟨2, ![M, N]⟩ ![] h0 (constant (F := Ideal) ⟨0, ![]⟩ .f32 0x00000000#32)) = biasRelu a b := by
  funext j
  obtain ⟨p, q, rfl⟩ : ∃ (p : Fin M) (q : Fin N), j = ix2 p q := ⟨j 0, j 1, eq_ix2 j⟩
  have hz : broadcastInDim ⟨2, ![M, N]⟩ ![] h0 (constant (F := Ideal) ⟨0, ![]⟩ .f32 0x00000000#32) (ix2 p q)
      = Ideal.ofBits .f32 0x00000000#32 :=
    (broadcastInDim_apply _ h0 _ _ (fun a => a.elim0) (fun ax => ax.elim0)).trans rfl
  rw [maximumf_apply, addf_apply, Cert.LibPlainDot.bcast_1b_ab_apply, biasRelu_apply, hz]

/-- Rows r, …, r + T − 1: when a holds those rows of A and b is B, entry (p, q) of `biasRelu a b` is entry (r + p, q)
    of `biasRelu A B`. -/
theorem biasRelu_rows {M N T : ℕ} (A : FVec Ideal ⟨2, ![M, N]⟩ .f32) (B : FVec Ideal ⟨2, ![1, N]⟩ .f32)
    (a : FVec Ideal ⟨2, ![T, N]⟩ .f32) (b : FVec Ideal ⟨2, ![1, N]⟩ .f32) (r : ℕ)
    (ha : ∀ (p : Fin T) (q : Fin N) (hp : r + p.val < M), a (ix2 p q) = A (ix2 ⟨r + p.val, hp⟩ q))
    (hb : ∀ z, b z = B z) (p : Fin T) (q : Fin N) (hp : r + p.val < M) :
    biasRelu a b (ix2 p q) = biasRelu A B (ix2 ⟨r + p.val, hp⟩ q) := by
  rw [biasRelu_apply, biasRelu_apply, ha p q hp, hb]

end Cert.LibBiasRelu

end
-- ==== Proof.LibRowScale.lean ====
/-
  A matrix scaled row by row: entry (p, q) of `rowScale x s` is x (p, q) · s (p, 0), where s is a one-column matrix.
  Two spellings of it: a vector unit's product of x with the column repeated along the rows, and a host product of x
  with the column broadcast along the rows. A band of consecutive rows of a row-scaled matrix is the band of x scaled
  by the band of s. Also: a vector viewed as one column by a reshape is the vector broadcast into one column, and a
  vector viewed as one row by a reshape is the vector broadcast into one row.
-/
import Idealize.ShloMosaic.Lib.ValueIdx
import Idealize.ShloMosaic.Lib.ValueLayout
import Idealize.ShloMosaic.Lib.Pipeline.Value
import Idealize.ShloMosaic.PureOps.Ideal.Laws

noncomputable section

namespace Cert.LibRowScale

open Idealize.ShloMosaic Idealize.ShloMosaic.ValueIdx

/-- Entry (p, q) of x scaled row by row by the one-column s: x (p, q) · s (p, 0). -/
def rowScale {M N : ℕ} (x : FVec Ideal ⟨2, ![M, N]⟩ .f32) (s : FVec Ideal ⟨2, ![M, 1]⟩ .f32) : FVec Ideal ⟨2, ![M, N]⟩ .f32 :=
  fun i => x i * s (ix2 (n0 := M) (n1 := 1) (i 0) (0 : Fin 1))

theorem rowScale_apply {M N : ℕ} (x : FVec Ideal ⟨2, ![M, N]⟩ .f32) (s : FVec Ideal ⟨2, ![M, 1]⟩ .f32) (p : Fin M) (q : Fin N) :
    rowScale x s (ix2 p q) = x (ix2 p q) * s (ix2 p (0 : Fin 1)) := rfl

/-- A one-column matrix repeated along the rows reads, at (p, c), its entry (p, 0). -/
theorem broadcastTo_col_apply {M N : ℕ} (v : FVec Ideal ⟨2, ![M, 1]⟩ .f32) (h : (⟨2, ![M, 1]⟩ : Shape).Broadcasts ⟨2, ![M, N]⟩)
    (p : Fin M) (c : Fin N) : broadcastTo ⟨2, ![M, N]⟩ v h (ix2 p c) = v (ix2 p (0 : Fin 1)) := by
  refine broadcastTo_apply v h (ix2 p c) (ix2 p (0 : Fin 1)) fun ax => ?_
  match ax with
  | ⟨0, _⟩ =>
    show p.val = if M = 1 then 0 else p.val
    split
    · have := p.isLt; omega
    · rfl
  | ⟨1, _⟩ => rfl

/-- A one-column matrix broadcast along the rows by the host reads, at (p, c), its entry (p, 0). -/
theorem broadcastInDim_col_apply {M N : ℕ} (v : FVec Ideal ⟨2, ![M, 1]⟩ .f32)
    (h : (⟨2, ![M, 1]⟩ : Shape).BroadcastsInDim ⟨2, ![M, N]⟩ ![0, 1]) (p : Fin M) (c : Fin N) :
    broadcastInDim ⟨2, ![M, N]⟩ ![0, 1] h v (ix2 p c) = v (ix2 p (0 : Fin 1)) :=
  broadcastInDim_apply _ h v _ (ix2 p (0 : Fin 1)) (fun ax => match ax with
    | ⟨0, _⟩ => by
      show p.val = if M = 1 then 0 else p.val
      split
      · have := p.isLt; omega
      · rfl
    | ⟨1, _⟩ => by
      show (0 : ℕ) = if (1 : ℕ) = 1 then 0 else c.val
      rw [if_pos rfl])

/-- The vector unit's spelling: x and s each through an identity re-lay, s repeated along the rows, the product. -/
theorem mul_broadcastTo_eq {M N : ℕ} (x : FVec Ideal ⟨2, ![M, N]⟩ .f32) (s : FVec Ideal ⟨2, ![M, 1]⟩ .f32)
    (h1 : (⟨2, ![M, N]⟩ : Shape).ShapeCasts ⟨2, ![M, N]⟩) (h2 : (⟨2, ![M, 1]⟩ : Shape).ShapeCasts ⟨2, ![M, 1]⟩)
    (hb : (⟨2, ![M, 1]⟩ : Shape).Broadcasts ⟨2, ![M, N]⟩) :
    mulf (shapeCast ⟨2, ![M, N]⟩ x h1) (broadcastTo ⟨2, ![M, N]⟩ (shapeCast ⟨2, ![M, 1]⟩ s h2) hb) = rowScale x s := by
  funext j
  obtain ⟨p, q, rfl⟩ : ∃ (p : Fin M) (q : Fin N), j = ix2 p q := ⟨j 0, j 1, eq_ix2 j⟩
  rw [shapeCast_self, shapeCast_self, mulf_apply, broadcastTo_col_apply, rowScale_apply]

/-- The host's spelling: the product of x with s broadcast along the rows. -/
theorem mul_broadcastInDim_eq {M N : ℕ} (x : FVec Ideal ⟨2, ![M, N]⟩ .f32) (s : FVec Ideal ⟨2, ![M, 1]⟩ .f32)
    (hb : (⟨2, ![M, 1]⟩ : Shape).BroadcastsInDim ⟨2, ![M, N]⟩ ![0, 1]) :
    mulf x (broadcastInDim ⟨2, ![M, N]⟩ ![0, 1] hb s) = rowScale x s := by
  funext j
  obtain ⟨p, q, rfl⟩ : ∃ (p : Fin M) (q : Fin N), j = ix2 p q := ⟨j 0, j 1, eq_ix2 j⟩
  rw [mulf_apply, broadcastInDim_col_apply, rowScale_apply]

/-- Rows r, …, r + T − 1 of a row-scaled matrix: when x holds those rows of X and s those rows of S, the entry of
    `rowScale x s` at y is the entry of `rowScale X S` at the index whose row is r plus y's row and whose column is y's. -/
theorem rowScale_rows {M N T : ℕ} (X : FVec Ideal ⟨2, ![M, N]⟩ .f32) (S : FVec Ideal ⟨2, ![M, 1]⟩ .f32)
    (x : FVec Ideal ⟨2, ![T, N]⟩ .f32) (s : FVec Ideal ⟨2, ![T, 1]⟩ .f32) (r : ℕ)
    (hx : ∀ (p : Fin T) (q : Fin N) (hp : r + p.val < M), x (ix2 p q) = X (ix2 ⟨r + p.val, hp⟩ q))
    (hs : ∀ (p : Fin T) (hp : r + p.val < M), s (ix2 p (0 : Fin 1)) = S (ix2 ⟨r + p.val, hp⟩ (0 : Fin 1)))
    (y : (⟨2, ![T, N]⟩ : Shape).Idx) (i : (⟨2, ![M, N]⟩ : Shape).Idx)
    (hi0 : (i 0).val = r + (y 0).val) (hi1 : (i 1).val = (y 1).val) :
    rowScale x s y = rowScale X S i := by
  obtain ⟨p, q, rfl⟩ : ∃ (p : Fin T) (q : Fin N), y = ix2 p q := ⟨y 0, y 1, eq_ix2 y⟩
  obtain ⟨p', q', rfl⟩ : ∃ (p' : Fin M) (q' : Fin N), i = ix2 p' q' := ⟨i 0, i 1, eq_ix2 i⟩
  have h0 : p'.val = r + p.val := hi0
  have h1 : q' = q := Fin.ext hi1
  subst h1
  have hp' : p' = ⟨r + p.val, h0 ▸ p'.isLt⟩ := Fin.ext h0
  rw [rowScale_apply, rowScale_apply, hx p q' (h0 ▸ p'.isLt), hs p (h0 ▸ p'.isLt), ← hp']

/-- A vector re-laid as one column is the vector broadcast into one column. -/
theorem col_cast_eq_bcast {a : ℕ} {α : Type} (v : (⟨1, ![a]⟩ : Shape).Idx → α) (hc : (⟨1, ![a]⟩ : Shape).ShapeCasts ⟨2, ![a, 1]⟩)
    (hb : (⟨1, ![a]⟩ : Shape).BroadcastsInDim ⟨2, ![a, 1]⟩ ![0]) :
    shapeCast ⟨2, ![a, 1]⟩ v hc = broadcastInDim ⟨2, ![a, 1]⟩ ![0] hb v := by
  funext j
  obtain ⟨i, u, rfl⟩ : ∃ (i : Fin a) (u : Fin 1), j = ix2 i u := ⟨j 0, j 1, eq_ix2 j⟩
  have e1 : shapeCast ⟨2, ![a, 1]⟩ v hc (ix2 i u) = v (ix1 i) :=
    shapeCast_apply v hc _ _ (by
      have hu : u.val = 0 := by omega
      rw [Shape.rowMajor_val_two, Shape.rowMajor_val_one]
      show i.val = i.val * 1 + u.val
      rw [hu, Nat.mul_one, Nat.add_zero])
  have e2 : broadcastInDim ⟨2, ![a, 1]⟩ ![0] hb v (ix2 i u) = v (ix1 i) :=
    broadcastInDim_apply _ hb v _ (ix1 i) (fun ax => match ax with
      | ⟨0, _⟩ => by
        show i.val = if a = 1 then 0 else i.val
        split
        · have := i.isLt; omega
        · rfl)
  rw [e1, e2]

/-- A vector re-laid as one row is the vector broadcast into one row. -/
theorem row_cast_eq_bcast {a : ℕ} {α : Type} (v : (⟨1, ![a]⟩ : Shape).Idx → α) (hc : (⟨1, ![a]⟩ : Shape).ShapeCasts ⟨2, ![1, a]⟩)
    (hb : (⟨1, ![a]⟩ : Shape).BroadcastsInDim ⟨2, ![1, a]⟩ ![1]) :
    shapeCast ⟨2, ![1, a]⟩ v hc = broadcastInDim ⟨2, ![1, a]⟩ ![1] hb v := by
  funext j
  obtain ⟨u, i, rfl⟩ : ∃ (u : Fin 1) (i : Fin a), j = ix2 u i := ⟨j 0, j 1, eq_ix2 j⟩
  have e1 : shapeCast ⟨2, ![1, a]⟩ v hc (ix2 u i) = v (ix1 i) :=
    shapeCast_apply v hc _ _ (by
      have hu : u.val = 0 := by omega
      rw [Shape.rowMajor_val_two, Shape.rowMajor_val_one]
      show i.val = u.val * a + i.val
      rw [hu, Nat.zero_mul, Nat.zero_add])
  have e2 : broadcastInDim ⟨2, ![1, a]⟩ ![1] hb v (ix2 u i) = v (ix1 i) :=
    broadcastInDim_apply _ hb v _ (ix1 i) (fun ax => match ax with
      | ⟨0, _⟩ => by
        show i.val = if a = 1 then 0 else i.val
        split
        · have := i.isLt; omega
        · rfl)
  rw [e1, e2]

end Cert.LibRowScale

end
-- ==== Proof.LibSegment.lean ====
/-
  Rows picked out of an array by a column of integer indices, and rows added into an array at a column of
  integer indices, read at an index.

  A column `idx : [M, 1]` of integers names, for each of `M` edges, one of `N` rows.
  * Picking (`x[idx]`, a `stablehlo.gather` with one collapsed axis): edge `e` reads row `idx[e, 0]`, the integer
    taken signed and clamped into `[0, N - 1]` — for a flat array `[N]` (`gather_entries_apply`) and for an array
    of rows `[N, D]` (`gather_rows_apply`).
  * Adding (`zeros.at[idx].add(upd)`, a `stablehlo.scatter` whose body adds): at the exact extended reals, row `n`
    of the result is the operand's row plus the sum of the updates of exactly those edges whose integer, taken
    signed and NOT clamped, is `n`; an edge whose integer is outside `[0, N)` contributes nowhere — for a flat
    array (`scatterAdd_entries_apply`) and for rows (`scatterAdd_rows_apply`).
  Both are stated for any extents, over the dimension numbers spelt out as `entryDims`, `rowDims`, `entryAddDims`,
  `rowAddDims`; a program's own record of the same numbers is one of these by `rfl`.
-/
import Idealize.ShloMosaic.PureOps.Ideal
import Idealize.ShloMosaic.Lib.ValueIdx

noncomputable section

open scoped BigOperators

namespace Cert.LibSegment

open Idealize.ShloMosaic Idealize.ShloMosaic.ValueIdx

variable {α : Type}

/-- The entry `(e, 0)` of a column `[M, 1]`. -/
abbrev colIdx {M : Nat} (e : Fin M) : (⟨2, ![M, 1]⟩ : Shape).Idx := ix2 e (⟨0, Nat.one_pos⟩ : Fin 1)

/-- An integer word taken signed and clamped into `[0, N - 1]`: the row a gather reads. -/
def clampRow (N : Nat) (hN : 0 < N) {w : Nat} (v : BitVec w) : Fin N := ⟨min v.toInt.toNat (N - 1), by omega⟩

/-- A rank-1 index set is its one coordinate's range. -/
def idxEquiv1 {n : Nat} : (⟨1, ![n]⟩ : Shape).Idx ≃ Fin n where
  toFun i := i 0
  invFun a := ix1 a
  left_inv i := (eq_ix1 i).symm
  right_inv _ := rfl

/-! ## Picking entries of a flat array -/

/-- The dimension numbers of `x[idx]` for `x : [N]`, `idx : [M, 1]`, result `[M]`. -/
abbrev entryDims (N M : Nat) (wf : GatherDims.WF ⟨1, ![N]⟩ ⟨2, ![M, 1]⟩ ⟨1, ![M]⟩ [] [0] [] [0] [] 1 ![1]) :
    GatherDims ⟨1, ![N]⟩ ⟨2, ![M, 1]⟩ ⟨1, ![M]⟩ where
  offsetDims := []
  collapsedSliceDims := [0]
  operandBatchingDims := []
  startIndicesBatchingDims := []
  startIndexMap := [0]
  indexVectorDim := 1
  sliceSizes := ![1]
  wf := wf

/-- Edge `e` of `x[idx]` is `x` at the clamped integer `idx[e, 0]`. -/
theorem gather_entries_apply {N M w : Nat} (hN : 0 < N)
    (wf : GatherDims.WF ⟨1, ![N]⟩ ⟨2, ![M, 1]⟩ ⟨1, ![M]⟩ [] [0] [] [0] [] 1 ![1])
    (x : (⟨1, ![N]⟩ : Shape).Idx → α) (idx : IVec ⟨2, ![M, 1]⟩ w) (e : Fin M) :
    Host.gather (entryDims N M wf) x idx (ix1 e) = x (ix1 (clampRow N hN (idx (colIdx e)))) := by
  unfold Host.gather
  congr 1
  funext a
  obtain rfl : a = 0 := Subsingleton.elim _ _
  refine Fin.ext ?_
  show (entryDims N M wf).start (ix1 e) idx 0 + (entryDims N M wf).batchCoord (ix1 e) 0
    + (entryDims N M wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (entryDims N M wf).startIndexMap from List.mem_singleton.mpr rfl)]
  have hsi : (entryDims N M wf).siIdx (ix1 e) ⟨List.idxOf (0 : Fin 1) (entryDims N M wf).startIndexMap,
      List.idxOf_lt_length_iff.2 (List.mem_singleton.mpr rfl)⟩ = colIdx e := by
    funext b; refine Fin.ext ?_
    match b with
    | ⟨0, _⟩ => rfl
    | ⟨1, _⟩ => rfl
  rw [hsi]
  rfl

/-! ## Picking rows -/

/-- The dimension numbers of `x[idx]` for `x : [N, D]`, `idx : [M, 1]`, result `[M, D]`: whole rows. -/
abbrev rowDims (N D M : Nat) (wf : GatherDims.WF ⟨2, ![N, D]⟩ ⟨2, ![M, 1]⟩ ⟨2, ![M, D]⟩ [1] [0] [] [0] [] 1 ![1, D]) :
    GatherDims ⟨2, ![N, D]⟩ ⟨2, ![M, 1]⟩ ⟨2, ![M, D]⟩ where
  offsetDims := [1]
  collapsedSliceDims := [0]
  operandBatchingDims := []
  startIndicesBatchingDims := []
  startIndexMap := [0]
  indexVectorDim := 1
  sliceSizes := ![1, D]
  wf := wf

/-- Entry `(e, j)` of the picked rows is `x` at row (the clamped integer `idx[e, 0]`), column `j`. -/
theorem gather_rows_apply {N D M w : Nat} (hN : 0 < N)
    (wf : GatherDims.WF ⟨2, ![N, D]⟩ ⟨2, ![M, 1]⟩ ⟨2, ![M, D]⟩ [1] [0] [] [0] [] 1 ![1, D])
    (x : (⟨2, ![N, D]⟩ : Shape).Idx → α) (idx : IVec ⟨2, ![M, 1]⟩ w) (e : Fin M) (j : Fin D) :
    Host.gather (rowDims N D M wf) x idx (ix2 e j) = x (ix2 (clampRow N hN (idx (colIdx e))) j) := by
  unfold Host.gather
  congr 1
  funext a
  refine Fin.ext ?_
  match a with
  | ⟨0, _⟩ =>
    show (rowDims N D M wf).start (ix2 e j) idx 0 + (rowDims N D M wf).batchCoord (ix2 e j) 0
      + (rowDims N D M wf).offCoord (ix2 e j) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N D M wf).startIndexMap from List.mem_singleton.mpr rfl)]
    have hsi : (rowDims N D M wf).siIdx (ix2 e j) ⟨List.idxOf (0 : Fin 2) (rowDims N D M wf).startIndexMap,
        List.idxOf_lt_length_iff.2 (List.mem_singleton.mpr rfl)⟩ = colIdx e := by
      funext b; refine Fin.ext ?_
      match b with
      | ⟨0, _⟩ => rfl
      | ⟨1, _⟩ => rfl
    rw [hsi]
    rfl
  | ⟨1, _⟩ =>
    show (rowDims N D M wf).start (ix2 e j) idx 1 + (rowDims N D M wf).batchCoord (ix2 e j) 1
      + (rowDims N D M wf).offCoord (ix2 e j) 1 = j.val
    rw [GatherDims.batchCoord_eq_zero _ _ _ List.not_mem_nil]
    have hs : (rowDims N D M wf).start (ix2 e j) idx 1 = 0 := by
      unfold GatherDims.start
      rw [dif_neg (show (1 : Fin 2) ∉ [(0 : Fin 2)] from by decide)]
    have hk : (1 : Fin 2) ∈ (rowDims N D M wf).sKept :=
      show (1 : Fin 2) ∈ (List.finRange 2).filter (· ∉ [(0 : Fin 2)] ++ []) from by decide
    rw [hs]
    unfold GatherDims.offCoord
    rw [dif_pos hk]
    simp only [Nat.zero_add, Nat.add_zero]
    rfl

/-! ## Adding entries into a flat array -/

/-- The dimension numbers of `x.at[idx].add(upd)` for `x : [N]`, `idx : [M, 1]`, `upd : [M]`. -/
abbrev entryAddDims (N M : Nat) (wf : ScatterDims.WF ⟨1, ![N]⟩ ⟨2, ![M, 1]⟩ ⟨1, ![M]⟩ [] [0] [0] 1) :
    ScatterDims ⟨1, ![N]⟩ ⟨2, ![M, 1]⟩ ⟨1, ![M]⟩ where
  updateWindowDims := []
  insertedWindowDims := [0]
  scatterDimsToOperandDims := [0]
  indexVectorDim := 1
  wf := wf

/-- Where edge `e`'s update lands: at its integer, signed. -/
theorem entryAdd_pos {N M w : Nat} (wf : ScatterDims.WF ⟨1, ![N]⟩ ⟨2, ![M, 1]⟩ ⟨1, ![M]⟩ [] [0] [0] 1)
    (idx : IVec ⟨2, ![M, 1]⟩ w) (e : Fin M) (a : Fin 1) :
    (entryAddDims N M wf).start (ix1 e) idx a + ((entryAddDims N M wf).window (ix1 e) a : Int)
      = (idx (colIdx e)).toInt := by
  obtain rfl : a = 0 := Subsingleton.elim _ _
  have hw : (entryAddDims N M wf).window (ix1 e) 0 = 0 := by
    unfold ScatterDims.window
    have hk : (0 : Fin 1) ∉ (entryAddDims N M wf).sKept :=
      show (0 : Fin 1) ∉ (List.finRange 1).filter (· ∉ [(0 : Fin 1)]) from by decide
    rw [dif_neg hk]
  rw [hw]
  unfold ScatterDims.start
  rw [dif_pos (show (0 : Fin 1) ∈ (entryAddDims N M wf).scatterDimsToOperandDims from List.mem_singleton.mpr rfl)]
  have hsi : (entryAddDims N M wf).siIdx (ix1 e) ⟨List.idxOf (0 : Fin 1) (entryAddDims N M wf).scatterDimsToOperandDims,
      List.idxOf_lt_length_iff.2 (List.mem_singleton.mpr rfl)⟩ = colIdx e := by
    funext b; refine Fin.ext ?_
    match b with
    | ⟨0, _⟩ => rfl
    | ⟨1, _⟩ => rfl
  rw [hsi]
  simp

/-- Edge `e`'s update lands on entry `n` exactly when its integer, signed, is `n`. -/
theorem entryAdd_resultIdx_iff {N M w : Nat} (wf : ScatterDims.WF ⟨1, ![N]⟩ ⟨2, ![M, 1]⟩ ⟨1, ![M]⟩ [] [0] [0] 1)
    (idx : IVec ⟨2, ![M, 1]⟩ w) (e : Fin M) (n : Fin N) :
    (entryAddDims N M wf).resultIdx? (ix1 e) idx = some (ix1 n) ↔ (idx (colIdx e)).toInt = (n.val : Int) := by
  unfold ScatterDims.resultIdx?
  constructor
  · intro h
    split at h
    · next hb =>
      have h0 := congrArg Fin.val (congrFun (Option.some.inj h) 0)
      have h1 := (hb 0).1
      simp only [entryAdd_pos] at h0 h1
      have h2 : (idx (colIdx e)).toInt.toNat = n.val := h0
      omega
    · exact absurd h (by simp)
  · intro h
    have hb : ∀ a, 0 ≤ (entryAddDims N M wf).start (ix1 e) idx a + ((entryAddDims N M wf).window (ix1 e) a : Int)
        ∧ (entryAddDims N M wf).start (ix1 e) idx a + ((entryAddDims N M wf).window (ix1 e) a : Int)
          < ((⟨1, ![N]⟩ : Shape).size a : Int) := by
      intro a
      obtain rfl : a = 0 := Subsingleton.elim _ _
      rw [entryAdd_pos, h]
      exact ⟨Int.natCast_nonneg _, by exact_mod_cast n.isLt⟩
    rw [dif_pos hb]
    congr 1
    funext a
    obtain rfl : a = 0 := Subsingleton.elim _ _
    refine Fin.ext ?_
    show ((entryAddDims N M wf).start (ix1 e) idx 0 + ((entryAddDims N M wf).window (ix1 e) 0 : Int)).toNat = n.val
    rw [entryAdd_pos, h]
    simp

/-- Entry `n` after the additions: the operand's entry plus the updates of the edges whose integer is `n`. -/
theorem scatterAdd_entries_apply {N M w : Nat} (wf : ScatterDims.WF ⟨1, ![N]⟩ ⟨2, ![M, 1]⟩ ⟨1, ![M]⟩ [] [0] [0] 1)
    (x : (⟨1, ![N]⟩ : Shape).Idx → EReal) (idx : IVec ⟨2, ![M, 1]⟩ w) (upd : (⟨1, ![M]⟩ : Shape).Idx → EReal) (n : Fin N) :
    Ideal.hostScatterAdd (entryAddDims N M wf) x idx upd (ix1 n)
      = x (ix1 n) + ∑ e ∈ Finset.univ.filter (fun e : Fin M => (idx (colIdx e)).toInt = (n.val : Int)), upd (ix1 e) := by
  unfold Ideal.hostScatterAdd
  congr 1
  rw [Finset.sum_filter, Finset.sum_filter]
  refine Fintype.sum_equiv idxEquiv1 _ _ (fun i => ?_)
  rw [eq_ix1 i]
  exact if_congr (entryAdd_resultIdx_iff wf idx (i 0) n) rfl rfl

/-- The same for the host operation as a program prints it. -/
theorem hostScatterAdd_entries_apply {N M w : Nat} {φ : FTy}
    (wf : ScatterDims.WF ⟨1, ![N]⟩ ⟨2, ![M, 1]⟩ ⟨1, ![M]⟩ [] [0] [0] 1)
    (x : FVec Ideal ⟨1, ![N]⟩ φ) (idx : IVec ⟨2, ![M, 1]⟩ w) (upd : FVec Ideal ⟨1, ![M]⟩ φ) (n : Fin N) :
    Host.scatterAdd (F := Ideal) (entryAddDims N M wf) x idx upd (ix1 n)
      = x (ix1 n) + ∑ e ∈ Finset.univ.filter (fun e : Fin M => (idx (colIdx e)).toInt = (n.val : Int)), upd (ix1 e) := by
  unfold Host.scatterAdd
  rw [Ideal.hostScatterAdd_def]
  exact scatterAdd_entries_apply wf x idx upd n

/-! ## Adding rows -/

/-- The dimension numbers of `x.at[idx].add(upd)` for `x : [N, D]`, `idx : [M, 1]`, `upd : [M, D]`: whole rows. -/
abbrev rowAddDims (N D M : Nat) (wf : ScatterDims.WF ⟨2, ![N, D]⟩ ⟨2, ![M, 1]⟩ ⟨2, ![M, D]⟩ [1] [0] [0] 1) :
    ScatterDims ⟨2, ![N, D]⟩ ⟨2, ![M, 1]⟩ ⟨2, ![M, D]⟩ where
  updateWindowDims := [1]
  insertedWindowDims := [0]
  scatterDimsToOperandDims := [0]
  indexVectorDim := 1
  wf := wf

/-- Where entry `(e, c)` of the updates lands, row coordinate: at edge `e`'s integer, signed. -/
theorem rowAdd_pos0 {N D M w : Nat} (wf : ScatterDims.WF ⟨2, ![N, D]⟩ ⟨2, ![M, 1]⟩ ⟨2, ![M, D]⟩ [1] [0] [0] 1)
    (idx : IVec ⟨2, ![M, 1]⟩ w) (e : Fin M) (c : Fin D) :
    (rowAddDims N D M wf).start (ix2 e c) idx 0 + ((rowAddDims N D M wf).window (ix2 e c) 0 : Int)
      = (idx (colIdx e)).toInt := by
  have hw : (rowAddDims N D M wf).window (ix2 e c) 0 = 0 := by
    unfold ScatterDims.window
    have hk : (0 : Fin 2) ∉ (rowAddDims N D M wf).sKept :=
      show (0 : Fin 2) ∉ (List.finRange 2).filter (· ∉ [(0 : Fin 2)]) from by decide
    rw [dif_neg hk]
  rw [hw]
  unfold ScatterDims.start
  rw [dif_pos (show (0 : Fin 2) ∈ (rowAddDims N D M wf).scatterDimsToOperandDims from List.mem_singleton.mpr rfl)]
  have hsi : (rowAddDims N D M wf).siIdx (ix2 e c) ⟨List.idxOf (0 : Fin 2) (rowAddDims N D M wf).scatterDimsToOperandDims,
      List.idxOf_lt_length_iff.2 (List.mem_singleton.mpr rfl)⟩ = colIdx e := by
    funext b; refine Fin.ext ?_
    match b with
    | ⟨0, _⟩ => rfl
    | ⟨1, _⟩ => rfl
  rw [hsi]
  simp

/-- Where entry `(e, c)` of the updates lands, column coordinate: at `c`. -/
theorem rowAdd_pos1 {N D M w : Nat} (wf : ScatterDims.WF ⟨2, ![N, D]⟩ ⟨2, ![M, 1]⟩ ⟨2, ![M, D]⟩ [1] [0] [0] 1)
    (idx : IVec ⟨2, ![M, 1]⟩ w) (e : Fin M) (c : Fin D) :
    (rowAddDims N D M wf).start (ix2 e c) idx 1 + ((rowAddDims N D M wf).window (ix2 e c) 1 : Int) = (c.val : Int) := by
  have hs : (rowAddDims N D M wf).start (ix2 e c) idx 1 = 0 := by
    unfold ScatterDims.start
    rw [dif_neg (show (1 : Fin 2) ∉ [(0 : Fin 2)] from by decide)]
  have hw : (rowAddDims N D M wf).window (ix2 e c) 1 = c.val := by
    unfold ScatterDims.window
    have hk : (1 : Fin 2) ∈ (rowAddDims N D M wf).sKept :=
      show (1 : Fin 2) ∈ (List.finRange 2).filter (· ∉ [(0 : Fin 2)]) from by decide
    rw [dif_pos hk]
    rfl
  rw [hs, hw]
  simp

/-- Entry `(e, c)` of the updates lands on `(n, j)` exactly when edge `e`'s integer, signed, is `n` and `c = j`. -/
theorem rowAdd_resultIdx_iff {N D M w : Nat} (wf : ScatterDims.WF ⟨2, ![N, D]⟩ ⟨2, ![M, 1]⟩ ⟨2, ![M, D]⟩ [1] [0] [0] 1)
    (idx : IVec ⟨2, ![M, 1]⟩ w) (e : Fin M) (c : Fin D) (n : Fin N) (j : Fin D) :
    (rowAddDims N D M wf).resultIdx? (ix2 e c) idx = some (ix2 n j)
      ↔ (idx (colIdx e)).toInt = (n.val : Int) ∧ c = j := by
  unfold ScatterDims.resultIdx?
  constructor
  · intro h
    split at h
    · next hb =>
      have h0 := congrArg Fin.val (congrFun (Option.some.inj h) 0)
      have h1 := congrArg Fin.val (congrFun (Option.some.inj h) 1)
      have h2 := (hb 0).1
      simp only [rowAdd_pos0] at h0 h2
      simp only [rowAdd_pos1] at h1
      have h3 : (idx (colIdx e)).toInt.toNat = n.val := h0
      have h4 : ((c.val : Int)).toNat = j.val := h1
      refine ⟨by omega, Fin.ext (by simpa using h4)⟩
    · exact absurd h (by simp)
  · rintro ⟨h, rfl⟩
    have hb : ∀ a, 0 ≤ (rowAddDims N D M wf).start (ix2 e c) idx a + ((rowAddDims N D M wf).window (ix2 e c) a : Int)
        ∧ (rowAddDims N D M wf).start (ix2 e c) idx a + ((rowAddDims N D M wf).window (ix2 e c) a : Int)
          < ((⟨2, ![N, D]⟩ : Shape).size a : Int) := by
      intro a
      match a with
      | ⟨0, _⟩ =>
        show 0 ≤ (rowAddDims N D M wf).start (ix2 e c) idx 0 + ((rowAddDims N D M wf).window (ix2 e c) 0 : Int)
          ∧ (rowAddDims N D M wf).start (ix2 e c) idx 0 + ((rowAddDims N D M wf).window (ix2 e c) 0 : Int) < (N : Int)
        rw [rowAdd_pos0, h]
        exact ⟨Int.natCast_nonneg _, by exact_mod_cast n.isLt⟩
      | ⟨1, _⟩ =>
        show 0 ≤ (rowAddDims N D M wf).start (ix2 e c) idx 1 + ((rowAddDims N D M wf).window (ix2 e c) 1 : Int)
          ∧ (rowAddDims N D M wf).start (ix2 e c) idx 1 + ((rowAddDims N D M wf).window (ix2 e c) 1 : Int) < (D : Int)
        rw [rowAdd_pos1]
        exact ⟨Int.natCast_nonneg _, by exact_mod_cast c.isLt⟩
    rw [dif_pos hb]
    congr 1
    funext a
    refine Fin.ext ?_
    match a with
    | ⟨0, _⟩ =>
      show ((rowAddDims N D M wf).start (ix2 e c) idx 0 + ((rowAddDims N D M wf).window (ix2 e c) 0 : Int)).toNat = n.val
      rw [rowAdd_pos0, h]; simp
    | ⟨1, _⟩ =>
      show ((rowAddDims N D M wf).start (ix2 e c) idx 1 + ((rowAddDims N D M wf).window (ix2 e c) 1 : Int)).toNat = c.val
      rw [rowAdd_pos1]; simp

/-- Entry `(n, j)` after the additions: the operand's entry plus column `j` of the updates of the edges whose
    integer is `n`. -/
theorem scatterAdd_rows_apply {N D M w : Nat} (wf : ScatterDims.WF ⟨2, ![N, D]⟩ ⟨2, ![M, 1]⟩ ⟨2, ![M, D]⟩ [1] [0] [0] 1)
    (x : (⟨2, ![N, D]⟩ : Shape).Idx → EReal) (idx : IVec ⟨2, ![M, 1]⟩ w) (upd : (⟨2, ![M, D]⟩ : Shape).Idx → EReal)
    (n : Fin N) (j : Fin D) :
    Ideal.hostScatterAdd (rowAddDims N D M wf) x idx upd (ix2 n j)
      = x (ix2 n j) + ∑ e ∈ Finset.univ.filter (fun e : Fin M => (idx (colIdx e)).toInt = (n.val : Int)), upd (ix2 e j) := by
  unfold Ideal.hostScatterAdd
  congr 1
  rw [Finset.sum_filter, Finset.sum_filter, sum_idx2]
  refine Finset.sum_congr rfl (fun e _ => ?_)
  by_cases hA : (idx (colIdx e)).toInt = (n.val : Int)
  · rw [if_pos hA]
    rw [Finset.sum_eq_single j]
    · rw [if_pos ((rowAdd_resultIdx_iff wf idx e j n j).mpr ⟨hA, rfl⟩)]
    · intro c _ hc
      rw [if_neg (fun h => hc ((rowAdd_resultIdx_iff wf idx e c n j).mp h).2)]
    · intro h; exact absurd (Finset.mem_univ j) h
  · rw [if_neg hA]
    refine Finset.sum_eq_zero (fun c _ => ?_)
    rw [if_neg (fun h => hA ((rowAdd_resultIdx_iff wf idx e c n j).mp h).1)]

/-- The same for the host operation as a program prints it. -/
theorem hostScatterAdd_rows_apply {N D M w : Nat} {φ : FTy}
    (wf : ScatterDims.WF ⟨2, ![N, D]⟩ ⟨2, ![M, 1]⟩ ⟨2, ![M, D]⟩ [1] [0] [0] 1)
    (x : FVec Ideal ⟨2, ![N, D]⟩ φ) (idx : IVec ⟨2, ![M, 1]⟩ w) (upd : FVec Ideal ⟨2, ![M, D]⟩ φ) (n : Fin N) (j : Fin D) :
    Host.scatterAdd (F := Ideal) (rowAddDims N D M wf) x idx upd (ix2 n j)
      = x (ix2 n j) + ∑ e ∈ Finset.univ.filter (fun e : Fin M => (idx (colIdx e)).toInt = (n.val : Int)), upd (ix2 e j) := by
  unfold Host.scatterAdd
  rw [Ideal.hostScatterAdd_def]
  exact scatterAdd_rows_apply wf x idx upd n j

end Cert.LibSegment

end
-- ==== Proof.Spec.lean ====
/-
  A three-layer mean-aggregation graph network, as whole-array functions on the extended reals.

  A graph has N nodes and M edges; edge e comes from the node `r e` and arrives at the nodes n with e ∈ S n.
  * `aggRows r S X`: row n is the sum, over the edges arriving at n, of the rows of X they come from.
  * `degCol S`: the number of edges arriving at a node, at least one, as a column; `invCol S` its reciprocal.
  * A layer maps node features X to relu (X · Ws + mean · Wn + b), mean being the aggregated rows over the degree.
  The network is written twice. `netDiv` divides the aggregate by the degree in every layer. `netMul` multiplies by
  the reciprocal instead and, in the last layer, applies the neighbour weights BEFORE aggregating:
  (Σ_e h[r e] · Wn) · inv in place of ((Σ_e h[r e]) / deg) · Wn. On finite data the two agree.
-/
import Idealize.ShloMosaic.PureOps.Ideal
import Idealize.ShloMosaic.Lib.ValueIdx
import proofs.«120637_j50062138802388_2_alg».proof.Proof.LibMatProd
import proofs.«120637_j50062138802388_2_alg».proof.Proof.LibBiasRelu
import proofs.«120637_j50062138802388_2_alg».proof.Proof.LibRowScale
import proofs.«120637_j50062138802388_2_alg».proof.Proof.LibSegment

noncomputable section

open scoped BigOperators

namespace Cert.Sage

open Idealize.ShloMosaic Idealize.ShloMosaic.ValueIdx Cert.LibMatProd Cert.LibBiasRelu Cert.LibRowScale Cert.LibSegment

/-- The float words of zero and one. -/
abbrev w0 : EReal := Ideal.ofBits .f32 0x00000000#32
abbrev w1 : EReal := Ideal.ofBits .f32 0x3F800000#32

/-- An extended real that is a real number. -/
def IsReal (x : EReal) : Prop := ∃ r : ℝ, x = (r : EReal)

section Graph
variable {N M : ℕ} (r : Fin M → Fin N) (S : Fin N → Finset (Fin M))

/-- Row n: the sum over the edges arriving at n of the rows of X they come from (added to the zero word). -/
def aggRows {D : ℕ} (X : FVec Ideal ⟨2, ![N, D]⟩ .f32) : FVec Ideal ⟨2, ![N, D]⟩ .f32 :=
  fun i => w0 + ∑ e ∈ S (i 0), X (ix2 (n1 := D) (r e) (i 1))

theorem aggRows_apply {D : ℕ} (X : FVec Ideal ⟨2, ![N, D]⟩ .f32) (n : Fin N) (j : Fin D) :
    aggRows r S X (ix2 n j) = w0 + ∑ e ∈ S n, X (ix2 (r e) j) := rfl

/-- The number of edges arriving at a node, and at least one, as a column. -/
def degCol : FVec Ideal ⟨2, ![N, 1]⟩ .f32 :=
  fun i => max (w0 + ∑ _e ∈ S (i 0), w1) w1

theorem degCol_apply (n : Fin N) : degCol S (ix2 n (0 : Fin 1)) = max (w0 + ∑ _e ∈ S n, w1) w1 := rfl

/-- One over the degree, as a column. -/
def invCol : FVec Ideal ⟨2, ![N, 1]⟩ .f32 :=
  fun i => Ideal.div w1 (degCol S i)

theorem invCol_apply (n : Fin N) : invCol S (ix2 n (0 : Fin 1)) = Ideal.div w1 (degCol S (ix2 n (0 : Fin 1))) := rfl

/-- Every row divided by its entry of a column. -/
def rowDiv {D : ℕ} (x : FVec Ideal ⟨2, ![N, D]⟩ .f32) (s : FVec Ideal ⟨2, ![N, 1]⟩ .f32) : FVec Ideal ⟨2, ![N, D]⟩ .f32 :=
  fun i => Ideal.div (x i) (s (ix2 (n0 := N) (i 0) (0 : Fin 1)))

theorem rowDiv_apply {D : ℕ} (x : FVec Ideal ⟨2, ![N, D]⟩ .f32) (s : FVec Ideal ⟨2, ![N, 1]⟩ .f32) (n : Fin N) (j : Fin D) :
    rowDiv x s (ix2 n j) = Ideal.div (x (ix2 n j)) (s (ix2 n (0 : Fin 1))) := rfl

/-- Entrywise sum of two arrays. -/
def addM {D : ℕ} (a b : FVec Ideal ⟨2, ![N, D]⟩ .f32) : FVec Ideal ⟨2, ![N, D]⟩ .f32 := fun i => a i + b i

/-- A vector laid as one row. -/
def rowOf {D : ℕ} (b : FVec Ideal ⟨1, ![D]⟩ .f32) : FVec Ideal ⟨2, ![1, D]⟩ .f32 := fun i => b (ix1 (i 1))

/-- A layer that scales the aggregate by a column: relu (X · Ws + (A ∗ s) · Wn + b). -/
def layerMul {Din Dout : ℕ} (X A : FVec Ideal ⟨2, ![N, Din]⟩ .f32) (s : FVec Ideal ⟨2, ![N, 1]⟩ .f32)
    (Ws Wn : FVec Ideal ⟨2, ![Din, Dout]⟩ .f32) (b : FVec Ideal ⟨2, ![1, Dout]⟩ .f32) : FVec Ideal ⟨2, ![N, Dout]⟩ .f32 :=
  biasRelu (addM (matProd X Ws) (matProd (rowScale A s) Wn)) b

/-- A layer that divides the aggregate by a column: relu (X · Ws + (A / d) · Wn + b). -/
def layerDiv {Din Dout : ℕ} (X A : FVec Ideal ⟨2, ![N, Din]⟩ .f32) (d : FVec Ideal ⟨2, ![N, 1]⟩ .f32)
    (Ws Wn : FVec Ideal ⟨2, ![Din, Dout]⟩ .f32) (b : FVec Ideal ⟨2, ![1, Dout]⟩ .f32) : FVec Ideal ⟨2, ![N, Dout]⟩ .f32 :=
  biasRelu (addM (matProd X Ws) (matProd (rowDiv A d) Wn)) b

/-- The last layer with the neighbour weights applied before aggregating: relu (X · Ws + agg (X · Wn) ∗ s + b). -/
def layerHoist {Din Dout : ℕ} (X : FVec Ideal ⟨2, ![N, Din]⟩ .f32) (s : FVec Ideal ⟨2, ![N, 1]⟩ .f32)
    (Ws Wn : FVec Ideal ⟨2, ![Din, Dout]⟩ .f32) (b : FVec Ideal ⟨2, ![1, Dout]⟩ .f32) : FVec Ideal ⟨2, ![N, Dout]⟩ .f32 :=
  biasRelu (addM (matProd X Ws) (rowScale (aggRows r S (matProd X Wn)) s)) b

variable {D0 D1 D2 D3 : ℕ}

/-- The network dividing by the degree in every layer. -/
def netDiv (feat : FVec Ideal ⟨2, ![N, D0]⟩ .f32)
    (ws0 wn0 : FVec Ideal ⟨2, ![D0, D1]⟩ .f32) (b0 : FVec Ideal ⟨1, ![D1]⟩ .f32)
    (ws1 wn1 : FVec Ideal ⟨2, ![D1, D2]⟩ .f32) (b1 : FVec Ideal ⟨1, ![D2]⟩ .f32)
    (ws2 wn2 : FVec Ideal ⟨2, ![D2, D3]⟩ .f32) (b2 : FVec Ideal ⟨1, ![D3]⟩ .f32) : FVec Ideal ⟨2, ![N, D3]⟩ .f32 :=
  let h0 := layerDiv feat (aggRows r S feat) (degCol S) ws0 wn0 (rowOf b0)
  let h1 := layerDiv h0 (aggRows r S h0) (degCol S) ws1 wn1 (rowOf b1)
  layerDiv h1 (aggRows r S h1) (degCol S) ws2 wn2 (rowOf b2)

/-- The network multiplying by the reciprocal degree, the last layer's neighbour weights applied first. -/
def netMul (feat : FVec Ideal ⟨2, ![N, D0]⟩ .f32)
    (ws0 wn0 : FVec Ideal ⟨2, ![D0, D1]⟩ .f32) (b0 : FVec Ideal ⟨1, ![D1]⟩ .f32)
    (ws1 wn1 : FVec Ideal ⟨2, ![D1, D2]⟩ .f32) (b1 : FVec Ideal ⟨1, ![D2]⟩ .f32)
    (ws2 wn2 : FVec Ideal ⟨2, ![D2, D3]⟩ .f32) (b2 : FVec Ideal ⟨1, ![D3]⟩ .f32) : FVec Ideal ⟨2, ![N, D3]⟩ .f32 :=
  let h0 := layerMul feat (aggRows r S feat) (invCol S) ws0 wn0 (rowOf b0)
  let h1 := layerMul h0 (aggRows r S h0) (invCol S) ws1 wn1 (rowOf b1)
  layerHoist r S h1 (invCol S) ws2 wn2 (rowOf b2)

end Graph

/-! ## The graph two integer arrays name -/

/-- A source index made non-negative the way array indexing does it: a negative one has the extent added. -/
def normSrc (v : BitVec 32) : BitVec 32 :=
  Scalar.select (IntOp.cmpi .slt v 0#32) (IntOp.addi v 100000#32) v

/-- The node an edge comes from: its normalised source index clamped into the node range. -/
def srcRow (src : IVec ⟨1, ![1600000]⟩ 32) : Fin 1600000 → Fin 100000 :=
  fun e => clampRow 100000 (by norm_num) (normSrc (src (ix1 e)))

/-- The edges arriving at a node: those whose destination index, read signed, is the node's number. -/
def hits (dst : IVec ⟨1, ![1600000]⟩ 32) : Fin 100000 → Finset (Fin 1600000) :=
  fun n => Finset.univ.filter fun e => (dst (ix1 e)).toInt = (n.val : Int)

end Cert.Sage

end
-- ==== Proof.LibSageRows.lean ====
/-
  Bands of rows of a graph-network layer.

  A layer relu (X · Ws + (A ∗ s) · Wn + b) computes each output row from the same row of X, of A and of s alone.
  So when x, a, sc hold rows r, …, r + T − 1 of X, A, s and the weights and the bias are the same, the layer of the
  band is the band of the layer: row p of the one is row r + p of the other.
-/
import proofs.«120637_j50062138802388_2_alg».proof.Proof.Spec

noncomputable section

namespace Cert.Sage

open Idealize.ShloMosaic Idealize.ShloMosaic.ValueIdx Cert.LibMatProd Cert.LibBiasRelu Cert.LibRowScale

/-- Row p of the layer of a band of rows is row r + p of the layer of the whole arrays. -/
theorem layerMul_rows {N T Din Dout : ℕ}
    (X A : FVec Ideal ⟨2, ![N, Din]⟩ .f32) (S : FVec Ideal ⟨2, ![N, 1]⟩ .f32)
    (Ws Wn : FVec Ideal ⟨2, ![Din, Dout]⟩ .f32) (B : FVec Ideal ⟨2, ![1, Dout]⟩ .f32)
    (x a : FVec Ideal ⟨2, ![T, Din]⟩ .f32) (s : FVec Ideal ⟨2, ![T, 1]⟩ .f32)
    (ws wn : FVec Ideal ⟨2, ![Din, Dout]⟩ .f32) (b : FVec Ideal ⟨2, ![1, Dout]⟩ .f32) (r : ℕ)
    (hx : ∀ (p : Fin T) (k : Fin Din) (hp : r + p.val < N), x (ix2 p k) = X (ix2 ⟨r + p.val, hp⟩ k))
    (ha : ∀ (p : Fin T) (k : Fin Din) (hp : r + p.val < N), a (ix2 p k) = A (ix2 ⟨r + p.val, hp⟩ k))
    (hs : ∀ (p : Fin T) (hp : r + p.val < N), s (ix2 p (0 : Fin 1)) = S (ix2 ⟨r + p.val, hp⟩ (0 : Fin 1)))
    (hws : ∀ z, ws z = Ws z) (hwn : ∀ z, wn z = Wn z) (hb : ∀ z, b z = B z)
    (p : Fin T) (q : Fin Dout) (hp : r + p.val < N) :
    layerMul x a s ws wn b (ix2 p q) = layerMul X A S Ws Wn B (ix2 ⟨r + p.val, hp⟩ q) := by
  unfold layerMul
  refine biasRelu_rows _ _ _ _ r (fun p' q' hp' => ?_) hb p q hp
  show matProd x ws (ix2 p' q') + matProd (rowScale a s) wn (ix2 p' q')
    = matProd X Ws (ix2 ⟨r + p'.val, hp'⟩ q') + matProd (rowScale A S) Wn (ix2 ⟨r + p'.val, hp'⟩ q')
  rw [matProd_rows X Ws x ws r hx hws (ix2 p' q') (ix2 ⟨r + p'.val, hp'⟩ q') rfl rfl,
    matProd_rows (rowScale A S) Wn (rowScale a s) wn r
      (fun p'' k hp'' => rowScale_rows A S a s r ha hs (ix2 p'' k) (ix2 ⟨r + p''.val, hp''⟩ k) rfl rfl)
      hwn (ix2 p' q') (ix2 ⟨r + p'.val, hp'⟩ q') rfl rfl]

end Cert.Sage

end
-- ==== Proof.Region0.lean ====
/-
  What the first layer's region leaves in its two output arrays.

  The region walks the 100000 node rows in 50 bands of 2000. At band t it reads rows 2000·t, …, 2000·t + 1999 of the node
  features, of the summed neighbour rows and of the reciprocal-degree column, and the whole weight matrices and bias row, and
  writes the same band of relu (X · Ws + (A ∗ s) · Wn + b), once in single precision and once narrowed to half
  precision — on exact values the same numbers. Each output row depends on the same row of X, A and s only, so the band
  of the layer is the layer of the band, the 50 bands tile the array, and both output arrays end holding the layer of
  the whole arrays as the region found them.
-/
import proofs.«120637_j50062138802388_2_alg».proof.Proof.KernelIdealFrameP
import proofs.«120637_j50062138802388_2_alg».proof.Proof.LibSageRows
import Idealize.ShloMosaic.Lib.Pipeline.Value
import Idealize.ShloMosaic.Lib.ValueLayout

set_option maxRecDepth 16384

noncomputable section

namespace Cert.Sage.R0

open Cert.KernelIdeal Cert.KernelIdeal.Gen Idealize.ShloMosaic Idealize.ShloMosaic.TcCoe Idealize.ShloMosaic.ValueIdx Idealize.SL.Sem
open Idealize.ShloMosaic.Pipeline (Dat Cfg Window)
open Cert.LibMatProd Cert.LibBiasRelu Cert.LibRowScale Cert.Sage

variable (V : (c : Dev nD) → (b : Ref sig .tc) → Buf (Elt Ideal) ((c : Thread nD τ).loc b))

theorem hz : (![0, 0] : Fin 2 → Nat) = fun _ => 0 := funext fun a => by fin_cases a <;> rfl

/-- The body's arithmetic on its blocks is the layer of the blocks. -/
theorem pay1_eq (x0 x1 : Vec Ideal S2000x64 .f32) (x2 : Vec Ideal S2000x1 .f32) (x3 x4 : Vec Ideal S64x128 .f32)
    (x5 : Vec Ideal S1x128 .f32) :
    k0_pay1 (F := Ideal) x0 x1 x2 x3 x4 x5 = layerMul (N := 2000) x0 x1 x2 x3 x4 x5 := by
  unfold k0_pay1
  dsimp only
  rw [matmul_eq _ rfl rfl rfl rfl rfl rfl, mul_broadcastTo_eq, matmul_eq _ rfl rfl rfl rfl rfl rfl]
  funext j
  obtain ⟨p, q, rfl⟩ : ∃ (p : Fin 2000) (q : Fin 128), j = ix2 p q := ⟨j 0, j 1, eq_ix2 j⟩
  unfold layerMul
  rw [biasRelu_apply, maximumf_apply, addf_apply, addf_apply, broadcastTo_1b_ab_apply, shapeCast_self]
  rfl

/-- The half-precision copy holds the same numbers. -/
theorem pay2_eq (x0 x1 : Vec Ideal S2000x64 .f32) (x2 : Vec Ideal S2000x1 .f32) (x3 x4 : Vec Ideal S64x128 .f32)
    (x5 : Vec Ideal S1x128 .f32) (j : S2000x128.Idx) :
    k0_pay2 (F := Ideal) x0 x1 x2 x3 x4 x5 j = layerMul (N := 2000) x0 x1 x2 x3 x4 x5 j := by
  unfold k0_pay2
  rw [← pay1_eq]
  rfl

/-- The layer of the whole arrays as the region finds them. -/
abbrev G (c : Dev nD) : FVec Ideal ⟨2, ![100000, 128]⟩ .f32 :=
  layerMul (V c main_arg0) (V c main_v20) (V c main_v8) (V c main_arg3) (V c main_arg4) (V c main_v21)

/-- The printed index maps over the 50 bands: the row windows sit at band t, the weights and the bias at the origin. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0
    ∧ win0_7.index t (0 : Fin 2) = t.val ∧ win0_7.index t (1 : Fin 2) = 0 :=
  (by decide +kernel : ∀ t : Fin grid0.N, _)

/-- Entry (p, q) of band t's layer is entry (2000·t + p, q) of the whole layer. -/
theorem band_eq (c : Dev nD) (t : Fin cfg0.N) (p : Fin 2000) (q : Fin 128) (hp : 2000 * t.val + p.val < 100000) :
    layerMul (N := 2000) (iblk0 V c 0 t) (iblk0 V c 1 t) (iblk0 V c 2 t) (iblk0 V c 3 t) (iblk0 V c 4 t) (iblk0 V c 5 t) (ix2 p q)
      = G V c (ix2 ⟨2000 * t.val + p.val, hp⟩ q) := by
  obtain ⟨e00, e01, e10, e11, e20, e21, e30, e31, e40, e41, e50, e51, -⟩ := idx_facts t
  refine layerMul_rows (V c main_arg0) (V c main_v20) (V c main_v8) (V c main_arg3) (V c main_arg4) (V c main_v21)
    (iblk0 V c 0 t) (iblk0 V c 1 t) (iblk0 V c 2 t) (iblk0 V c 3 t) (iblk0 V c 4 t) (iblk0 V c 5 t) (2000 * t.val)
    (fun p' k hp' => ?_) (fun p' k hp' => ?_) (fun p' hp' => ?_) (fun z => ?_) (fun z => ?_) (fun z => ?_) p q hp
  · show V c main_arg0 (((cfg0.win 0).blk t).view.emb (ix2 p' k)) = V c main_arg0 (ix2 ⟨2000 * t.val + p'.val, hp'⟩ k)
    refine congrArg (V c main_arg0) (funext fun a => Fin.ext ?_)
    match a with
    | ⟨0, _⟩ => show win0_0.index t (0 : Fin 2) * 2000 + 1 * p'.val = 2000 * t.val + p'.val; omega
    | ⟨1, _⟩ => show win0_0.index t (1 : Fin 2) * 64 + 1 * k.val = k.val; omega
  · show V c main_v20 (((cfg0.win 1).blk t).view.emb (ix2 p' k)) = V c main_v20 (ix2 ⟨2000 * t.val + p'.val, hp'⟩ k)
    refine congrArg (V c main_v20) (funext fun a => Fin.ext ?_)
    match a with
    | ⟨0, _⟩ => show win0_1.index t (0 : Fin 2) * 2000 + 1 * p'.val = 2000 * t.val + p'.val; omega
    | ⟨1, _⟩ => show win0_1.index t (1 : Fin 2) * 64 + 1 * k.val = k.val; omega
  · show V c main_v8 (((cfg0.win 2).blk t).view.emb (ix2 p' (0 : Fin 1))) = V c main_v8 (ix2 ⟨2000 * t.val + p'.val, hp'⟩ (0 : Fin 1))
    refine congrArg (V c main_v8) (funext fun a => Fin.ext ?_)
    match a with
    | ⟨0, _⟩ => show win0_2.index t (0 : Fin 2) * 2000 + 1 * p'.val = 2000 * t.val + p'.val; omega
    | ⟨1, _⟩ => show win0_2.index t (1 : Fin 2) * 1 + 1 * 0 = 0; omega
  · show V c main_arg3 (((cfg0.win 3).blk t).view.emb z) = V c main_arg3 z
    refine congrArg (V c main_arg3) (funext fun a => Fin.ext ?_)
    match a with
    | ⟨0, _⟩ => show win0_3.index t (0 : Fin 2) * 64 + 1 * (z 0).val = (z 0).val; omega
    | ⟨1, _⟩ => show win0_3.index t (1 : Fin 2) * 128 + 1 * (z 1).val = (z 1).val; omega
  · show V c main_arg4 (((cfg0.win 4).blk t).view.emb z) = V c main_arg4 z
    refine congrArg (V c main_arg4) (funext fun a => Fin.ext ?_)
    match a with
    | ⟨0, _⟩ => show win0_4.index t (0 : Fin 2) * 64 + 1 * (z 0).val = (z 0).val; omega
    | ⟨1, _⟩ => show win0_4.index t (1 : Fin 2) * 128 + 1 * (z 1).val = (z 1).val; omega
  · show V c main_v21 (((cfg0.win 5).blk t).view.emb z) = V c main_v21 z
    refine congrArg (V c main_v21) (funext fun a => Fin.ext ?_)
    match a with
    | ⟨0, _⟩ => show win0_5.index t (0 : Fin 2) * 1 + 1 * (z 0).val = (z 0).val; omega
    | ⟨1, _⟩ => show win0_5.index t (1 : Fin 2) * 128 + 1 * (z 1).val = (z 1).val; omega

/-- What band t writes back to the single-precision output is band t of the whole layer. -/
theorem flushed6_eq (c : Dev nD) (t : Fin cfg0.N) :
    (dat0 (F := Ideal) V c).flushed 6 t = ((cfg0.win 6).blk t).view.read (Elt Ideal) (G V c) := by
  show (cfg0.win 6).cut (grid0.coords t) ((dat0 (F := Ideal) V c).after 6 t) = _
  rw [after0_6]
  unfold out0_6
  rw [View.canon_unit_zero hz]
  simp only [View.ld_unit_zero (S := S2000x64) hz, View.ld_unit_zero (S := S2000x1) hz, View.ld_unit_zero (S := S64x128) hz,
    View.ld_unit_zero (S := S1x128) hz]
  rw [pay1_eq]
  funext y
  obtain ⟨p, q, rfl⟩ : ∃ (p : Fin 2000) (q : Fin 128), y = ix2 p q := ⟨y 0, y 1, eq_ix2 y⟩
  obtain ⟨-, -, -, -, -, -, -, -, -, -, -, -, e60, e61, -⟩ := idx_facts t
  have ht : t.val < 50 := t.isLt
  have hp : 2000 * t.val + p.val < 100000 := by have := p.isLt; omega
  refine (band_eq V c t p q hp).trans ?_
  show G V c (ix2 ⟨2000 * t.val + p.val, hp⟩ q) = G V c (((cfg0.win 6).blk t).view.emb (ix2 p q))
  refine congrArg (G V c) (funext fun a => Fin.ext ?_)
  match a with
  | ⟨0, _⟩ => show 2000 * t.val + p.val = win0_6.index t (0 : Fin 2) * 2000 + 1 * p.val; omega
  | ⟨1, _⟩ => show q.val = win0_6.index t (1 : Fin 2) * 128 + 1 * q.val; omega

/-- The same for the half-precision output. -/
theorem flushed7_eq (c : Dev nD) (t : Fin cfg0.N) :
    (dat0 (F := Ideal) V c).flushed 7 t = ((cfg0.win 7).blk t).view.read (Elt Ideal) (G V c) := by
  show (cfg0.win 7).cut (grid0.coords t) ((dat0 (F := Ideal) V c).after 7 t) = _
  rw [after0_7]
  unfold out0_7
  rw [View.canon_unit_zero hz]
  simp only [View.ld_unit_zero (S := S2000x64) hz, View.ld_unit_zero (S := S2000x1) hz, View.ld_unit_zero (S := S64x128) hz,
    View.ld_unit_zero (S := S1x128) hz]
  funext y
  obtain ⟨p, q, rfl⟩ : ∃ (p : Fin 2000) (q : Fin 128), y = ix2 p q := ⟨y 0, y 1, eq_ix2 y⟩
  obtain ⟨-, -, -, -, -, -, -, -, -, -, -, -, -, -, e70, e71⟩ := idx_facts t
  have ht : t.val < 50 := t.isLt
  have hp : 2000 * t.val + p.val < 100000 := by have := p.isLt; omega
  refine (pay2_eq _ _ _ _ _ _ (ix2 p q)).trans ?_
  refine (band_eq V c t p q hp).trans ?_
  show G V c (ix2 ⟨2000 * t.val + p.val, hp⟩ q) = G V c (((cfg0.win 7).blk t).view.emb (ix2 p q))
  refine congrArg (G V c) (funext fun a => Fin.ext ?_)
  match a with
  | ⟨0, _⟩ => show 2000 * t.val + p.val = win0_7.index t (0 : Fin 2) * 2000 + 1 * p.val; omega
  | ⟨1, _⟩ => show q.val = win0_7.index t (1 : Fin 2) * 128 + 1 * q.val; omega

/-- An index of the output array lies in band t iff its row does. -/
theorem mem_blk6 (t : Fin cfg0.N) (i : S100000x128.Idx) :
    i ∈ ((cfg0.win 6).blk t).view.set ↔ ∀ a : Fin 2, win0_6.index t a * S2000x128.size a ≤ (i a).val ∧ (i a).val < win0_6.index t a * S2000x128.size a + S2000x128.size a := by
  show i ∈ ((View.whole main_v22_0).slice (win0_6.rect t)).set ↔ _
  rw [View.set_slice_whole, Rect.mem_set_unit]
  exact Iff.rfl

theorem mem_blk7 (t : Fin cfg0.N) (i : S100000x128.Idx) :
    i ∈ ((cfg0.win 7).blk t).view.set ↔ ∀ a : Fin 2, win0_7.index t a * S2000x128.size a ≤ (i a).val ∧ (i a).val < win0_7.index t a * S2000x128.size a + S2000x128.size a := by
  show i ∈ ((View.whole main_v22_1).slice (win0_7.rect t)).set ↔ _
  rw [View.set_slice_whole, Rect.mem_set_unit]
  exact Iff.rfl

/-- Row n lies in band n / 2000: the bands tile the array. -/
theorem cover6 (i : S100000x128.Idx) : ∃ t : Fin cfg0.N, (cfg0.win 6).flush t = true ∧ i ∈ ((cfg0.win 6).blk t).view.set := by
  have hi0 : (i 0).val < 100000 := (i 0).isLt
  have hi1 : (i 1).val < 128 := (i 1).isLt
  let t : Fin cfg0.N := ⟨(i 0).val / 2000, by show (i 0).val / 2000 < 50; omega⟩
  obtain ⟨-, -, -, -, -, -, -, -, -, -, -, -, e60, e61, -⟩ := idx_facts t
  have htv : t.val = (i 0).val / 2000 := rfl
  refine ⟨t, flush0_6 t, ?_⟩
  rw [mem_blk6]
  intro a
  match a with
  | ⟨0, _⟩ => show win0_6.index t (0 : Fin 2) * 2000 ≤ (i 0).val ∧ (i 0).val < win0_6.index t (0 : Fin 2) * 2000 + 2000; omega
  | ⟨1, _⟩ => show win0_6.index t (1 : Fin 2) * 128 ≤ (i 1).val ∧ (i 1).val < win0_6.index t (1 : Fin 2) * 128 + 128; omega

theorem cover7 (i : S100000x128.Idx) : ∃ t : Fin cfg0.N, (cfg0.win 7).flush t = true ∧ i ∈ ((cfg0.win 7).blk t).view.set := by
  have hi0 : (i 0).val < 100000 := (i 0).isLt
  have hi1 : (i 1).val < 128 := (i 1).isLt
  let t : Fin cfg0.N := ⟨(i 0).val / 2000, by show (i 0).val / 2000 < 50; omega⟩
  obtain ⟨-, -, -, -, -, -, -, -, -, -, -, -, -, -, e70, e71⟩ := idx_facts t
  have htv : t.val = (i 0).val / 2000 := rfl
  refine ⟨t, flush0_7 t, ?_⟩
  rw [mem_blk7]
  intro a
  match a with
  | ⟨0, _⟩ => show win0_7.index t (0 : Fin 2) * 2000 ≤ (i 0).val ∧ (i 0).val < win0_7.index t (0 : Fin 2) * 2000 + 2000; omega
  | ⟨1, _⟩ => show win0_7.index t (1 : Fin 2) * 128 ≤ (i 1).val ∧ (i 1).val < win0_7.index t (1 : Fin 2) * 128 + 128; omega

/-- THE SINGLE-PRECISION OUTPUT after the region: the layer of the arrays the region found. -/
theorem final6 (c : Dev nD) : (dat0 (F := Ideal) V c).arrAt 6 cfg0.N = G V c :=
  (dat0 (F := Ideal) V c).arrAt_eq_of_cover 6 (G V c) (fun t _ => flushed6_eq V c t) (cover6)

/-- THE HALF-PRECISION OUTPUT after the region: the same numbers. -/
theorem final7 (c : Dev nD) : (dat0 (F := Ideal) V c).arrAt 7 cfg0.N = G V c :=
  (dat0 (F := Ideal) V c).arrAt_eq_of_cover 7 (G V c) (fun t _ => flushed7_eq V c t) (cover7)

end Cert.Sage.R0

end
-- ==== Proof.Region1.lean ====
/-
  What the second layer's region leaves in its two output arrays.

  The region walks the 100000 node rows in 50 bands of 2000. At band t it reads rows 2000·t, …, 2000·t + 1999 of the node
  features, of the summed neighbour rows and of the reciprocal-degree column, and the whole weight matrices and bias row, and
  writes the same band of relu (X · Ws + (A ∗ s) · Wn + b), once in single precision and once narrowed to half
  precision — on exact values the same numbers. Each output row depends on the same row of X, A and s only, so the band
  of the layer is the layer of the band, the 50 bands tile the array, and both output arrays end holding the layer of
  the whole arrays as the region found them.
-/
import proofs.«120637_j50062138802388_2_alg».proof.Proof.KernelIdealFrameP
import proofs.«120637_j50062138802388_2_alg».proof.Proof.LibSageRows
import Idealize.ShloMosaic.Lib.Pipeline.Value
import Idealize.ShloMosaic.Lib.ValueLayout

set_option maxRecDepth 16384

noncomputable section

namespace Cert.Sage.R1

open Cert.KernelIdeal Cert.KernelIdeal.Gen Idealize.ShloMosaic Idealize.ShloMosaic.TcCoe Idealize.ShloMosaic.ValueIdx Idealize.SL.Sem
open Idealize.ShloMosaic.Pipeline (Dat Cfg Window)
open Cert.LibMatProd Cert.LibBiasRelu Cert.LibRowScale Cert.Sage

variable (V : (c : Dev nD) → (b : Ref sig .tc) → Buf (Elt Ideal) ((c : Thread nD τ).loc b))

theorem hz : (![0, 0] : Fin 2 → Nat) = fun _ => 0 := funext fun a => by fin_cases a <;> rfl

/-- The body's arithmetic on its blocks is the layer of the blocks. -/
theorem pay1_eq (x0 x1 : Vec Ideal S2000x128 .f32) (x2 : Vec Ideal S2000x1 .f32) (x3 x4 : Vec Ideal S128x128 .f32)
    (x5 : Vec Ideal S1x128 .f32) :
    k1_pay1 (F := Ideal) x0 x1 x2 x3 x4 x5 = layerMul (N := 2000) x0 x1 x2 x3 x4 x5 := by
  unfold k1_pay1
  dsimp only
  rw [matmul_eq _ rfl rfl rfl rfl rfl rfl, mul_broadcastTo_eq, matmul_eq _ rfl rfl rfl rfl rfl rfl]
  funext j
  obtain ⟨p, q, rfl⟩ : ∃ (p : Fin 2000) (q : Fin 128), j = ix2 p q := ⟨j 0, j 1, eq_ix2 j⟩
  unfold layerMul
  rw [biasRelu_apply, maximumf_apply, addf_apply, addf_apply, broadcastTo_1b_ab_apply]
  simp only [shapeCast_self]
  rfl

/-- The half-precision copy holds the same numbers. -/
theorem pay2_eq (x0 x1 : Vec Ideal S2000x128 .f32) (x2 : Vec Ideal S2000x1 .f32) (x3 x4 : Vec Ideal S128x128 .f32)
    (x5 : Vec Ideal S1x128 .f32) (j : S2000x128.Idx) :
    k1_pay2 (F := Ideal) x0 x1 x2 x3 x4 x5 j = layerMul (N := 2000) x0 x1 x2 x3 x4 x5 j := by
  unfold k1_pay2
  rw [← pay1_eq]
  rfl

/-- The layer of the whole arrays as the region finds them. -/
abbrev G (c : Dev nD) : FVec Ideal ⟨2, ![100000, 128]⟩ .f32 :=
  layerMul (V c main_v22_0) (V c main_v33) (V c main_v8) (V c main_arg6) (V c main_arg7) (V c main_v34)

/-- The printed index maps over the 50 bands: the row windows sit at band t, the weights and the bias at the origin. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0
    ∧ win1_7.index t (0 : Fin 2) = t.val ∧ win1_7.index t (1 : Fin 2) = 0 :=
  (by decide +kernel : ∀ t : Fin grid1.N, _)

/-- Entry (p, q) of band t's layer is entry (2000·t + p, q) of the whole layer. -/
theorem band_eq (c : Dev nD) (t : Fin cfg1.N) (p : Fin 2000) (q : Fin 128) (hp : 2000 * t.val + p.val < 100000) :
    layerMul (N := 2000) (iblk1 V c 0 t) (iblk1 V c 1 t) (iblk1 V c 2 t) (iblk1 V c 3 t) (iblk1 V c 4 t) (iblk1 V c 5 t) (ix2 p q)
      = G V c (ix2 ⟨2000 * t.val + p.val, hp⟩ q) := by
  obtain ⟨e00, e01, e10, e11, e20, e21, e30, e31, e40, e41, e50, e51, -⟩ := idx_facts t
  refine layerMul_rows (V c main_v22_0) (V c main_v33) (V c main_v8) (V c main_arg6) (V c main_arg7) (V c main_v34)
    (iblk1 V c 0 t) (iblk1 V c 1 t) (iblk1 V c 2 t) (iblk1 V c 3 t) (iblk1 V c 4 t) (iblk1 V c 5 t) (2000 * t.val)
    (fun p' k hp' => ?_) (fun p' k hp' => ?_) (fun p' hp' => ?_) (fun z => ?_) (fun z => ?_) (fun z => ?_) p q hp
  · show V c main_v22_0 (((cfg1.win 0).blk t).view.emb (ix2 p' k)) = V c main_v22_0 (ix2 ⟨2000 * t.val + p'.val, hp'⟩ k)
    refine congrArg (V c main_v22_0) (funext fun a => Fin.ext ?_)
    match a with
    | ⟨0, _⟩ => show win1_0.index t (0 : Fin 2) * 2000 + 1 * p'.val = 2000 * t.val + p'.val; omega
    | ⟨1, _⟩ => show win1_0.index t (1 : Fin 2) * 128 + 1 * k.val = k.val; omega
  · show V c main_v33 (((cfg1.win 1).blk t).view.emb (ix2 p' k)) = V c main_v33 (ix2 ⟨2000 * t.val + p'.val, hp'⟩ k)
    refine congrArg (V c main_v33) (funext fun a => Fin.ext ?_)
    match a with
    | ⟨0, _⟩ => show win1_1.index t (0 : Fin 2) * 2000 + 1 * p'.val = 2000 * t.val + p'.val; omega
    | ⟨1, _⟩ => show win1_1.index t (1 : Fin 2) * 128 + 1 * k.val = k.val; omega
  · show V c main_v8 (((cfg1.win 2).blk t).view.emb (ix2 p' (0 : Fin 1))) = V c main_v8 (ix2 ⟨2000 * t.val + p'.val, hp'⟩ (0 : Fin 1))
    refine congrArg (V c main_v8) (funext fun a => Fin.ext ?_)
    match a with
    | ⟨0, _⟩ => show win1_2.index t (0 : Fin 2) * 2000 + 1 * p'.val = 2000 * t.val + p'.val; omega
    | ⟨1, _⟩ => show win1_2.index t (1 : Fin 2) * 1 + 1 * 0 = 0; omega
  · show V c main_arg6 (((cfg1.win 3).blk t).view.emb z) = V c main_arg6 z
    refine congrArg (V c main_arg6) (funext fun a => Fin.ext ?_)
    match a with
    | ⟨0, _⟩ => show win1_3.index t (0 : Fin 2) * 128 + 1 * (z 0).val = (z 0).val; omega
    | ⟨1, _⟩ => show win1_3.index t (1 : Fin 2) * 128 + 1 * (z 1).val = (z 1).val; omega
  · show V c main_arg7 (((cfg1.win 4).blk t).view.emb z) = V c main_arg7 z
    refine congrArg (V c main_arg7) (funext fun a => Fin.ext ?_)
    match a with
    | ⟨0, _⟩ => show win1_4.index t (0 : Fin 2) * 128 + 1 * (z 0).val = (z 0).val; omega
    | ⟨1, _⟩ => show win1_4.index t (1 : Fin 2) * 128 + 1 * (z 1).val = (z 1).val; omega
  · show V c main_v34 (((cfg1.win 5).blk t).view.emb z) = V c main_v34 z
    refine congrArg (V c main_v34) (funext fun a => Fin.ext ?_)
    match a with
    | ⟨0, _⟩ => show win1_5.index t (0 : Fin 2) * 1 + 1 * (z 0).val = (z 0).val; omega
    | ⟨1, _⟩ => show win1_5.index t (1 : Fin 2) * 128 + 1 * (z 1).val = (z 1).val; omega

/-- What band t writes back to the single-precision output is band t of the whole layer. -/
theorem flushed6_eq (c : Dev nD) (t : Fin cfg1.N) :
    (dat1 (F := Ideal) V c).flushed 6 t = ((cfg1.win 6).blk t).view.read (Elt Ideal) (G V c) := by
  show (cfg1.win 6).cut (grid1.coords t) ((dat1 (F := Ideal) V c).after 6 t) = _
  rw [after1_6]
  unfold out1_6
  rw [View.canon_unit_zero hz]
  simp only [View.ld_unit_zero (S := S2000x128) hz, View.ld_unit_zero (S := S2000x1) hz, View.ld_unit_zero (S := S128x128) hz,
    View.ld_unit_zero (S := S1x128) hz]
  rw [pay1_eq]
  funext y
  obtain ⟨p, q, rfl⟩ : ∃ (p : Fin 2000) (q : Fin 128), y = ix2 p q := ⟨y 0, y 1, eq_ix2 y⟩
  obtain ⟨-, -, -, -, -, -, -, -, -, -, -, -, e60, e61, -⟩ := idx_facts t
  have ht : t.val < 50 := t.isLt
  have hp : 2000 * t.val + p.val < 100000 := by have := p.isLt; omega
  refine (band_eq V c t p q hp).trans ?_
  show G V c (ix2 ⟨2000 * t.val + p.val, hp⟩ q) = G V c (((cfg1.win 6).blk t).view.emb (ix2 p q))
  refine congrArg (G V c) (funext fun a => Fin.ext ?_)
  match a with
  | ⟨0, _⟩ => show 2000 * t.val + p.val = win1_6.index t (0 : Fin 2) * 2000 + 1 * p.val; omega
  | ⟨1, _⟩ => show q.val = win1_6.index t (1 : Fin 2) * 128 + 1 * q.val; omega

/-- The same for the half-precision output. -/
theorem flushed7_eq (c : Dev nD) (t : Fin cfg1.N) :
    (dat1 (F := Ideal) V c).flushed 7 t = ((cfg1.win 7).blk t).view.read (Elt Ideal) (G V c) := by
  show (cfg1.win 7).cut (grid1.coords t) ((dat1 (F := Ideal) V c).after 7 t) = _
  rw [after1_7]
  unfold out1_7
  rw [View.canon_unit_zero hz]
  simp only [View.ld_unit_zero (S := S2000x128) hz, View.ld_unit_zero (S := S2000x1) hz, View.ld_unit_zero (S := S128x128) hz,
    View.ld_unit_zero (S := S1x128) hz]
  funext y
  obtain ⟨p, q, rfl⟩ : ∃ (p : Fin 2000) (q : Fin 128), y = ix2 p q := ⟨y 0, y 1, eq_ix2 y⟩
  obtain ⟨-, -, -, -, -, -, -, -, -, -, -, -, -, -, e70, e71⟩ := idx_facts t
  have ht : t.val < 50 := t.isLt
  have hp : 2000 * t.val + p.val < 100000 := by have := p.isLt; omega
  refine (pay2_eq _ _ _ _ _ _ (ix2 p q)).trans ?_
  refine (band_eq V c t p q hp).trans ?_
  show G V c (ix2 ⟨2000 * t.val + p.val, hp⟩ q) = G V c (((cfg1.win 7).blk t).view.emb (ix2 p q))
  refine congrArg (G V c) (funext fun a => Fin.ext ?_)
  match a with
  | ⟨0, _⟩ => show 2000 * t.val + p.val = win1_7.index t (0 : Fin 2) * 2000 + 1 * p.val; omega
  | ⟨1, _⟩ => show q.val = win1_7.index t (1 : Fin 2) * 128 + 1 * q.val; omega

/-- An index of the output array lies in band t iff its row does. -/
theorem mem_blk6 (t : Fin cfg1.N) (i : S100000x128.Idx) :
    i ∈ ((cfg1.win 6).blk t).view.set ↔ ∀ a : Fin 2, win1_6.index t a * S2000x128.size a ≤ (i a).val ∧ (i a).val < win1_6.index t a * S2000x128.size a + S2000x128.size a := by
  show i ∈ ((View.whole main_v35_0).slice (win1_6.rect t)).set ↔ _
  rw [View.set_slice_whole, Rect.mem_set_unit]
  exact Iff.rfl

theorem mem_blk7 (t : Fin cfg1.N) (i : S100000x128.Idx) :
    i ∈ ((cfg1.win 7).blk t).view.set ↔ ∀ a : Fin 2, win1_7.index t a * S2000x128.size a ≤ (i a).val ∧ (i a).val < win1_7.index t a * S2000x128.size a + S2000x128.size a := by
  show i ∈ ((View.whole main_v35_1).slice (win1_7.rect t)).set ↔ _
  rw [View.set_slice_whole, Rect.mem_set_unit]
  exact Iff.rfl

/-- Row n lies in band n / 2000: the bands tile the array. -/
theorem cover6 (i : S100000x128.Idx) : ∃ t : Fin cfg1.N, (cfg1.win 6).flush t = true ∧ i ∈ ((cfg1.win 6).blk t).view.set := by
  have hi0 : (i 0).val < 100000 := (i 0).isLt
  have hi1 : (i 1).val < 128 := (i 1).isLt
  let t : Fin cfg1.N := ⟨(i 0).val / 2000, by show (i 0).val / 2000 < 50; omega⟩
  obtain ⟨-, -, -, -, -, -, -, -, -, -, -, -, e60, e61, -⟩ := idx_facts t
  have htv : t.val = (i 0).val / 2000 := rfl
  refine ⟨t, flush1_6 t, ?_⟩
  rw [mem_blk6]
  intro a
  match a with
  | ⟨0, _⟩ => show win1_6.index t (0 : Fin 2) * 2000 ≤ (i 0).val ∧ (i 0).val < win1_6.index t (0 : Fin 2) * 2000 + 2000; omega
  | ⟨1, _⟩ => show win1_6.index t (1 : Fin 2) * 128 ≤ (i 1).val ∧ (i 1).val < win1_6.index t (1 : Fin 2) * 128 + 128; omega

theorem cover7 (i : S100000x128.Idx) : ∃ t : Fin cfg1.N, (cfg1.win 7).flush t = true ∧ i ∈ ((cfg1.win 7).blk t).view.set := by
  have hi0 : (i 0).val < 100000 := (i 0).isLt
  have hi1 : (i 1).val < 128 := (i 1).isLt
  let t : Fin cfg1.N := ⟨(i 0).val / 2000, by show (i 0).val / 2000 < 50; omega⟩
  obtain ⟨-, -, -, -, -, -, -, -, -, -, -, -, -, -, e70, e71⟩ := idx_facts t
  have htv : t.val = (i 0).val / 2000 := rfl
  refine ⟨t, flush1_7 t, ?_⟩
  rw [mem_blk7]
  intro a
  match a with
  | ⟨0, _⟩ => show win1_7.index t (0 : Fin 2) * 2000 ≤ (i 0).val ∧ (i 0).val < win1_7.index t (0 : Fin 2) * 2000 + 2000; omega
  | ⟨1, _⟩ => show win1_7.index t (1 : Fin 2) * 128 ≤ (i 1).val ∧ (i 1).val < win1_7.index t (1 : Fin 2) * 128 + 128; omega

/-- THE SINGLE-PRECISION OUTPUT after the region: the layer of the arrays the region found. -/
theorem final6 (c : Dev nD) : (dat1 (F := Ideal) V c).arrAt 6 cfg1.N = G V c :=
  (dat1 (F := Ideal) V c).arrAt_eq_of_cover 6 (G V c) (fun t _ => flushed6_eq V c t) (cover6)

/-- THE HALF-PRECISION OUTPUT after the region: the same numbers. -/
theorem final7 (c : Dev nD) : (dat1 (F := Ideal) V c).arrAt 7 cfg1.N = G V c :=
  (dat1 (F := Ideal) V c).arrAt_eq_of_cover 7 (G V c) (fun t _ => flushed7_eq V c t) (cover7)

end Cert.Sage.R1

end
-- ==== Proof.Region2.lean ====
/-
  The neighbour-weight product's region, read as a whole-array function. The region walks the 100000 nodes in 50 bands
  of 2000 consecutive rows. At band t it reads rows 2000 t, …, 2000 t + 1999 of the node features (held in half
  precision; on exact values the same numbers) together with the whole weight matrix, and writes back the same rows
  of the product h · w twice: once in single precision and once narrowed to half precision, which on exact values is
  the same array. A band of rows of a matrix product is the product of that band of the left factor with the right
  factor, and the bands tile the array (row n lies in band n / 2000), so after the region both output arrays hold the
  product of the two arrays the region found.
-/
import proofs.«120637_j50062138802388_2_alg».proof.Proof.KernelIdealFrameP
import proofs.«120637_j50062138802388_2_alg».proof.Proof.Spec
import Idealize.ShloMosaic.Lib.Pipeline.Value

noncomputable section

namespace Cert.Sage.R2

open Cert.KernelIdeal Cert.KernelIdeal.Gen Idealize.ShloMosaic Idealize.ShloMosaic.TcCoe Idealize.SL.Sem
open Idealize.ShloMosaic.Pipeline (Dat)
open Idealize.ShloMosaic.ValueIdx Cert.LibMatProd Cert.LibPlainDot

theorem hz : (![0, 0] : Fin 2 → Nat) = fun _ => 0 := funext fun a => by fin_cases a <;> rfl

/-- The body's stored value: the matrix unit's product of the feature block with the narrowed weights, accumulated into
    zeros, is the matrix product of the block with the weights. -/
theorem pay1_eq (v0 : Vec Ideal S2000x128 .bf16) (v2 : Vec Ideal S128x64 .f32) :
    k2_pay1 (F := Ideal) v0 v2 = matProd (v0 : FVec Ideal S2000x128 .f32) v2 := by
  funext j
  obtain ⟨p, q, rfl⟩ : ∃ (p : Fin 2000) (q : Fin 64), j = ix2 p q := ⟨j 0, j 1, eq_ix2 j⟩
  rw [matProd_apply]
  unfold k2_pay1
  rw [shapeCast_self]
  refine (Ideal.matmul_constant_zero_apply dot_S2000x128_S128x64_S2000x64_1_0_0_1_n_n none _ _ (ix2 p q)).trans ?_
  exact plain_sum dot_S2000x128_S128x64_S2000x64_1_0_0_1_n_n rfl rfl rfl rfl rfl rfl (v0 : FVec Ideal S2000x128 .f32) v2 p q

/-- The half-precision copy holds the same numbers. -/
theorem pay2_eq (v0 : Vec Ideal S2000x128 .bf16) (v2 : Vec Ideal S128x64 .f32) (j : S2000x64.Idx) :
    k2_pay2 (F := Ideal) v0 v2 j = matProd (v0 : FVec Ideal S2000x128 .f32) v2 j := by
  unfold k2_pay2
  rw [← pay1_eq]
  rfl

variable (V : (c : Dev nD) → (b : Ref sig .tc) → Buf (Elt Ideal) ((c : Thread nD τ).loc b))

/-- The product of the two arrays the region finds. -/
abbrev G (c : Dev nD) : FVec Ideal S100000x64 .f32 :=
  matProd (V c (Pipeline.arrRef spec2 0) : FVec Ideal S100000x128 .f32) (V c (Pipeline.arrRef spec2 1) : FVec Ideal S128x64 .f32)

/-- The printed index maps at every grid point: a row-tiled window's block index is the point's number on the row axis
    and zero on the column axis; the weights' block index is zero on both. -/
theorem idx_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0
    ∧ win2_3.index t (0 : Fin 2) = t.val ∧ win2_3.index t (1 : Fin 2) = 0 :=
  (by decide +kernel : ∀ t : Fin grid2.N, _)

/-- The block of node features at point t holds rows 2000 t, …, 2000 t + 1999 of the array. -/
theorem iblk0_apply (c : Dev nD) (t : Fin cfg2.N) (p : Fin 2000) (k : Fin 128) (hp : 2000 * t.val + p.val < 100000) :
    (iblk2 V c 0 t : FVec Ideal S2000x128 .f32) (ix2 p k)
      = (V c (Pipeline.arrRef spec2 0) : FVec Ideal S100000x128 .f32) (ix2 ⟨2000 * t.val + p.val, hp⟩ k) := by
  obtain ⟨e0, e1, -⟩ := idx_facts t
  unfold iblk2
  rw [View.read_apply]
  show (V c (Pipeline.arrRef spec2 0) : FVec Ideal S100000x128 .f32) _ = _
  congr 1
  funext a
  apply Fin.ext
  match a with
  | ⟨0, _⟩ => show win2_0.index t (0 : Fin 2) * 2000 + 1 * p.val = 2000 * t.val + p.val; rw [e0]; omega
  | ⟨1, _⟩ => show win2_0.index t (1 : Fin 2) * 128 + 1 * k.val = k.val; rw [e1]; omega

/-- The weights are staged whole at every point. -/
theorem iblk1_apply (c : Dev nD) (t : Fin cfg2.N) (z : S128x64.Idx) :
    (iblk2 V c 1 t : FVec Ideal S128x64 .f32) z = (V c (Pipeline.arrRef spec2 1) : FVec Ideal S128x64 .f32) z := by
  obtain ⟨a, b, rfl⟩ : ∃ (a : Fin 128) (b : Fin 64), z = ix2 a b := ⟨z 0, z 1, eq_ix2 z⟩
  obtain ⟨-, -, e0, e1, -⟩ := idx_facts t
  unfold iblk2
  rw [View.read_apply]
  show (V c (Pipeline.arrRef spec2 1) : FVec Ideal S128x64 .f32) _ = _
  congr 1
  funext d
  apply Fin.ext
  match d with
  | ⟨0, _⟩ => show win2_1.index t (0 : Fin 2) * 128 + 1 * a.val = a.val; rw [e0]; omega
  | ⟨1, _⟩ => show win2_1.index t (1 : Fin 2) * 64 + 1 * b.val = b.val; rw [e1]; omega

/-- Entry y of band t's product is the entry of the whole product whose row is 2000 t plus y's row. -/
theorem band_eq (c : Dev nD) (t : Fin cfg2.N) (y : S2000x64.Idx) (i : S100000x64.Idx)
    (hi0 : (i 0).val = 2000 * t.val + (y 0).val) (hi1 : (i 1).val = (y 1).val) :
    matProd (iblk2 V c 0 t : FVec Ideal S2000x128 .f32) (iblk2 V c 1 t : FVec Ideal S128x64 .f32) y = G V c i :=
  matProd_rows (V c (Pipeline.arrRef spec2 0) : FVec Ideal S100000x128 .f32) (V c (Pipeline.arrRef spec2 1) : FVec Ideal S128x64 .f32)
    (iblk2 V c 0 t) (iblk2 V c 1 t) (2000 * t.val) (iblk0_apply V c t) (iblk1_apply V c t) y i hi0 hi1

/-- What point t writes back to the single-precision output is its band of rows of the whole product. -/
theorem flushed2_eq (c : Dev nD) (t : Fin cfg2.N) :
    (dat2 (F := Ideal) V c).flushed 2 t = ((cfg2.win 2).blk t).view.read (Elt Ideal) (G V c) := by
  show (cfg2.win 2).cut (grid2.coords t) ((dat2 (F := Ideal) V c).after 2 t) = _
  rw [after2_2]
  unfold out2_2
  rw [View.canon_unit_zero hz]
  simp only [View.ld_unit_zero (S := S2000x128) hz, View.ld_unit_zero (S := S128x64) hz]
  rw [pay1_eq]
  obtain ⟨-, -, -, -, e0, e1, -⟩ := idx_facts t
  funext j
  rw [View.read_apply]
  show _ = G V c (((cfg2.win 2).blk t).view.emb j)
  refine band_eq V c t j (((cfg2.win 2).blk t).view.emb j) ?_ ?_
  · show win2_2.index t (0 : Fin 2) * 2000 + 1 * (j 0).val = 2000 * t.val + (j 0).val
    rw [e0]; omega
  · show win2_2.index t (1 : Fin 2) * 64 + 1 * (j 1).val = (j 1).val
    rw [e1]; omega

/-- The same for the half-precision output. -/
theorem flushed3_eq (c : Dev nD) (t : Fin cfg2.N) :
    (dat2 (F := Ideal) V c).flushed 3 t = ((cfg2.win 3).blk t).view.read (Elt Ideal) (G V c) := by
  show (cfg2.win 3).cut (grid2.coords t) ((dat2 (F := Ideal) V c).after 3 t) = _
  rw [after2_3]
  unfold out2_3
  rw [View.canon_unit_zero hz]
  simp only [View.ld_unit_zero (S := S2000x128) hz, View.ld_unit_zero (S := S128x64) hz]
  obtain ⟨-, -, -, -, -, -, e0, e1⟩ := idx_facts t
  funext j
  rw [View.read_apply]
  show _ = G V c (((cfg2.win 3).blk t).view.emb j)
  refine (pay2_eq _ _ j).trans ?_
  refine band_eq V c t j (((cfg2.win 3).blk t).view.emb j) ?_ ?_
  · show win2_3.index t (0 : Fin 2) * 2000 + 1 * (j 0).val = 2000 * t.val + (j 0).val
    rw [e0]; omega
  · show win2_3.index t (1 : Fin 2) * 64 + 1 * (j 1).val = (j 1).val
    rw [e1]; omega

/-- An index of an output array lies in band t iff its row does. -/
theorem mem_blk2 (t : Fin cfg2.N) (i : S100000x64.Idx) :
    i ∈ ((cfg2.win 2).blk t).view.set ↔ ∀ a : Fin 2, win2_2.index t a * S2000x64.size a ≤ (i a).val ∧ (i a).val < win2_2.index t a * S2000x64.size a + S2000x64.size a := by
  show i ∈ ((View.whole main_v36_0).slice (win2_2.rect t)).set ↔ _
  rw [View.set_slice_whole, Rect.mem_set_unit]
  exact Iff.rfl

theorem mem_blk3 (t : Fin cfg2.N) (i : S100000x64.Idx) :
    i ∈ ((cfg2.win 3).blk t).view.set ↔ ∀ a : Fin 2, win2_3.index t a * S2000x64.size a ≤ (i a).val ∧ (i a).val < win2_3.index t a * S2000x64.size a + S2000x64.size a := by
  show i ∈ ((View.whole main_v36_1).slice (win2_3.rect t)).set ↔ _
  rw [View.set_slice_whole, Rect.mem_set_unit]
  exact Iff.rfl

/-- Row n lies in band n / 2000: the bands tile the array. -/
theorem cover2 (i : S100000x64.Idx) : ∃ t : Fin cfg2.N, (cfg2.win 2).flush t = true ∧ i ∈ ((cfg2.win 2).blk t).view.set := by
  have hi0 : (i 0).val < 100000 := (i 0).isLt
  have hi1 : (i 1).val < 64 := (i 1).isLt
  let t : Fin cfg2.N := ⟨(i 0).val / 2000, by show (i 0).val / 2000 < 50; omega⟩
  obtain ⟨-, -, -, -, e0, e1, -⟩ := idx_facts t
  have htv : t.val = (i 0).val / 2000 := rfl
  refine ⟨t, flush2_2 t, ?_⟩
  rw [mem_blk2]
  intro a
  match a with
  | ⟨0, _⟩ => show win2_2.index t (0 : Fin 2) * 2000 ≤ (i 0).val ∧ (i 0).val < win2_2.index t (0 : Fin 2) * 2000 + 2000; omega
  | ⟨1, _⟩ => show win2_2.index t (1 : Fin 2) * 64 ≤ (i 1).val ∧ (i 1).val < win2_2.index t (1 : Fin 2) * 64 + 64; omega

theorem cover3 (i : S100000x64.Idx) : ∃ t : Fin cfg2.N, (cfg2.win 3).flush t = true ∧ i ∈ ((cfg2.win 3).blk t).view.set := by
  have hi0 : (i 0).val < 100000 := (i 0).isLt
  have hi1 : (i 1).val < 64 := (i 1).isLt
  let t : Fin cfg2.N := ⟨(i 0).val / 2000, by show (i 0).val / 2000 < 50; omega⟩
  obtain ⟨-, -, -, -, -, -, e0, e1⟩ := idx_facts t
  have htv : t.val = (i 0).val / 2000 := rfl
  refine ⟨t, flush2_3 t, ?_⟩
  rw [mem_blk3]
  intro a
  match a with
  | ⟨0, _⟩ => show win2_3.index t (0 : Fin 2) * 2000 ≤ (i 0).val ∧ (i 0).val < win2_3.index t (0 : Fin 2) * 2000 + 2000; omega
  | ⟨1, _⟩ => show win2_3.index t (1 : Fin 2) * 64 ≤ (i 1).val ∧ (i 1).val < win2_3.index t (1 : Fin 2) * 64 + 64; omega

/-- THE SINGLE-PRECISION OUTPUT after the region: the product of the two arrays the region found. -/
theorem final2_2 (c : Dev nD) : (dat2 (F := Ideal) V c).arrAt 2 cfg2.N
    = matProd (V c (Pipeline.arrRef spec2 0) : FVec Ideal S100000x128 .f32) (V c (Pipeline.arrRef spec2 1) : FVec Ideal S128x64 .f32) :=
  (dat2 (F := Ideal) V c).arrAt_eq_of_cover 2 (G V c) (fun t _ => flushed2_eq V c t) (cover2)

/-- THE HALF-PRECISION OUTPUT after the region: the same numbers. -/
theorem final2_3 (c : Dev nD) : (dat2 (F := Ideal) V c).arrAt 3 cfg2.N
    = matProd (V c (Pipeline.arrRef spec2 0) : FVec Ideal S100000x128 .f32) (V c (Pipeline.arrRef spec2 1) : FVec Ideal S128x64 .f32) :=
  (dat2 (F := Ideal) V c).arrAt_eq_of_cover 3 (G V c) (fun t _ => flushed3_eq V c t) (cover3)

end Cert.Sage.R2

end
-- ==== Proof.Region3.lean ====
/-
  The last layer's region, read as a whole-array function. The region walks the 100000 nodes in 50 bands of 2000
  consecutive rows. At band t it reads rows 2000 t, …, 2000 t + 1999 of the node features h, of the aggregated rows
  and of the reciprocal-degree column, together with the whole self-weight matrix and the whole bias row, and writes
  back the same rows of relu (h · ws + aggregated ∗ inv + b). A band of rows of that expression depends only on the
  same band of the row-tiled operands, so what band t writes is band t of the expression evaluated on the whole
  arrays; the bands tile the array (row n lies in band n / 2000), so after the region the output array is that
  expression of the arrays the region found.
-/
import proofs.«120637_j50062138802388_2_alg».proof.Proof.KernelIdealFrameP
import proofs.«120637_j50062138802388_2_alg».proof.Proof.Spec
import Idealize.ShloMosaic.Lib.Pipeline.Value

noncomputable section

namespace Cert.Sage.R3

open Cert.KernelIdeal Cert.KernelIdeal.Gen Idealize.ShloMosaic Idealize.ShloMosaic.TcCoe Idealize.SL.Sem
open Idealize.ShloMosaic.Pipeline (Dat)
open Idealize.ShloMosaic.ValueIdx Cert.LibMatProd Cert.LibBiasRelu Cert.LibRowScale

theorem hz : (![0, 0] : Fin 2 → Nat) = fun _ => 0 := funext fun a => by fin_cases a <;> rfl

/-- The body's stored value, as whole-block operations: the block of node features times the self weights, plus the
    block of aggregated rows scaled row by row by the reciprocal-degree column, plus the bias row, clamped at zero. -/
theorem pay_eq (v0 : Vec Ideal S2000x128 .f32) (v3 : Vec Ideal S2000x64 .f32) (v5 : Vec Ideal S2000x1 .f32)
    (v9 : Vec Ideal S128x64 .f32) (v13 : Vec Ideal S1x64 .f32) :
    k3_pay1 (F := Ideal) v0 v3 v5 v9 v13 = biasRelu (addM (matProd v0 v9) (rowScale v3 v5)) v13 := by
  have e1 := matmul_eq dot_S2000x128_S128x64_S2000x64_1_0_0_1_n_n rfl rfl rfl rfl rfl rfl v0 v9 bitsLt_bf16_f32
  have e2 := mul_broadcastTo_eq v3 v5 shapeCasts_S2000x64_S2000x64 shapeCasts_S2000x1_S2000x1 broadcasts_S2000x1_S2000x64
  have e3 := vector_form (addM (matProd v0 v9) (rowScale v3 v5)) v13 shapeCasts_S2000x64_S2000x64 shapeCasts_S1x64_S1x64 broadcasts_S1x64_S2000x64
  rw [shapeCast_self] at e3
  rw [← e3, ← e1, ← e2]
  unfold k3_pay1
  rw [shapeCast_self v0]
  rfl

/-- The whole-array result of the last layer: node features times self weights, plus aggregated rows scaled by the
    reciprocal-degree column, plus the bias row, clamped at zero. -/
abbrev G (A0 : FVec Ideal S100000x128 .f32) (A1 : FVec Ideal S100000x64 .f32) (A2 : FVec Ideal S100000x1 .f32)
    (A3 : FVec Ideal S128x64 .f32) (A4 : FVec Ideal S1x64 .f32) : FVec Ideal S100000x64 .f32 :=
  biasRelu (addM (matProd A0 A3) (rowScale A1 A2)) A4

/-- A band of 2000 consecutive rows starting at row r: when the row-tiled operands hold rows r, …, r + 1999 of the
    whole arrays and the untiled operands are the whole arrays, the band's result at y is the whole result at the index
    whose row is r plus y's row. -/
theorem band_eq (A0 : FVec Ideal S100000x128 .f32) (A1 : FVec Ideal S100000x64 .f32) (A2 : FVec Ideal S100000x1 .f32)
    (A3 : FVec Ideal S128x64 .f32) (A4 : FVec Ideal S1x64 .f32)
    (x0 : FVec Ideal S2000x128 .f32) (x1 : FVec Ideal S2000x64 .f32) (x2 : FVec Ideal S2000x1 .f32)
    (x3 : FVec Ideal S128x64 .f32) (x4 : FVec Ideal S1x64 .f32) (r : ℕ)
    (h0 : ∀ (p : Fin 2000) (k : Fin 128) (hp : r + p.val < 100000), x0 (ix2 p k) = A0 (ix2 ⟨r + p.val, hp⟩ k))
    (h1 : ∀ (p : Fin 2000) (q : Fin 64) (hp : r + p.val < 100000), x1 (ix2 p q) = A1 (ix2 ⟨r + p.val, hp⟩ q))
    (h2 : ∀ (p : Fin 2000) (hp : r + p.val < 100000), x2 (ix2 p (0 : Fin 1)) = A2 (ix2 ⟨r + p.val, hp⟩ (0 : Fin 1)))
    (h3 : ∀ z, x3 z = A3 z) (h4 : ∀ z, x4 z = A4 z)
    (y : S2000x64.Idx) (i : S100000x64.Idx) (hi0 : (i 0).val = r + (y 0).val) (hi1 : (i 1).val = (y 1).val) :
    biasRelu (addM (matProd x0 x3) (rowScale x1 x2)) x4 y = G A0 A1 A2 A3 A4 i := by
  obtain ⟨p, q, rfl⟩ : ∃ (p : Fin 2000) (q : Fin 64), y = ix2 p q := ⟨y 0, y 1, eq_ix2 y⟩
  obtain ⟨p', q', rfl⟩ : ∃ (p' : Fin 100000) (q' : Fin 64), i = ix2 p' q' := ⟨i 0, i 1, eq_ix2 i⟩
  have e0 : p'.val = r + p.val := hi0
  have e1 : q' = q := Fin.ext hi1
  subst e1
  have hp : r + p.val < 100000 := e0 ▸ p'.isLt
  have hp' : p' = ⟨r + p.val, hp⟩ := Fin.ext e0
  subst hp'
  refine biasRelu_rows (addM (matProd A0 A3) (rowScale A1 A2)) A4 (addM (matProd x0 x3) (rowScale x1 x2)) x4 r
    (fun p q hp => ?_) h4 p q' hp
  show matProd x0 x3 (ix2 p q) + rowScale x1 x2 (ix2 p q) = matProd A0 A3 (ix2 ⟨r + p.val, hp⟩ q) + rowScale A1 A2 (ix2 ⟨r + p.val, hp⟩ q)
  rw [matProd_rows A0 A3 x0 x3 r h0 h3 (ix2 p q) (ix2 ⟨r + p.val, hp⟩ q) rfl rfl,
    rowScale_rows A1 A2 x1 x2 r h1 h2 (ix2 p q) (ix2 ⟨r + p.val, hp⟩ q) rfl rfl]

variable (V : (c : Dev nD) → (b : Ref sig .tc) → Buf (Elt Ideal) ((c : Thread nD τ).loc b))

/-- The printed index maps at every grid point: a row-tiled window's block index is the point's number on the row axis
    and zero on the column axis; an untiled window's block index is zero on both. -/
theorem idx_facts : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

/-- The block of node features at point t holds rows 2000 t, …, 2000 t + 1999 of the array. -/
theorem iblk0_apply (c : Dev nD) (t : Fin cfg3.N) (p : Fin 2000) (k : Fin 128) (hp : 2000 * t.val + p.val < 100000) :
    (iblk3 V c 0 t : FVec Ideal S2000x128 .f32) (ix2 p k)
      = (V c (Pipeline.arrRef spec3 0) : FVec Ideal S100000x128 .f32) (ix2 ⟨2000 * t.val + p.val, hp⟩ k) := by
  obtain ⟨e0, e1, -⟩ := idx_facts t
  unfold iblk3
  rw [View.read_apply]
  show (V c (Pipeline.arrRef spec3 0) : FVec Ideal S100000x128 .f32) _ = _
  congr 1
  funext a
  apply Fin.ext
  match a with
  | ⟨0, _⟩ => show win3_0.index t (0 : Fin 2) * 2000 + 1 * p.val = 2000 * t.val + p.val; rw [e0]; omega
  | ⟨1, _⟩ => show win3_0.index t (1 : Fin 2) * 128 + 1 * k.val = k.val; rw [e1]; omega

/-- The block of aggregated rows at point t holds rows 2000 t, …, 2000 t + 1999 of the array. -/
theorem iblk1_apply (c : Dev nD) (t : Fin cfg3.N) (p : Fin 2000) (q : Fin 64) (hp : 2000 * t.val + p.val < 100000) :
    (iblk3 V c 1 t : FVec Ideal S2000x64 .f32) (ix2 p q)
      = (V c (Pipeline.arrRef spec3 1) : FVec Ideal S100000x64 .f32) (ix2 ⟨2000 * t.val + p.val, hp⟩ q) := by
  obtain ⟨-, -, e0, e1, -⟩ := idx_facts t
  unfold iblk3
  rw [View.read_apply]
  show (V c (Pipeline.arrRef spec3 1) : FVec Ideal S100000x64 .f32) _ = _
  congr 1
  funext a
  apply Fin.ext
  match a with
  | ⟨0, _⟩ => show win3_1.index t (0 : Fin 2) * 2000 + 1 * p.val = 2000 * t.val + p.val; rw [e0]; omega
  | ⟨1, _⟩ => show win3_1.index t (1 : Fin 2) * 64 + 1 * q.val = q.val; rw [e1]; omega

/-- The block of the reciprocal-degree column at point t holds rows 2000 t, …, 2000 t + 1999 of the column. -/
theorem iblk2_apply (c : Dev nD) (t : Fin cfg3.N) (p : Fin 2000) (hp : 2000 * t.val + p.val < 100000) :
    (iblk3 V c 2 t : FVec Ideal S2000x1 .f32) (ix2 p (0 : Fin 1))
      = (V c (Pipeline.arrRef spec3 2) : FVec Ideal S100000x1 .f32) (ix2 ⟨2000 * t.val + p.val, hp⟩ (0 : Fin 1)) := by
  obtain ⟨-, -, -, -, e0, e1, -⟩ := idx_facts t
  unfold iblk3
  rw [View.read_apply]
  show (V c (Pipeline.arrRef spec3 2) : FVec Ideal S100000x1 .f32) _ = _
  congr 1
  funext a
  apply Fin.ext
  match a with
  | ⟨0, _⟩ => show win3_2.index t (0 : Fin 2) * 2000 + 1 * p.val = 2000 * t.val + p.val; rw [e0]; omega
  | ⟨1, _⟩ => show win3_2.index t (1 : Fin 2) * 1 + 1 * 0 = 0; rw [e1]

/-- The self weights are staged whole at every point. -/
theorem iblk3_apply (c : Dev nD) (t : Fin cfg3.N) (z : S128x64.Idx) :
    (iblk3 V c 3 t : FVec Ideal S128x64 .f32) z = (V c (Pipeline.arrRef spec3 3) : FVec Ideal S128x64 .f32) z := by
  obtain ⟨a, b, rfl⟩ : ∃ (a : Fin 128) (b : Fin 64), z = ix2 a b := ⟨z 0, z 1, eq_ix2 z⟩
  obtain ⟨-, -, -, -, -, -, e0, e1, -⟩ := idx_facts t
  unfold iblk3
  rw [View.read_apply]
  show (V c (Pipeline.arrRef spec3 3) : FVec Ideal S128x64 .f32) _ = _
  congr 1
  funext d
  apply Fin.ext
  match d with
  | ⟨0, _⟩ => show win3_3.index t (0 : Fin 2) * 128 + 1 * a.val = a.val; rw [e0]; omega
  | ⟨1, _⟩ => show win3_3.index t (1 : Fin 2) * 64 + 1 * b.val = b.val; rw [e1]; omega

/-- The bias row is staged whole at every point. -/
theorem iblk4_apply (c : Dev nD) (t : Fin cfg3.N) (z : S1x64.Idx) :
    (iblk3 V c 4 t : FVec Ideal S1x64 .f32) z = (V c (Pipeline.arrRef spec3 4) : FVec Ideal S1x64 .f32) z := by
  obtain ⟨a, b, rfl⟩ : ∃ (a : Fin 1) (b : Fin 64), z = ix2 a b := ⟨z 0, z 1, eq_ix2 z⟩
  obtain ⟨-, -, -, -, -, -, -, -, e0, e1, -⟩ := idx_facts t
  unfold iblk3
  rw [View.read_apply]
  show (V c (Pipeline.arrRef spec3 4) : FVec Ideal S1x64 .f32) _ = _
  congr 1
  funext d
  apply Fin.ext
  match d with
  | ⟨0, _⟩ => show win3_4.index t (0 : Fin 2) * 1 + 1 * a.val = a.val; rw [e0]; omega
  | ⟨1, _⟩ => show win3_4.index t (1 : Fin 2) * 64 + 1 * b.val = b.val; rw [e1]; omega

/-- What point t writes back is its band of rows of the whole-array result. -/
theorem flushed_eq (c : Dev nD) (t : Fin cfg3.N) :
    (dat3 V c).flushed 5 t = ((cfg3.win 5).blk t).view.read (Elt Ideal)
      (G (V c (Pipeline.arrRef spec3 0)) (V c (Pipeline.arrRef spec3 1)) (V c (Pipeline.arrRef spec3 2))
        (V c (Pipeline.arrRef spec3 3)) (V c (Pipeline.arrRef spec3 4))) := by
  show (cfg3.win 5).cut (grid3.coords t) ((dat3 V c).after 5 t) = _
  rw [after3_5]
  unfold out3_5
  rw [View.canon_unit_zero hz]
  simp only [View.ld_unit_zero (S := S2000x128) hz, View.ld_unit_zero (S := S2000x64) hz, View.ld_unit_zero (S := S2000x1) hz,
    View.ld_unit_zero (S := S128x64) hz, View.ld_unit_zero (S := S1x64) hz]
  rw [pay_eq]
  obtain ⟨-, -, -, -, -, -, -, -, -, -, e0, e1⟩ := idx_facts t
  funext j
  rw [View.read_apply]
  show _ = G (V c (Pipeline.arrRef spec3 0)) (V c (Pipeline.arrRef spec3 1)) (V c (Pipeline.arrRef spec3 2))
        (V c (Pipeline.arrRef spec3 3)) (V c (Pipeline.arrRef spec3 4)) (((cfg3.win 5).blk t).view.emb j)
  refine band_eq (V c (Pipeline.arrRef spec3 0)) (V c (Pipeline.arrRef spec3 1)) (V c (Pipeline.arrRef spec3 2))
    (V c (Pipeline.arrRef spec3 3)) (V c (Pipeline.arrRef spec3 4))
    (iblk3 V c 0 t) (iblk3 V c 1 t) (iblk3 V c 2 t) (iblk3 V c 3 t) (iblk3 V c 4 t) (2000 * t.val)
    (iblk0_apply V c t) (iblk1_apply V c t) (iblk2_apply V c t) (iblk3_apply V c t) (iblk4_apply V c t)
    j (((cfg3.win 5).blk t).view.emb j) ?_ ?_
  · show win3_5.index t (0 : Fin 2) * 2000 + 1 * (j 0).val = 2000 * t.val + (j 0).val
    rw [e0]; omega
  · show win3_5.index t (1 : Fin 2) * 64 + 1 * (j 1).val = (j 1).val
    rw [e1]; omega

/-- An index of the output array lies in band t iff its row does. -/
theorem mem_blk (t : Fin cfg3.N) (i : S100000x64.Idx) :
    i ∈ ((cfg3.win 5).blk t).view.set ↔ ∀ a : Fin 2, win3_5.index t a * S2000x64.size a ≤ (i a).val ∧ (i a).val < win3_5.index t a * S2000x64.size a + S2000x64.size a := by
  show i ∈ ((View.whole main_v49).slice (win3_5.rect t)).set ↔ _
  rw [View.set_slice_whole, Rect.mem_set_unit]
  exact Iff.rfl

/-- Row n lies in band n / 2000: the bands tile the array. -/
theorem cover (i : S100000x64.Idx) : ∃ t : Fin cfg3.N, (cfg3.win 5).flush t = true ∧ i ∈ ((cfg3.win 5).blk t).view.set := by
  have hi0 : (i 0).val < 100000 := (i 0).isLt
  have hi1 : (i 1).val < 64 := (i 1).isLt
  let t : Fin cfg3.N := ⟨(i 0).val / 2000, by show (i 0).val / 2000 < 50; omega⟩
  obtain ⟨-, -, -, -, -, -, -, -, -, -, e0, e1⟩ := idx_facts t
  have htv : t.val = (i 0).val / 2000 := rfl
  refine ⟨t, flush3_5 t, ?_⟩
  rw [mem_blk]
  intro a
  match a with
  | ⟨0, _⟩ => show win3_5.index t (0 : Fin 2) * 2000 ≤ (i 0).val ∧ (i 0).val < win3_5.index t (0 : Fin 2) * 2000 + 2000; omega
  | ⟨1, _⟩ => show win3_5.index t (1 : Fin 2) * 64 ≤ (i 1).val ∧ (i 1).val < win3_5.index t (1 : Fin 2) * 64 + 64; omega

/-- THE OUTPUT after the region: relu (h · ws + summed ∗ inv + b) of the arrays the region found. -/
theorem final3_5 (c : Dev nD) : (dat3 (F := Ideal) V c).arrAt 5 cfg3.N
    = biasRelu (Cert.Sage.addM (matProd (V c (Pipeline.arrRef spec3 0)) (V c (Pipeline.arrRef spec3 3)))
        (rowScale (V c (Pipeline.arrRef spec3 1)) (V c (Pipeline.arrRef spec3 2)))) (V c (Pipeline.arrRef spec3 4)) :=
  (dat3 (F := Ideal) V c).arrAt_eq_of_cover 5
    (G (V c (Pipeline.arrRef spec3 0)) (V c (Pipeline.arrRef spec3 1)) (V c (Pipeline.arrRef spec3 2))
      (V c (Pipeline.arrRef spec3 3)) (V c (Pipeline.arrRef spec3 4)))
    (fun t _ => flushed_eq V c t) (cover)

end Cert.Sage.R3

end
-- ==== Proof.Graph.lean ====
/-
  The graph that two vectors of integers name, read off the host operations that use them.

  Edge e comes from the node `srcRow src e` and arrives at the node n when e ∈ `hits dst n` (both in the
  specification). Three facts, for the index columns as a host program makes them (a vector broadcast into one
  column):
  * the degree: adding a one at every edge's destination into zeros, then taking the larger of that and one, is the
    degree column laid as a vector (`deg_vec`);
  * the aggregate: picking the rows of X at the normalised sources and adding them at the destinations into zeros is
    `aggRows` (`agg_eq`), for any row width;
  * the normalised source: where the source is negative the extent is added (`normSrc_vec`).
  Each is also stated for a record of dimension numbers given with a proof that it is the spelt-out one (`_of`).
-/
import proofs.«120637_j50062138802388_2_alg».proof.Proof.Spec

noncomputable section

open scoped BigOperators

namespace Cert.Sage

open Idealize.ShloMosaic Idealize.ShloMosaic.ValueIdx Cert.LibSegment

/-- A vector broadcast into one column reads, at (e, 0), its entry e. -/
theorem colOf_apply {M : ℕ} {α : Type} (hb : (⟨1, ![M]⟩ : Shape).BroadcastsInDim ⟨2, ![M, 1]⟩ ![0])
    (v : (⟨1, ![M]⟩ : Shape).Idx → α) (e : Fin M) :
    broadcastInDim ⟨2, ![M, 1]⟩ ![0] hb v (colIdx e) = v (ix1 e) :=
  broadcastInDim_apply _ hb v _ (ix1 e) (fun ax => match ax with
    | ⟨0, _⟩ => by
      show e.val = if M = 1 then 0 else e.val
      split
      · have := e.isLt; omega
      · rfl)

/-- The edges whose destination, read off the broadcast column, is n are the edges arriving at n. -/
theorem filter_col_eq_hits (hb : (⟨1, ![1600000]⟩ : Shape).BroadcastsInDim ⟨2, ![1600000, 1]⟩ ![0])
    (dst : IVec ⟨1, ![1600000]⟩ 32) (n : Fin 100000) :
    Finset.univ.filter (fun e : Fin 1600000 =>
        ((broadcastInDim ⟨2, ![1600000, 1]⟩ ![0] hb dst) (colIdx e)).toInt = (n.val : Int)) = hits dst n := by
  refine Finset.filter_congr (fun e _ => ?_)
  rw [colOf_apply]

/-- (G3) The source index with the extent added where it is negative, entry by entry. -/
theorem normSrc_vec (src zeros ext : IVec ⟨1, ![1600000]⟩ 32)
    (hz : ∀ i, zeros i = 0#32) (hx : ∀ i, ext i = 100000#32) (e : Fin 1600000) :
    select (cmpi .slt src zeros) (addi src ext) src (ix1 e) = normSrc (src (ix1 e)) := by
  show Scalar.select (IntOp.cmpi .slt (src (ix1 e)) (zeros (ix1 e))) (IntOp.addi (src (ix1 e)) (ext (ix1 e))) (src (ix1 e)) = _
  rw [hz, hx]
  rfl

/-- (G1) Ones added at every edge's destination into zeros, then the larger of that and one: the degree column,
    laid as a vector. -/
theorem deg_vec (wf : ScatterDims.WF ⟨1, ![100000]⟩ ⟨2, ![1600000, 1]⟩ ⟨1, ![1600000]⟩ [] [0] [0] 1)
    (hb : (⟨1, ![1600000]⟩ : Shape).BroadcastsInDim ⟨2, ![1600000, 1]⟩ ![0])
    (dst : IVec ⟨1, ![1600000]⟩ 32)
    (zeros onesN : FVec Ideal ⟨1, ![100000]⟩ .f32) (ones : FVec Ideal ⟨1, ![1600000]⟩ .f32)
    (hz : ∀ i, zeros i = w0) (ho : ∀ i, ones i = w1) (hoN : ∀ i, onesN i = w1) (n : Fin 100000) :
    maximumf (Host.scatterAdd (F := Ideal) (entryAddDims 100000 1600000 wf) zeros
        (broadcastInDim ⟨2, ![1600000, 1]⟩ ![0] hb dst) ones) onesN (ix1 n)
      = degCol (hits dst) (ix2 n (0 : Fin 1)) := by
  rw [degCol_apply]
  show max (Host.scatterAdd (F := Ideal) (entryAddDims 100000 1600000 wf) zeros
        (broadcastInDim ⟨2, ![1600000, 1]⟩ ![0] hb dst) ones (ix1 n)) (onesN (ix1 n)) = _
  rw [hostScatterAdd_entries_apply, hz, hoN, filter_col_eq_hits]
  exact congrArg (fun t => max (w0 + t) w1) (Finset.sum_congr rfl (fun e _ => ho _))

/-- (G1) for a record of dimension numbers that is the spelt-out one. -/
theorem deg_vec_of (wf : ScatterDims.WF ⟨1, ![100000]⟩ ⟨2, ![1600000, 1]⟩ ⟨1, ![1600000]⟩ [] [0] [0] 1)
    (d : ScatterDims ⟨1, ![100000]⟩ ⟨2, ![1600000, 1]⟩ ⟨1, ![1600000]⟩) (hd : d = entryAddDims 100000 1600000 wf)
    (hb : (⟨1, ![1600000]⟩ : Shape).BroadcastsInDim ⟨2, ![1600000, 1]⟩ ![0])
    (dst : IVec ⟨1, ![1600000]⟩ 32)
    (zeros onesN : FVec Ideal ⟨1, ![100000]⟩ .f32) (ones : FVec Ideal ⟨1, ![1600000]⟩ .f32)
    (hz : ∀ i, zeros i = w0) (ho : ∀ i, ones i = w1) (hoN : ∀ i, onesN i = w1) (n : Fin 100000) :
    maximumf (Host.scatterAdd (F := Ideal) d zeros (broadcastInDim ⟨2, ![1600000, 1]⟩ ![0] hb dst) ones) onesN (ix1 n)
      = degCol (hits dst) (ix2 n (0 : Fin 1)) := by
  subst hd
  exact deg_vec wf hb dst zeros onesN ones hz ho hoN n

/-- (G2) The rows of X at the normalised sources, added at the destinations into zeros: the aggregated rows. -/
theorem agg_eq {D : ℕ}
    (wfg : GatherDims.WF ⟨2, ![100000, D]⟩ ⟨2, ![1600000, 1]⟩ ⟨2, ![1600000, D]⟩ [1] [0] [] [0] [] 1 ![1, D])
    (wfs : ScatterDims.WF ⟨2, ![100000, D]⟩ ⟨2, ![1600000, 1]⟩ ⟨2, ![1600000, D]⟩ [1] [0] [0] 1)
    (hb : (⟨1, ![1600000]⟩ : Shape).BroadcastsInDim ⟨2, ![1600000, 1]⟩ ![0])
    (src nsrc dst : IVec ⟨1, ![1600000]⟩ 32) (hn : ∀ e : Fin 1600000, nsrc (ix1 e) = normSrc (src (ix1 e)))
    (zeros : FVec Ideal ⟨2, ![100000, D]⟩ .f32) (hz : ∀ i, zeros i = w0)
    (X : FVec Ideal ⟨2, ![100000, D]⟩ .f32) :
    Host.scatterAdd (F := Ideal) (rowAddDims 100000 D 1600000 wfs) zeros (broadcastInDim ⟨2, ![1600000, 1]⟩ ![0] hb dst)
        (Host.gather (rowDims 100000 D 1600000 wfg) X (broadcastInDim ⟨2, ![1600000, 1]⟩ ![0] hb nsrc))
      = aggRows (srcRow src) (hits dst) X := by
  funext j
  obtain ⟨n, c, rfl⟩ : ∃ (n : Fin 100000) (c : Fin D), j = ix2 n c := ⟨j 0, j 1, eq_ix2 j⟩
  rw [hostScatterAdd_rows_apply, aggRows_apply, hz, filter_col_eq_hits]
  refine congrArg (fun t => w0 + t) (Finset.sum_congr rfl (fun e _ => ?_))
  rw [gather_rows_apply (by norm_num : 0 < 100000), colOf_apply, hn]
  rfl

/-- (G2) for records of dimension numbers that are the spelt-out ones. -/
theorem agg_eq_of {D : ℕ}
    (wfg : GatherDims.WF ⟨2, ![100000, D]⟩ ⟨2, ![1600000, 1]⟩ ⟨2, ![1600000, D]⟩ [1] [0] [] [0] [] 1 ![1, D])
    (wfs : ScatterDims.WF ⟨2, ![100000, D]⟩ ⟨2, ![1600000, 1]⟩ ⟨2, ![1600000, D]⟩ [1] [0] [0] 1)
    (dg : GatherDims ⟨2, ![100000, D]⟩ ⟨2, ![1600000, 1]⟩ ⟨2, ![1600000, D]⟩) (hdg : dg = rowDims 100000 D 1600000 wfg)
    (ds : ScatterDims ⟨2, ![100000, D]⟩ ⟨2, ![1600000, 1]⟩ ⟨2, ![1600000, D]⟩) (hds : ds = rowAddDims 100000 D 1600000 wfs)
    (hb : (⟨1, ![1600000]⟩ : Shape).BroadcastsInDim ⟨2, ![1600000, 1]⟩ ![0])
    (src nsrc dst : IVec ⟨1, ![1600000]⟩ 32) (hn : ∀ e : Fin 1600000, nsrc (ix1 e) = normSrc (src (ix1 e)))
    (zeros : FVec Ideal ⟨2, ![100000, D]⟩ .f32) (hz : ∀ i, zeros i = w0)
    (X : FVec Ideal ⟨2, ![100000, D]⟩ .f32) :
    Host.scatterAdd (F := Ideal) ds zeros (broadcastInDim ⟨2, ![1600000, 1]⟩ ![0] hb dst)
        (Host.gather dg X (broadcastInDim ⟨2, ![1600000, 1]⟩ ![0] hb nsrc))
      = aggRows (srcRow src) (hits dst) X := by
  subst hdg hds
  exact agg_eq wfg wfs hb src nsrc dst hn zeros hz X

end Cert.Sage

end
-- ==== Proof.HostReads.lean ====
/-
  The host operations between the four kernels, read for an arbitrary starting valuation.

  Three stretches of host operations surround the kernels. Each prepares, for the layer that follows, the bias vector
  laid as a row and the aggregate of the current node features: the rows at the normalised source indices added at the
  destination indices into zeros. The first stretch also makes the reciprocal degree column. Stated over any contents W
  of the buffers the stretch starts from; every buffer a stretch does not write keeps its contents.
-/
import proofs.«120637_j50062138802388_2_alg».proof.Proof.KernelIdealFrameP
import proofs.«120637_j50062138802388_2_alg».proof.Proof.Spec
import proofs.«120637_j50062138802388_2_alg».proof.Proof.Graph
import Idealize.ShloMosaic.Lib.StableHlo.Run
import Idealize.ShloMosaic.Lib.IdealHost
import Idealize.ShloMosaic.Lib.ValueLayout

noncomputable section

open scoped BigOperators

namespace Cert.Sage.Host

open Cert.KernelIdeal Cert.KernelIdeal.Gen Idealize.ShloMosaic Idealize.ShloMosaic.TcCoe Idealize.ShloMosaic.ValueIdx
  Idealize.SL.Sem Idealize.ShloMosaic.StableHlo Cert.Sage Cert.LibSegment

set_option quotPrecheck false in
local notation "d" => Proc.devRef (τ := τ) (sig := sig) Proc.tc

variable (W : Valuation τ sig (Elt Ideal))

/-- A vector viewed as a one-column matrix reads, at (i, u), the vector at i. -/
theorem colCast_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A float word broadcast from a scalar reads that word everywhere. -/
theorem bconst_apply {T : Shape} (h : (⟨0, ![]⟩ : Shape).BroadcastsInDim T ![]) (b : BitVec 32) (i : T.Idx) :
    broadcastInDim T ![] h (constant (F := Ideal) ⟨0, ![]⟩ .f32 b) i = Ideal.ofBits .f32 b :=
  (broadcastInDim_scalar_apply h _ i).trans rfl

/-- An integer broadcast from a scalar reads that integer everywhere. -/
theorem bconstI_apply {T : Shape} (h : (⟨0, ![]⟩ : Shape).BroadcastsInDim T ![]) (v : BitVec 32) (i : T.Idx) :
    broadcastInDim T ![] h (constantI ⟨0, ![]⟩ 32 v) i = v :=
  (broadcastInDim_scalar_apply h _ i).trans rfl

/-- Rows picked from a narrowed copy and widened again are the rows picked from the array itself: both conversions
    are the identity on the extended reals. -/
theorem gather_narrow_widen {s si t : Shape} {w : ℕ} (dg : GatherDims s si t) (X : FVec Ideal s .f32) (idx : IVec si w)
    (h : FTy.bf16.bits < FTy.f32.bits) :
    extf .f32 (Host.gather dg (truncf .bf16 X h) idx) h = Host.gather dg X idx := rfl

/-- Rows picked from an array held narrow, then widened, are the rows picked from the same extended reals. -/
theorem gather_widen {s si t : Shape} {w : ℕ} (dg : GatherDims s si t) (X : FVec Ideal s .bf16) (idx : IVec si w)
    (h : FTy.bf16.bits < FTy.f32.bits) :
    extf .f32 (Host.gather dg X idx) h = Host.gather dg (X : FVec Ideal s .f32) idx := rfl

/-! ## The buffers the stretches write -/

/-- A bias vector laid as a row. -/
theorem host0_v21 : StableHlo.after (hostOps0 (F := Ideal)) W (d main_v21) = rowOf (W (d main_arg5)) := by
  after_results
  funext j
  obtain ⟨u, i, rfl⟩ : ∃ (u : Fin 1) (i : Fin 128), j = ix2 u i := ⟨j 0, j 1, eq_ix2 j⟩
  exact shapeCast_a_1a_apply _ _ u i

/-- The reciprocal of the degree, as a column. -/
theorem host0_v8 : StableHlo.after (hostOps0 (F := Ideal)) W (d main_v8) = invCol (hits (W (d main_arg2))) := by
  after_results
  funext j
  obtain ⟨n, u, rfl⟩ : ∃ (n : Fin 100000) (u : Fin 1), j = ix2 n u := ⟨j 0, j 1, eq_ix2 j⟩
  obtain rfl : u = 0 := Subsingleton.elim _ _
  rw [invCol_apply]
  refine (colCast_apply _ shapeCasts_S100000_S100000x1 n 0).trans ?_
  rw [hostDivf_apply, bconst_apply]
  exact congrArg (Ideal.div w1) (deg_vec_of scatter_S100000_S1600000x1_S1600000_n_0_0_1_wf _ rfl _ (W (d main_arg2)) _ _ _
    (bconst_apply _ _) (bconst_apply _ _) (bconst_apply _ _) n)

set_option maxHeartbeats 4000000 in
/-- The rows of the node features at the normalised sources, added at the destinations into zeros. -/
theorem host0_v20 : StableHlo.after (hostOps0 (F := Ideal)) W (d main_v20)
    = aggRows (srcRow (W (d main_arg1))) (hits (W (d main_arg2))) (W (d main_arg0)) := by
  after_results_simp
  rw [gather_narrow_widen]
  exact agg_eq_of gather_S100000x64_S1600000x1_S1600000x64_1_0_n_n_0_1_164_wf scatter_S100000x64_S1600000x1_S1600000x64_1_0_0_1_wf _ rfl _ rfl _ (W (d main_arg1)) _ (W (d main_arg2))
    (normSrc_vec (W (d main_arg1)) _ _ (bconstI_apply _ _) (bconstI_apply _ _)) _ (bconst_apply _ _) (W (d main_arg0))

/-- A bias vector laid as a row. -/
theorem host1_v34 : StableHlo.after (hostOps1 (F := Ideal)) W (d main_v34) = rowOf (W (d main_arg8)) := by
  after_results
  funext j
  obtain ⟨u, i, rfl⟩ : ∃ (u : Fin 1) (i : Fin 128), j = ix2 u i := ⟨j 0, j 1, eq_ix2 j⟩
  exact shapeCast_a_1a_apply _ _ u i

set_option maxHeartbeats 4000000 in
/-- The rows of the node features at the normalised sources, added at the destinations into zeros. -/
theorem host1_v33 : StableHlo.after (hostOps1 (F := Ideal)) W (d main_v33)
    = aggRows (srcRow (W (d main_arg1))) (hits (W (d main_arg2))) (W (d main_v22_1) : FVec Ideal ⟨2, ![100000, 128]⟩ .f32) := by
  after_results_simp
  rw [gather_widen]
  exact agg_eq_of gather_S100000x128_S1600000x1_S1600000x128_1_0_n_n_0_1_1128_wf scatter_S100000x128_S1600000x1_S1600000x128_1_0_0_1_wf _ rfl _ rfl _ (W (d main_arg1)) _ (W (d main_arg2))
    (normSrc_vec (W (d main_arg1)) _ _ (bconstI_apply _ _) (bconstI_apply _ _)) _ (bconst_apply _ _) (W (d main_v22_1) : FVec Ideal ⟨2, ![100000, 128]⟩ .f32)

/-- A bias vector laid as a row. -/
theorem host3_v48 : StableHlo.after (hostOps3 (F := Ideal)) W (d main_v48) = rowOf (W (d main_arg11)) := by
  after_results
  funext j
  obtain ⟨u, i, rfl⟩ : ∃ (u : Fin 1) (i : Fin 64), j = ix2 u i := ⟨j 0, j 1, eq_ix2 j⟩
  exact shapeCast_a_1a_apply _ _ u i

set_option maxHeartbeats 4000000 in
/-- The rows of the node features at the normalised sources, added at the destinations into zeros. -/
theorem host3_v47 : StableHlo.after (hostOps3 (F := Ideal)) W (d main_v47)
    = aggRows (srcRow (W (d main_arg1))) (hits (W (d main_arg2))) (W (d main_v36_1) : FVec Ideal ⟨2, ![100000, 64]⟩ .f32) := by
  after_results_simp
  rw [gather_widen]
  exact agg_eq_of gather_S100000x64_S1600000x1_S1600000x64_1_0_n_n_0_1_164_wf scatter_S100000x64_S1600000x1_S1600000x64_1_0_0_1_wf _ rfl _ rfl _ (W (d main_arg1)) _ (W (d main_arg2))
    (normSrc_vec (W (d main_arg1)) _ _ (bconstI_apply _ _) (bconstI_apply _ _)) _ (bconst_apply _ _) (W (d main_v36_1) : FVec Ideal ⟨2, ![100000, 64]⟩ .f32)

/-! ## The buffers the stretches leave alone -/

/-- The references the stretch writes, in order. -/
abbrev written0 : List (Ref sig .tc) := [main_cst, main_v0, main_cst_0, main_v1, main_v2, main_v3, main_cst_1, main_v4, main_v5, main_cst_2, main_v6, main_v7, main_v8, main_v9, main_c, main_v10, main_v11, main_c_3, main_v12, main_v13, main_v14, main_v15, main_v16, main_v17, main_cst_4, main_v18, main_v19, main_v20, main_v21]

/-- Every operation of the stretch writes one of the listed references. -/
theorem hostOps0_writes :
    (hostOps0 (F := Ideal)).Forall fun op => op.writes ⊆ (written0.map (Proc.devRef (τ := τ) .tc)).toFinset := by
  simp only [hostOps0, List.Forall, StableHlo.nullary_writes, StableHlo.unary_writes, StableHlo.binary_writes,
    StableHlo.ternary_writes, StableHlo.reshape_writes]
  repeat' apply And.intro
  all_goals exact Finset.singleton_subset_iff.mpr (List.mem_toFinset.mpr (List.mem_map.mpr ⟨_, by decide, rfl⟩))

/-- A reference the stretch does not write keeps its contents. -/
theorem host0_keep (r : Ref sig .tc) (hr : r ∉ written0) :
    StableHlo.after (hostOps0 (F := Ideal)) W (d r) = W (d r) :=
  StableHlo.after_of_writes_sub _ W hostOps0_writes hr

theorem host0_keep_main_arg0 : StableHlo.after (hostOps0 (F := Ideal)) W (d main_arg0) = W (d main_arg0) := host0_keep W main_arg0 (by decide)
theorem host0_keep_main_arg1 : StableHlo.after (hostOps0 (F := Ideal)) W (d main_arg1) = W (d main_arg1) := host0_keep W main_arg1 (by decide)
theorem host0_keep_main_arg2 : StableHlo.after (hostOps0 (F := Ideal)) W (d main_arg2) = W (d main_arg2) := host0_keep W main_arg2 (by decide)
theorem host0_keep_main_arg3 : StableHlo.after (hostOps0 (F := Ideal)) W (d main_arg3) = W (d main_arg3) := host0_keep W main_arg3 (by decide)
theorem host0_keep_main_arg4 : StableHlo.after (hostOps0 (F := Ideal)) W (d main_arg4) = W (d main_arg4) := host0_keep W main_arg4 (by decide)
theorem host0_keep_main_arg5 : StableHlo.after (hostOps0 (F := Ideal)) W (d main_arg5) = W (d main_arg5) := host0_keep W main_arg5 (by decide)
theorem host0_keep_main_arg6 : StableHlo.after (hostOps0 (F := Ideal)) W (d main_arg6) = W (d main_arg6) := host0_keep W main_arg6 (by decide)
theorem host0_keep_main_arg7 : StableHlo.after (hostOps0 (F := Ideal)) W (d main_arg7) = W (d main_arg7) := host0_keep W main_arg7 (by decide)
theorem host0_keep_main_arg8 : StableHlo.after (hostOps0 (F := Ideal)) W (d main_arg8) = W (d main_arg8) := host0_keep W main_arg8 (by decide)
theorem host0_keep_main_arg9 : StableHlo.after (hostOps0 (F := Ideal)) W (d main_arg9) = W (d main_arg9) := host0_keep W main_arg9 (by decide)
theorem host0_keep_main_arg10 : StableHlo.after (hostOps0 (F := Ideal)) W (d main_arg10) = W (d main_arg10) := host0_keep W main_arg10 (by decide)
theorem host0_keep_main_arg11 : StableHlo.after (hostOps0 (F := Ideal)) W (d main_arg11) = W (d main_arg11) := host0_keep W main_arg11 (by decide)

/-- The references the stretch writes, in order. -/
abbrev written1 : List (Ref sig .tc) := [main_c_5, main_v23, main_v24, main_c_6, main_v25, main_v26, main_v27, main_v28, main_v29, main_v30, main_cst_7, main_v31, main_v32, main_v33, main_v34]

/-- Every operation of the stretch writes one of the listed references. -/
theorem hostOps1_writes :
    (hostOps1 (F := Ideal)).Forall fun op => op.writes ⊆ (written1.map (Proc.devRef (τ := τ) .tc)).toFinset := by
  simp only [hostOps1, List.Forall, StableHlo.nullary_writes, StableHlo.unary_writes, StableHlo.binary_writes,
    StableHlo.ternary_writes, StableHlo.reshape_writes]
  repeat' apply And.intro
  all_goals exact Finset.singleton_subset_iff.mpr (List.mem_toFinset.mpr (List.mem_map.mpr ⟨_, by decide, rfl⟩))

/-- A reference the stretch does not write keeps its contents. -/
theorem host1_keep (r : Ref sig .tc) (hr : r ∉ written1) :
    StableHlo.after (hostOps1 (F := Ideal)) W (d r) = W (d r) :=
  StableHlo.after_of_writes_sub _ W hostOps1_writes hr

theorem host1_keep_main_arg0 : StableHlo.after (hostOps1 (F := Ideal)) W (d main_arg0) = W (d main_arg0) := host1_keep W main_arg0 (by decide)
theorem host1_keep_main_arg1 : StableHlo.after (hostOps1 (F := Ideal)) W (d main_arg1) = W (d main_arg1) := host1_keep W main_arg1 (by decide)
theorem host1_keep_main_arg2 : StableHlo.after (hostOps1 (F := Ideal)) W (d main_arg2) = W (d main_arg2) := host1_keep W main_arg2 (by decide)
theorem host1_keep_main_arg3 : StableHlo.after (hostOps1 (F := Ideal)) W (d main_arg3) = W (d main_arg3) := host1_keep W main_arg3 (by decide)
theorem host1_keep_main_arg4 : StableHlo.after (hostOps1 (F := Ideal)) W (d main_arg4) = W (d main_arg4) := host1_keep W main_arg4 (by decide)
theorem host1_keep_main_arg5 : StableHlo.after (hostOps1 (F := Ideal)) W (d main_arg5) = W (d main_arg5) := host1_keep W main_arg5 (by decide)
theorem host1_keep_main_arg6 : StableHlo.after (hostOps1 (F := Ideal)) W (d main_arg6) = W (d main_arg6) := host1_keep W main_arg6 (by decide)
theorem host1_keep_main_arg7 : StableHlo.after (hostOps1 (F := Ideal)) W (d main_arg7) = W (d main_arg7) := host1_keep W main_arg7 (by decide)
theorem host1_keep_main_arg8 : StableHlo.after (hostOps1 (F := Ideal)) W (d main_arg8) = W (d main_arg8) := host1_keep W main_arg8 (by decide)
theorem host1_keep_main_arg9 : StableHlo.after (hostOps1 (F := Ideal)) W (d main_arg9) = W (d main_arg9) := host1_keep W main_arg9 (by decide)
theorem host1_keep_main_arg10 : StableHlo.after (hostOps1 (F := Ideal)) W (d main_arg10) = W (d main_arg10) := host1_keep W main_arg10 (by decide)
theorem host1_keep_main_arg11 : StableHlo.after (hostOps1 (F := Ideal)) W (d main_arg11) = W (d main_arg11) := host1_keep W main_arg11 (by decide)
theorem host1_keep_main_v22_0 : StableHlo.after (hostOps1 (F := Ideal)) W (d main_v22_0) = W (d main_v22_0) := host1_keep W main_v22_0 (by decide)
theorem host1_keep_main_v8 : StableHlo.after (hostOps1 (F := Ideal)) W (d main_v8) = W (d main_v8) := host1_keep W main_v8 (by decide)

/-- The references the stretch writes, in order. -/
abbrev written3 : List (Ref sig .tc) := [main_c_8, main_v37, main_v38, main_c_9, main_v39, main_v40, main_v41, main_v42, main_v43, main_v44, main_cst_10, main_v45, main_v46, main_v47, main_v48]

/-- Every operation of the stretch writes one of the listed references. -/
theorem hostOps3_writes :
    (hostOps3 (F := Ideal)).Forall fun op => op.writes ⊆ (written3.map (Proc.devRef (τ := τ) .tc)).toFinset := by
  simp only [hostOps3, List.Forall, StableHlo.nullary_writes, StableHlo.unary_writes, StableHlo.binary_writes,
    StableHlo.ternary_writes, StableHlo.reshape_writes]
  repeat' apply And.intro
  all_goals exact Finset.singleton_subset_iff.mpr (List.mem_toFinset.mpr (List.mem_map.mpr ⟨_, by decide, rfl⟩))

/-- A reference the stretch does not write keeps its contents. -/
theorem host3_keep (r : Ref sig .tc) (hr : r ∉ written3) :
    StableHlo.after (hostOps3 (F := Ideal)) W (d r) = W (d r) :=
  StableHlo.after_of_writes_sub _ W hostOps3_writes hr

theorem host3_keep_main_arg0 : StableHlo.after (hostOps3 (F := Ideal)) W (d main_arg0) = W (d main_arg0) := host3_keep W main_arg0 (by decide)
theorem host3_keep_main_arg1 : StableHlo.after (hostOps3 (F := Ideal)) W (d main_arg1) = W (d main_arg1) := host3_keep W main_arg1 (by decide)
theorem host3_keep_main_arg2 : StableHlo.after (hostOps3 (F := Ideal)) W (d main_arg2) = W (d main_arg2) := host3_keep W main_arg2 (by decide)
theorem host3_keep_main_arg3 : StableHlo.after (hostOps3 (F := Ideal)) W (d main_arg3) = W (d main_arg3) := host3_keep W main_arg3 (by decide)
theorem host3_keep_main_arg4 : StableHlo.after (hostOps3 (F := Ideal)) W (d main_arg4) = W (d main_arg4) := host3_keep W main_arg4 (by decide)
theorem host3_keep_main_arg5 : StableHlo.after (hostOps3 (F := Ideal)) W (d main_arg5) = W (d main_arg5) := host3_keep W main_arg5 (by decide)
theorem host3_keep_main_arg6 : StableHlo.after (hostOps3 (F := Ideal)) W (d main_arg6) = W (d main_arg6) := host3_keep W main_arg6 (by decide)
theorem host3_keep_main_arg7 : StableHlo.after (hostOps3 (F := Ideal)) W (d main_arg7) = W (d main_arg7) := host3_keep W main_arg7 (by decide)
theorem host3_keep_main_arg8 : StableHlo.after (hostOps3 (F := Ideal)) W (d main_arg8) = W (d main_arg8) := host3_keep W main_arg8 (by decide)
theorem host3_keep_main_arg9 : StableHlo.after (hostOps3 (F := Ideal)) W (d main_arg9) = W (d main_arg9) := host3_keep W main_arg9 (by decide)
theorem host3_keep_main_arg10 : StableHlo.after (hostOps3 (F := Ideal)) W (d main_arg10) = W (d main_arg10) := host3_keep W main_arg10 (by decide)
theorem host3_keep_main_arg11 : StableHlo.after (hostOps3 (F := Ideal)) W (d main_arg11) = W (d main_arg11) := host3_keep W main_arg11 (by decide)
theorem host3_keep_main_v35_0 : StableHlo.after (hostOps3 (F := Ideal)) W (d main_v35_0) = W (d main_v35_0) := host3_keep W main_v35_0 (by decide)
theorem host3_keep_main_v8 : StableHlo.after (hostOps3 (F := Ideal)) W (d main_v8) = W (d main_v8) := host3_keep W main_v8 (by decide)

end Cert.Sage.Host
end
-- ==== Proof.KernelValue.lean ====
/-
  The idealized kernel's result array, followed through @main's seven segments.

  Write a_k for the argument arrays, r for the node each edge comes from and S for the edges arriving at each node.
  The first stretch of host operations computes the reciprocal-degree column, the first aggregate and the first bias
  row; region 0 leaves the first layer H0 = relu (a0 · a3 + (agg a0 ∗ inv) · a4 + a5) in both of its outputs; the second
  stretch aggregates the half-precision copy of H0 (the same numbers); region 1 leaves H1, the second layer; region 2
  leaves H1 · a10; the third stretch aggregates that product; region 3 leaves
  relu (H1 · a9 + agg (H1 · a10) ∗ inv + a11): the network with the last layer's neighbour weights applied first.
  Every other buffer a later segment reads passes through the segments in between unchanged.
-/
import proofs.«120637_j50062138802388_2_alg».proof.Proof.KernelIdealFrameP
import proofs.«120637_j50062138802388_2_alg».proof.Proof.Region0
import proofs.«120637_j50062138802388_2_alg».proof.Proof.Region1
import proofs.«120637_j50062138802388_2_alg».proof.Proof.Region2
import proofs.«120637_j50062138802388_2_alg».proof.Proof.Region3
import proofs.«120637_j50062138802388_2_alg».proof.Proof.HostReads

set_option maxRecDepth 16384

noncomputable section

namespace Cert.Sage.KV

open Cert.KernelIdeal Cert.KernelIdeal.Gen Idealize.ShloMosaic Idealize.ShloMosaic.TcCoe Idealize.ShloMosaic.ValueIdx Idealize.SL.Sem
open Idealize.ShloMosaic.Pipeline (Dat Cfg Window)
open Cert.LibMatProd Cert.LibBiasRelu Cert.LibRowScale Cert.Sage Cert.Sage.Host

variable (m : (ℓ : Loc nD τ sig) → Buf (Elt Ideal) ℓ) (ρ : Dev nD → PrngReg) (c : Dev nD)

/-- The node each edge comes from, and the edges arriving at each node, as the two integer arguments name them. -/
abbrev rr : Fin 1600000 → Fin 100000 := srcRow (m ((c : Thread nD τ).loc main_arg1))
abbrev SS : Fin 100000 → Finset (Fin 1600000) := hits (m ((c : Thread nD τ).loc main_arg2))

/-- The first layer. -/
def H0 : FVec Ideal ⟨2, ![100000, 128]⟩ .f32 :=
  layerMul (m ((c : Thread nD τ).loc main_arg0)) (aggRows (rr m c) (SS m c) (m ((c : Thread nD τ).loc main_arg0))) (invCol (SS m c))
    (m ((c : Thread nD τ).loc main_arg3)) (m ((c : Thread nD τ).loc main_arg4)) (rowOf (m ((c : Thread nD τ).loc main_arg5)))

/-- The second layer. -/
def H1 : FVec Ideal ⟨2, ![100000, 128]⟩ .f32 :=
  layerMul (H0 m c) (aggRows (rr m c) (SS m c) (H0 m c)) (invCol (SS m c))
    (m ((c : Thread nD τ).loc main_arg6)) (m ((c : Thread nD τ).loc main_arg7)) (rowOf (m ((c : Thread nD τ).loc main_arg8)))

/-! ## After the first stretch of host operations -/

theorem W1_arg0 : W1 m ρ c (Proc.devRef .tc main_arg0) = m ((c : Thread nD τ).loc main_arg0) := host0_keep_main_arg0 (W0 m ρ c)
theorem W1_arg1 : W1 m ρ c (Proc.devRef .tc main_arg1) = m ((c : Thread nD τ).loc main_arg1) := host0_keep_main_arg1 (W0 m ρ c)
theorem W1_arg2 : W1 m ρ c (Proc.devRef .tc main_arg2) = m ((c : Thread nD τ).loc main_arg2) := host0_keep_main_arg2 (W0 m ρ c)
theorem W1_arg3 : W1 m ρ c (Proc.devRef .tc main_arg3) = m ((c : Thread nD τ).loc main_arg3) := host0_keep_main_arg3 (W0 m ρ c)
theorem W1_arg4 : W1 m ρ c (Proc.devRef .tc main_arg4) = m ((c : Thread nD τ).loc main_arg4) := host0_keep_main_arg4 (W0 m ρ c)
theorem W1_arg5 : W1 m ρ c (Proc.devRef .tc main_arg5) = m ((c : Thread nD τ).loc main_arg5) := host0_keep_main_arg5 (W0 m ρ c)
theorem W1_arg6 : W1 m ρ c (Proc.devRef .tc main_arg6) = m ((c : Thread nD τ).loc main_arg6) := host0_keep_main_arg6 (W0 m ρ c)
theorem W1_arg7 : W1 m ρ c (Proc.devRef .tc main_arg7) = m ((c : Thread nD τ).loc main_arg7) := host0_keep_main_arg7 (W0 m ρ c)
theorem W1_arg8 : W1 m ρ c (Proc.devRef .tc main_arg8) = m ((c : Thread nD τ).loc main_arg8) := host0_keep_main_arg8 (W0 m ρ c)
theorem W1_arg9 : W1 m ρ c (Proc.devRef .tc main_arg9) = m ((c : Thread nD τ).loc main_arg9) := host0_keep_main_arg9 (W0 m ρ c)
theorem W1_arg10 : W1 m ρ c (Proc.devRef .tc main_arg10) = m ((c : Thread nD τ).loc main_arg10) := host0_keep_main_arg10 (W0 m ρ c)
theorem W1_arg11 : W1 m ρ c (Proc.devRef .tc main_arg11) = m ((c : Thread nD τ).loc main_arg11) := host0_keep_main_arg11 (W0 m ρ c)
theorem W1_v21 : W1 m ρ c (Proc.devRef .tc main_v21) = rowOf (m ((c : Thread nD τ).loc main_arg5)) := host0_v21 (W0 m ρ c)
theorem W1_v8 : W1 m ρ c (Proc.devRef .tc main_v8) = invCol (SS m c) := host0_v8 (W0 m ρ c)
theorem W1_v20 : W1 m ρ c (Proc.devRef .tc main_v20) = aggRows (rr m c) (SS m c) (m ((c : Thread nD τ).loc main_arg0)) := host0_v20 (W0 m ρ c)

/-- Region 0's layer of what it finds is the first layer. -/
theorem G0_eq : R0.G (V1 m ρ) c = H0 m c := by
  show layerMul (W1 m ρ c (Proc.devRef .tc main_arg0)) (W1 m ρ c (Proc.devRef .tc main_v20)) (W1 m ρ c (Proc.devRef .tc main_v8))
    (W1 m ρ c (Proc.devRef .tc main_arg3)) (W1 m ρ c (Proc.devRef .tc main_arg4)) (W1 m ρ c (Proc.devRef .tc main_v21)) = _
  rw [W1_arg0, W1_v20, W1_v8, W1_arg3, W1_arg4, W1_v21]
  rfl

/-! ## After region 0 -/

theorem W2_v22_0 : W2 m ρ c (Proc.devRef .tc main_v22_0) = H0 m c :=
  (W2_arr m ρ c 6).trans ((R0.final6 (V1 m ρ) c).trans (G0_eq m ρ c))
theorem W2_v22_1 : W2 m ρ c (Proc.devRef .tc main_v22_1) = H0 m c :=
  (W2_arr m ρ c 7).trans ((R0.final7 (V1 m ρ) c).trans (G0_eq m ρ c))
theorem W2_v8 : W2 m ρ c (Proc.devRef .tc main_v8) = invCol (SS m c) :=
  ((W2_arr m ρ c 2).trans (((dat0 (V1 m ρ) c).arrAt_in 2 rfl _).trans (A_eq0 (V1 m ρ) c 2))).trans (W1_v8 m ρ c)
theorem W2_arg1 : W2 m ρ c (Proc.devRef .tc main_arg1) = m ((c : Thread nD τ).loc main_arg1) := (W2_of_ne m ρ c main_arg1 (by decide)).trans (W1_arg1 m ρ c)
theorem W2_arg2 : W2 m ρ c (Proc.devRef .tc main_arg2) = m ((c : Thread nD τ).loc main_arg2) := (W2_of_ne m ρ c main_arg2 (by decide)).trans (W1_arg2 m ρ c)
theorem W2_arg6 : W2 m ρ c (Proc.devRef .tc main_arg6) = m ((c : Thread nD τ).loc main_arg6) := (W2_of_ne m ρ c main_arg6 (by decide)).trans (W1_arg6 m ρ c)
theorem W2_arg7 : W2 m ρ c (Proc.devRef .tc main_arg7) = m ((c : Thread nD τ).loc main_arg7) := (W2_of_ne m ρ c main_arg7 (by decide)).trans (W1_arg7 m ρ c)
theorem W2_arg8 : W2 m ρ c (Proc.devRef .tc main_arg8) = m ((c : Thread nD τ).loc main_arg8) := (W2_of_ne m ρ c main_arg8 (by decide)).trans (W1_arg8 m ρ c)
theorem W2_arg9 : W2 m ρ c (Proc.devRef .tc main_arg9) = m ((c : Thread nD τ).loc main_arg9) := (W2_of_ne m ρ c main_arg9 (by decide)).trans (W1_arg9 m ρ c)
theorem W2_arg10 : W2 m ρ c (Proc.devRef .tc main_arg10) = m ((c : Thread nD τ).loc main_arg10) := (W2_of_ne m ρ c main_arg10 (by decide)).trans (W1_arg10 m ρ c)
theorem W2_arg11 : W2 m ρ c (Proc.devRef .tc main_arg11) = m ((c : Thread nD τ).loc main_arg11) := (W2_of_ne m ρ c main_arg11 (by decide)).trans (W1_arg11 m ρ c)

/-! ## After the second stretch of host operations -/

theorem W3_v33 : W3 m ρ c (Proc.devRef .tc main_v33) = aggRows (rr m c) (SS m c) (H0 m c) := by
  refine (host1_v33 (W2 m ρ c)).trans ?_
  rw [W2_arg1, W2_arg2, W2_v22_1]
theorem W3_v34 : W3 m ρ c (Proc.devRef .tc main_v34) = rowOf (m ((c : Thread nD τ).loc main_arg8)) := by
  refine (host1_v34 (W2 m ρ c)).trans ?_
  rw [W2_arg8]
theorem W3_v22_0 : W3 m ρ c (Proc.devRef .tc main_v22_0) = H0 m c := (host1_keep_main_v22_0 (W2 m ρ c)).trans (W2_v22_0 m ρ c)
theorem W3_v8 : W3 m ρ c (Proc.devRef .tc main_v8) = invCol (SS m c) := (host1_keep_main_v8 (W2 m ρ c)).trans (W2_v8 m ρ c)
theorem W3_arg1 : W3 m ρ c (Proc.devRef .tc main_arg1) = m ((c : Thread nD τ).loc main_arg1) := (host1_keep_main_arg1 (W2 m ρ c)).trans (W2_arg1 m ρ c)
theorem W3_arg2 : W3 m ρ c (Proc.devRef .tc main_arg2) = m ((c : Thread nD τ).loc main_arg2) := (host1_keep_main_arg2 (W2 m ρ c)).trans (W2_arg2 m ρ c)
theorem W3_arg6 : W3 m ρ c (Proc.devRef .tc main_arg6) = m ((c : Thread nD τ).loc main_arg6) := (host1_keep_main_arg6 (W2 m ρ c)).trans (W2_arg6 m ρ c)
theorem W3_arg7 : W3 m ρ c (Proc.devRef .tc main_arg7) = m ((c : Thread nD τ).loc main_arg7) := (host1_keep_main_arg7 (W2 m ρ c)).trans (W2_arg7 m ρ c)
theorem W3_arg9 : W3 m ρ c (Proc.devRef .tc main_arg9) = m ((c : Thread nD τ).loc main_arg9) := (host1_keep_main_arg9 (W2 m ρ c)).trans (W2_arg9 m ρ c)
theorem W3_arg10 : W3 m ρ c (Proc.devRef .tc main_arg10) = m ((c : Thread nD τ).loc main_arg10) := (host1_keep_main_arg10 (W2 m ρ c)).trans (W2_arg10 m ρ c)
theorem W3_arg11 : W3 m ρ c (Proc.devRef .tc main_arg11) = m ((c : Thread nD τ).loc main_arg11) := (host1_keep_main_arg11 (W2 m ρ c)).trans (W2_arg11 m ρ c)

/-- Region 1's layer of what it finds is the second layer. -/
theorem G1_eq : R1.G (V3 m ρ) c = H1 m c := by
  show layerMul (W3 m ρ c (Proc.devRef .tc main_v22_0)) (W3 m ρ c (Proc.devRef .tc main_v33)) (W3 m ρ c (Proc.devRef .tc main_v8))
    (W3 m ρ c (Proc.devRef .tc main_arg6)) (W3 m ρ c (Proc.devRef .tc main_arg7)) (W3 m ρ c (Proc.devRef .tc main_v34)) = _
  rw [W3_v22_0, W3_v33, W3_v8, W3_arg6, W3_arg7, W3_v34]
  rfl

/-! ## After region 1 -/

theorem W4_v35_0 : W4 m ρ c (Proc.devRef .tc main_v35_0) = H1 m c :=
  (W4_arr m ρ c 6).trans ((R1.final6 (V3 m ρ) c).trans (G1_eq m ρ c))
theorem W4_v35_1 : W4 m ρ c (Proc.devRef .tc main_v35_1) = H1 m c :=
  (W4_arr m ρ c 7).trans ((R1.final7 (V3 m ρ) c).trans (G1_eq m ρ c))
theorem W4_v8 : W4 m ρ c (Proc.devRef .tc main_v8) = invCol (SS m c) :=
  ((W4_arr m ρ c 2).trans (((dat1 (V3 m ρ) c).arrAt_in 2 rfl _).trans (A_eq1 (V3 m ρ) c 2))).trans (W3_v8 m ρ c)
theorem W4_arg1 : W4 m ρ c (Proc.devRef .tc main_arg1) = m ((c : Thread nD τ).loc main_arg1) := (W4_of_ne m ρ c main_arg1 (by decide)).trans (W3_arg1 m ρ c)
theorem W4_arg2 : W4 m ρ c (Proc.devRef .tc main_arg2) = m ((c : Thread nD τ).loc main_arg2) := (W4_of_ne m ρ c main_arg2 (by decide)).trans (W3_arg2 m ρ c)
theorem W4_arg9 : W4 m ρ c (Proc.devRef .tc main_arg9) = m ((c : Thread nD τ).loc main_arg9) := (W4_of_ne m ρ c main_arg9 (by decide)).trans (W3_arg9 m ρ c)
theorem W4_arg10 : W4 m ρ c (Proc.devRef .tc main_arg10) = m ((c : Thread nD τ).loc main_arg10) := (W4_of_ne m ρ c main_arg10 (by decide)).trans (W3_arg10 m ρ c)
theorem W4_arg11 : W4 m ρ c (Proc.devRef .tc main_arg11) = m ((c : Thread nD τ).loc main_arg11) := (W4_of_ne m ρ c main_arg11 (by decide)).trans (W3_arg11 m ρ c)

/-! ## After region 2 -/

theorem W5_v36_1 : W5 m ρ c (Proc.devRef .tc main_v36_1) = matProd (H1 m c) (m ((c : Thread nD τ).loc main_arg10)) := by
  refine (W5_arr m ρ c 3).trans ((R2.final2_3 (V4 m ρ) c).trans ?_)
  show matProd (W4 m ρ c (Proc.devRef .tc main_v35_1)) (W4 m ρ c (Proc.devRef .tc main_arg10)) = _
  rw [W4_v35_1, W4_arg10]
theorem W5_v35_0 : W5 m ρ c (Proc.devRef .tc main_v35_0) = H1 m c := (W5_of_ne m ρ c main_v35_0 (by decide)).trans (W4_v35_0 m ρ c)
theorem W5_v8 : W5 m ρ c (Proc.devRef .tc main_v8) = invCol (SS m c) := (W5_of_ne m ρ c main_v8 (by decide)).trans (W4_v8 m ρ c)
theorem W5_arg1 : W5 m ρ c (Proc.devRef .tc main_arg1) = m ((c : Thread nD τ).loc main_arg1) := (W5_of_ne m ρ c main_arg1 (by decide)).trans (W4_arg1 m ρ c)
theorem W5_arg2 : W5 m ρ c (Proc.devRef .tc main_arg2) = m ((c : Thread nD τ).loc main_arg2) := (W5_of_ne m ρ c main_arg2 (by decide)).trans (W4_arg2 m ρ c)
theorem W5_arg9 : W5 m ρ c (Proc.devRef .tc main_arg9) = m ((c : Thread nD τ).loc main_arg9) := (W5_of_ne m ρ c main_arg9 (by decide)).trans (W4_arg9 m ρ c)
theorem W5_arg11 : W5 m ρ c (Proc.devRef .tc main_arg11) = m ((c : Thread nD τ).loc main_arg11) := (W5_of_ne m ρ c main_arg11 (by decide)).trans (W4_arg11 m ρ c)

/-! ## After the third stretch of host operations -/

theorem W6_v47 : W6 m ρ c (Proc.devRef .tc main_v47)
    = aggRows (rr m c) (SS m c) (matProd (H1 m c) (m ((c : Thread nD τ).loc main_arg10))) := by
  refine (host3_v47 (W5 m ρ c)).trans ?_
  rw [W5_arg1, W5_arg2, W5_v36_1]
theorem W6_v48 : W6 m ρ c (Proc.devRef .tc main_v48) = rowOf (m ((c : Thread nD τ).loc main_arg11)) := by
  refine (host3_v48 (W5 m ρ c)).trans ?_
  rw [W5_arg11]
theorem W6_v35_0 : W6 m ρ c (Proc.devRef .tc main_v35_0) = H1 m c := (host3_keep_main_v35_0 (W5 m ρ c)).trans (W5_v35_0 m ρ c)
theorem W6_v8 : W6 m ρ c (Proc.devRef .tc main_v8) = invCol (SS m c) := (host3_keep_main_v8 (W5 m ρ c)).trans (W5_v8 m ρ c)
theorem W6_arg9 : W6 m ρ c (Proc.devRef .tc main_arg9) = m ((c : Thread nD τ).loc main_arg9) := (host3_keep_main_arg9 (W5 m ρ c)).trans (W5_arg9 m ρ c)

/-! ## After region 3: the result -/

/-- THE RESULT ARRAY after the run: the network with reciprocal degrees and the last layer's neighbour weights applied
    before aggregating, of the argument arrays. -/
theorem result_eq : W7 m ρ c (Proc.devRef .tc main_v49)
    = netMul (rr m c) (SS m c) (m ((c : Thread nD τ).loc main_arg0))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8))
        (m ((c : Thread nD τ).loc main_arg9)) (m ((c : Thread nD τ).loc main_arg10)) (m ((c : Thread nD τ).loc main_arg11)) := by
  refine (W7_arr m ρ c 5).trans ((R3.final3_5 (V6 m ρ) c).trans ?_)
  show biasRelu (addM (matProd (W6 m ρ c (Proc.devRef .tc main_v35_0)) (W6 m ρ c (Proc.devRef .tc main_arg9)))
      (rowScale (W6 m ρ c (Proc.devRef .tc main_v47)) (W6 m ρ c (Proc.devRef .tc main_v8)))) (W6 m ρ c (Proc.devRef .tc main_v48)) = _
  rw [W6_v35_0, W6_arg9, W6_v47, W6_v8, W6_v48]
  rfl

end Cert.Sage.KV

end
-- ==== Proof.RefValue.lean ====
/-
  The reference program, one stage at a time, as the whole-array functions of the specification.

  The program computes a three-layer mean-aggregation network on the graph its two integer arguments name. Bottom up:
  the degree vector (ones added at the destinations into zeros, at least one) is the degree column; the normalised
  source index is the specification's; picking rows at the sources and adding them at the destinations is the
  aggregate; a quotient by the degree column broadcast along the rows is the row-wise quotient; a contraction is the
  matrix product; sum, bias row and maximum with zero are one layer. The three layers composed are `netDiv`.
-/
import proofs.«120637_j50062138802388_2_alg».proof.Proof.Gen.ReferenceIdeal.Read
import proofs.«120637_j50062138802388_2_alg».proof.Proof.Spec
import proofs.«120637_j50062138802388_2_alg».proof.Proof.Graph

noncomputable section

open scoped BigOperators

namespace Cert.Sage.Ref

open Idealize.ShloMosaic Idealize.ShloMosaic.ValueIdx Cert.ReferenceIdeal Cert.ReferenceIdeal.Gen Cert.ReferenceIdeal.Read
  Cert.LibMatProd Cert.LibBiasRelu Cert.LibRowScale Cert.LibSegment Cert.Sage

/-! ## The constant arrays -/

theorem zerosN_apply (i : S100000.Idx) : val_main_v1 (F := Ideal) i = w0 := (val_main_v1_apply i).trans rfl
theorem onesM_apply (i : S1600000.Idx) : val_main_v0 (F := Ideal) i = w1 := (val_main_v0_apply i).trans rfl
theorem onesN_apply (i : S100000.Idx) : val_main_v4 (F := Ideal) i = w1 := (val_main_v4_apply i).trans rfl
theorem zeros13_apply (i : S100000x64.Idx) : val_main_v13 (F := Ideal) i = w0 := (val_main_v13_apply i).trans rfl
theorem zeros33_apply (i : S100000x128.Idx) : val_main_v33 (F := Ideal) i = w0 := (val_main_v33_apply i).trans rfl
theorem zeros53_apply (i : S100000x128.Idx) : val_main_v53 (F := Ideal) i = w0 := (val_main_v53_apply i).trans rfl

/-! ## The degree -/

/-- The degree vector: entry n is the degree column's entry (n, 0). -/
theorem deg5 (x2 : (⟨S1600000, .i32⟩ : BufTy).Contents (Elt Ideal)) (n : Fin 100000) :
    val_main_v5 (F := Ideal) x2 (ix1 n) = degCol (hits x2) (ix2 n (0 : Fin 1)) := by
  unfold val_main_v5 val_main_v3 val_main_v2
  exact deg_vec_of scatter_S100000_S1600000x1_S1600000_n_0_0_1_wf _ rfl _ x2 _ _ _ zerosN_apply onesM_apply onesN_apply n

/-- The degree vector laid as a column is the degree column. -/
theorem degColumn16 (x2 : (⟨S1600000, .i32⟩ : BufTy).Contents (Elt Ideal)) : val_main_v16 (F := Ideal) x2 = degCol (hits x2) := by
  funext j
  obtain ⟨n, u, rfl⟩ : ∃ (n : Fin 100000) (u : Fin 1), j = ix2 n u := ⟨j 0, j 1, eq_ix2 j⟩
  obtain rfl : u = 0 := Subsingleton.elim _ _
  unfold val_main_v16
  exact (colOf_apply _ _ n).trans (deg5 x2 n)

theorem degColumn36 (x2 : (⟨S1600000, .i32⟩ : BufTy).Contents (Elt Ideal)) : val_main_v36 (F := Ideal) x2 = degCol (hits x2) := degColumn16 x2
theorem degColumn56 (x2 : (⟨S1600000, .i32⟩ : BufTy).Contents (Elt Ideal)) : val_main_v56 (F := Ideal) x2 = degCol (hits x2) := degColumn16 x2

/-! ## The normalised sources -/

/-- The normalised source index, entry by entry. -/
theorem nsrc10 (x1 : (⟨S1600000, .i32⟩ : BufTy).Contents (Elt Ideal)) (e : Fin 1600000) :
    val_main_v10 (F := Ideal) x1 (ix1 e) = normSrc (x1 (ix1 e)) := by
  unfold val_main_v10 val_main_v7 val_main_v9
  exact normSrc_vec x1 _ _ (fun i => (val_main_v6_apply i).trans rfl) (fun i => (val_main_v8_apply i).trans rfl) e

/-- The normalised source index, entry by entry. -/
theorem nsrc30 (x1 : (⟨S1600000, .i32⟩ : BufTy).Contents (Elt Ideal)) (e : Fin 1600000) :
    val_main_v30 (F := Ideal) x1 (ix1 e) = normSrc (x1 (ix1 e)) := by
  unfold val_main_v30 val_main_v27 val_main_v29
  exact normSrc_vec x1 _ _ (fun i => (val_main_v26_apply i).trans rfl) (fun i => (val_main_v28_apply i).trans rfl) e

/-- The normalised source index, entry by entry. -/
theorem nsrc50 (x1 : (⟨S1600000, .i32⟩ : BufTy).Contents (Elt Ideal)) (e : Fin 1600000) :
    val_main_v50 (F := Ideal) x1 (ix1 e) = normSrc (x1 (ix1 e)) := by
  unfold val_main_v50 val_main_v47 val_main_v49
  exact normSrc_vec x1 _ _ (fun i => (val_main_v46_apply i).trans rfl) (fun i => (val_main_v48_apply i).trans rfl) e

/-! ## The forms of one layer's operations, for any widths -/

/-- A quotient by a column broadcast along the rows is the row-wise quotient. -/
theorem rowDiv_form {D : ℕ} (hb : (⟨2, ![100000, 1]⟩ : Shape).BroadcastsInDim ⟨2, ![100000, D]⟩ ![0, 1])
    (A : FVec Ideal ⟨2, ![100000, D]⟩ .f32) (d : FVec Ideal ⟨2, ![100000, 1]⟩ .f32) :
    Host.divf A (broadcastInDim ⟨2, ![100000, D]⟩ ![0, 1] hb d) = rowDiv A d := by
  funext j
  obtain ⟨p, q, rfl⟩ : ∃ (p : Fin 100000) (q : Fin D), j = ix2 p q := ⟨j 0, j 1, eq_ix2 j⟩
  rw [rowDiv_apply]
  show FloatOps.hostDivf (A (ix2 p q)) (broadcastInDim ⟨2, ![100000, D]⟩ ![0, 1] hb d (ix2 p q)) = _
  rw [broadcastInDim_col_apply]
  rfl

/-- A vector broadcast into one row is the vector laid as a row. -/
theorem rowOf_form {D : ℕ} (hb : (⟨1, ![D]⟩ : Shape).BroadcastsInDim ⟨2, ![1, D]⟩ ![1]) (b : FVec Ideal ⟨1, ![D]⟩ .f32) :
    broadcastInDim ⟨2, ![1, D]⟩ ![1] hb b = rowOf b := by
  funext j
  obtain ⟨u, i, rfl⟩ : ∃ (u : Fin 1) (i : Fin D), j = ix2 u i := ⟨j 0, j 1, eq_ix2 j⟩
  exact broadcastInDim_apply _ hb b _ (ix1 i) (fun ax => match ax with
    | ⟨0, _⟩ => by
      show i.val = if D = 1 then 0 else i.val
      split
      · have := i.isLt; omega
      · rfl)

/-- One layer as the host spells it: two contractions added, the bias row added, the maximum with zero. -/
theorem layer_form {Din Dout : ℕ} (dd : DotDims ⟨2, ![100000, Din]⟩ ⟨2, ![Din, Dout]⟩ ⟨2, ![100000, Dout]⟩)
    (h1 : dd.lhsContracting = [1]) (h2 : dd.rhsContracting = [0]) (h3 : dd.lhsNonContracting = [0])
    (h4 : dd.rhsNonContracting = [1]) (h5 : dd.lhsBatch = []) (h6 : dd.rhsBatch = [])
    (hbD : (⟨2, ![100000, 1]⟩ : Shape).BroadcastsInDim ⟨2, ![100000, Din]⟩ ![0, 1])
    (hbB : (⟨1, ![Dout]⟩ : Shape).BroadcastsInDim ⟨2, ![1, Dout]⟩ ![1])
    (hbR : (⟨2, ![1, Dout]⟩ : Shape).BroadcastsInDim ⟨2, ![100000, Dout]⟩ ![0, 1])
    (h0 : (⟨0, ![]⟩ : Shape).BroadcastsInDim ⟨2, ![100000, Dout]⟩ ![])
    (X A : FVec Ideal ⟨2, ![100000, Din]⟩ .f32) (d : FVec Ideal ⟨2, ![100000, 1]⟩ .f32)
    (Ws Wn : FVec Ideal ⟨2, ![Din, Dout]⟩ .f32) (b : FVec Ideal ⟨1, ![Dout]⟩ .f32) :
    maximumf (addf (addf (Host.dotGeneral (F := Ideal) dd none X Ws)
          (Host.dotGeneral (F := Ideal) dd none (Host.divf A (broadcastInDim ⟨2, ![100000, Din]⟩ ![0, 1] hbD d)) Wn))
        (broadcastInDim ⟨2, ![100000, Dout]⟩ ![0, 1] hbR (broadcastInDim ⟨2, ![1, Dout]⟩ ![1] hbB b)))
      (broadcastInDim ⟨2, ![100000, Dout]⟩ ![] h0 (constant (F := Ideal) ⟨0, ![]⟩ .f32 0x00000000#32))
      = layerDiv X A d Ws Wn (rowOf b) := by
  rw [host_dot_eq dd h1 h2 h3 h4 h5 h6, host_dot_eq dd h1 h2 h3 h4 h5 h6, rowDiv_form, rowOf_form]
  exact (host_form _ _ hbR h0).trans rfl

/-! ## The three layers -/

/-- Layer one's aggregate. -/
theorem agg15 (x0 : (⟨S100000x64, .f32⟩ : BufTy).Contents (Elt Ideal)) (x1 x2 : (⟨S1600000, .i32⟩ : BufTy).Contents (Elt Ideal)) :
    val_main_v15 (F := Ideal) x0 x1 x2 = aggRows (srcRow x1) (hits x2) x0 := by
  unfold val_main_v15 val_main_v14 val_main_v12 val_main_v11
  exact agg_eq_of gather_S100000x64_S1600000x1_S1600000x64_1_0_n_n_0_1_164_wf scatter_S100000x64_S1600000x1_S1600000x64_1_0_0_1_wf
    _ rfl _ rfl _ x1 _ x2 (nsrc10 x1) _ zeros13_apply x0

/-- Layer one. -/
theorem layer1 (x0 : (⟨S100000x64, .f32⟩ : BufTy).Contents (Elt Ideal)) (x1 x2 : (⟨S1600000, .i32⟩ : BufTy).Contents (Elt Ideal)) (x3 x4 : (⟨S64x128, .f32⟩ : BufTy).Contents (Elt Ideal)) (x5 : (⟨S128, .f32⟩ : BufTy).Contents (Elt Ideal)) :
    val_main_v25 (F := Ideal) x0 x1 x2 x3 x4 x5
      = layerDiv x0 (aggRows (srcRow x1) (hits x2) x0) (degCol (hits x2)) x3 x4 (rowOf x5) := by
  unfold val_main_v25 val_main_v24 val_main_v23 val_main_v22 val_main_call0_v0 val_main_call0_cst val_main_v21 val_main_v19
    val_main_v20 val_main_v18 val_main_v17
  rw [agg15, degColumn16]
  exact layer_form _ rfl rfl rfl rfl rfl rfl _ _ _ _ x0 _ _ x3 x4 x5

/-- Layer two's aggregate. -/
theorem agg35 (x0 : (⟨S100000x64, .f32⟩ : BufTy).Contents (Elt Ideal)) (x1 x2 : (⟨S1600000, .i32⟩ : BufTy).Contents (Elt Ideal)) (x3 x4 : (⟨S64x128, .f32⟩ : BufTy).Contents (Elt Ideal)) (x5 : (⟨S128, .f32⟩ : BufTy).Contents (Elt Ideal)) :
    val_main_v35 (F := Ideal) x0 x1 x2 x3 x4 x5
      = aggRows (srcRow x1) (hits x2) (val_main_v25 (F := Ideal) x0 x1 x2 x3 x4 x5) := by
  unfold val_main_v35 val_main_v34 val_main_v32 val_main_v31
  exact agg_eq_of gather_S100000x128_S1600000x1_S1600000x128_1_0_n_n_0_1_1128_wf scatter_S100000x128_S1600000x1_S1600000x128_1_0_0_1_wf
    _ rfl _ rfl _ x1 _ x2 (nsrc30 x1) _ zeros33_apply _

/-- Layer two. -/
theorem layer2 (x0 : (⟨S100000x64, .f32⟩ : BufTy).Contents (Elt Ideal)) (x1 x2 : (⟨S1600000, .i32⟩ : BufTy).Contents (Elt Ideal)) (x3 x4 : (⟨S64x128, .f32⟩ : BufTy).Contents (Elt Ideal)) (x5 : (⟨S128, .f32⟩ : BufTy).Contents (Elt Ideal)) (x6 x7 : (⟨S128x128, .f32⟩ : BufTy).Contents (Elt Ideal)) (x8 : (⟨S128, .f32⟩ : BufTy).Contents (Elt Ideal)) :
    val_main_v45 (F := Ideal) x0 x1 x2 x3 x4 x5 x6 x7 x8
      = layerDiv (val_main_v25 (F := Ideal) x0 x1 x2 x3 x4 x5)
          (aggRows (srcRow x1) (hits x2) (val_main_v25 (F := Ideal) x0 x1 x2 x3 x4 x5)) (degCol (hits x2)) x6 x7 (rowOf x8) := by
  unfold val_main_v45 val_main_v44 val_main_v43 val_main_v42 val_main_call1_v0 val_main_call1_cst val_main_v41 val_main_v39
    val_main_v40 val_main_v38 val_main_v37
  rw [agg35, degColumn36]
  exact layer_form _ rfl rfl rfl rfl rfl rfl _ _ _ _ _ _ _ x6 x7 x8

/-- Layer three's aggregate. -/
theorem agg55 (x0 : (⟨S100000x64, .f32⟩ : BufTy).Contents (Elt Ideal)) (x1 x2 : (⟨S1600000, .i32⟩ : BufTy).Contents (Elt Ideal)) (x3 x4 : (⟨S64x128, .f32⟩ : BufTy).Contents (Elt Ideal)) (x5 : (⟨S128, .f32⟩ : BufTy).Contents (Elt Ideal)) (x6 x7 : (⟨S128x128, .f32⟩ : BufTy).Contents (Elt Ideal)) (x8 : (⟨S128, .f32⟩ : BufTy).Contents (Elt Ideal)) :
    val_main_v55 (F := Ideal) x0 x1 x2 x3 x4 x5 x6 x7 x8
      = aggRows (srcRow x1) (hits x2) (val_main_v45 (F := Ideal) x0 x1 x2 x3 x4 x5 x6 x7 x8) := by
  unfold val_main_v55 val_main_v54 val_main_v52 val_main_v51
  exact agg_eq_of gather_S100000x128_S1600000x1_S1600000x128_1_0_n_n_0_1_1128_wf scatter_S100000x128_S1600000x1_S1600000x128_1_0_0_1_wf
    _ rfl _ rfl _ x1 _ x2 (nsrc50 x1) _ zeros53_apply _

/-- Layer three. -/
theorem layer3 (x0 : (⟨S100000x64, .f32⟩ : BufTy).Contents (Elt Ideal)) (x1 x2 : (⟨S1600000, .i32⟩ : BufTy).Contents (Elt Ideal)) (x3 x4 : (⟨S64x128, .f32⟩ : BufTy).Contents (Elt Ideal)) (x5 : (⟨S128, .f32⟩ : BufTy).Contents (Elt Ideal)) (x6 x7 : (⟨S128x128, .f32⟩ : BufTy).Contents (Elt Ideal)) (x8 : (⟨S128, .f32⟩ : BufTy).Contents (Elt Ideal)) (x9 x10 : (⟨S128x64, .f32⟩ : BufTy).Contents (Elt Ideal)) (x11 : (⟨S64, .f32⟩ : BufTy).Contents (Elt Ideal)) :
    val_main_v65 (F := Ideal) x0 x1 x2 x3 x4 x5 x6 x7 x8 x9 x10 x11
      = layerDiv (val_main_v45 (F := Ideal) x0 x1 x2 x3 x4 x5 x6 x7 x8)
          (aggRows (srcRow x1) (hits x2) (val_main_v45 (F := Ideal) x0 x1 x2 x3 x4 x5 x6 x7 x8)) (degCol (hits x2)) x9 x10 (rowOf x11) := by
  unfold val_main_v65 val_main_v64 val_main_v63 val_main_v62 val_main_call2_v0 val_main_call2_cst val_main_v61 val_main_v59
    val_main_v60 val_main_v58 val_main_v57
  rw [agg55, degColumn56]
  exact layer_form _ rfl rfl rfl rfl rfl rfl _ _ _ _ _ _ _ x9 x10 x11

/-! ## The whole program -/

/-- The reference program's result is the network that divides by the degree in every layer, on the graph the two
    integer vectors name. -/
theorem ref_eq (x0 : (⟨S100000x64, .f32⟩ : BufTy).Contents (Elt Ideal)) (x1 x2 : (⟨S1600000, .i32⟩ : BufTy).Contents (Elt Ideal)) (x3 x4 : (⟨S64x128, .f32⟩ : BufTy).Contents (Elt Ideal)) (x5 : (⟨S128, .f32⟩ : BufTy).Contents (Elt Ideal)) (x6 x7 : (⟨S128x128, .f32⟩ : BufTy).Contents (Elt Ideal)) (x8 : (⟨S128, .f32⟩ : BufTy).Contents (Elt Ideal)) (x9 x10 : (⟨S128x64, .f32⟩ : BufTy).Contents (Elt Ideal)) (x11 : (⟨S64, .f32⟩ : BufTy).Contents (Elt Ideal)) :
    Cert.ReferenceIdeal.Read.val_main_v65 (F := Ideal) x0 x1 x2 x3 x4 x5 x6 x7 x8 x9 x10 x11
      = Cert.Sage.netDiv (Cert.Sage.srcRow x1) (Cert.Sage.hits x2) x0 x3 x4 x5 x6 x7 x8 x9 x10 x11 := by
  rw [layer3, layer2, layer1]
  rfl

end Cert.Sage.Ref

end
-- ==== Proof.Algebra.lean ====
/-
  The two spellings of the three-layer mean-aggregation network agree on real data.

  The degree of a node is a real number at least one, so it is not zero, and for every extended real x the product
  x · (1 / d) is the quotient x / d: a layer that scales by the reciprocal column is the layer that divides by the
  degree column, with no finiteness needed. In the last layer the neighbour weights are applied before aggregating;
  moving them back after the aggregation and the scaling is distributivity, which holds on real numbers: the layer
  outputs are real when the inputs are, because sums, products and maxima of reals are real.
-/
import proofs.«120637_j50062138802388_2_alg».proof.Proof.Spec

noncomputable section

open scoped BigOperators

namespace Cert.Sage

open Idealize.ShloMosaic Idealize.ShloMosaic.ValueIdx Cert.LibMatProd Cert.LibBiasRelu Cert.LibRowScale Cert.LibSegment

/-! ## The two float words -/

theorem w0_eq : w0 = 0 := Ideal.ofBits_zero_f32

theorem w1_eq : w1 = 1 := Cert.LibPlainDot.one_f32

/-! ## Real values are closed under the operations used -/

theorem isReal_zero : IsReal 0 := ⟨0, rfl⟩

theorem isReal_one : IsReal 1 := ⟨1, rfl⟩

theorem isReal_w0 : IsReal w0 := by rw [w0_eq]; exact isReal_zero

theorem isReal_w1 : IsReal w1 := by rw [w1_eq]; exact isReal_one

theorem isReal_add {x y : EReal} (hx : IsReal x) (hy : IsReal y) : IsReal (x + y) := by
  obtain ⟨a, rfl⟩ := hx
  obtain ⟨b, rfl⟩ := hy
  exact ⟨a + b, (EReal.coe_add a b).symm⟩

theorem isReal_mul {x y : EReal} (hx : IsReal x) (hy : IsReal y) : IsReal (x * y) := by
  obtain ⟨a, rfl⟩ := hx
  obtain ⟨b, rfl⟩ := hy
  exact ⟨a * b, (EReal.coe_mul a b).symm⟩

theorem isReal_max {x y : EReal} (hx : IsReal x) (hy : IsReal y) : IsReal (max x y) := by
  rcases le_total x y with h | h
  · rw [max_eq_right h]; exact hy
  · rw [max_eq_left h]; exact hx

theorem isReal_sum {ι : Type} (s : Finset ι) (f : ι → EReal) (h : ∀ i ∈ s, IsReal (f i)) : IsReal (∑ i ∈ s, f i) := by
  classical
  induction s using Finset.induction_on with
  | empty => rw [Finset.sum_empty]; exact isReal_zero
  | insert a s ha ih =>
    rw [Finset.sum_insert ha]
    exact isReal_add (h a (Finset.mem_insert_self a s)) (ih fun i hi => h i (Finset.mem_insert_of_mem hi))

/-- The coercion of a finite sum of reals is the sum of the coercions. -/
theorem coe_sum {ι : Type} (s : Finset ι) (f : ι → ℝ) : ((∑ i ∈ s, f i : ℝ) : EReal) = ∑ i ∈ s, (f i : EReal) := by
  classical
  induction s using Finset.induction_on with
  | empty => rw [Finset.sum_empty, Finset.sum_empty]; rfl
  | insert a s ha ih => rw [Finset.sum_insert ha, Finset.sum_insert ha, EReal.coe_add, ih]

/-! ## The degree column and its reciprocal -/

section Graph
variable {N M : ℕ} (r : Fin M → Fin N) (S : Fin N → Finset (Fin M))

/-- The degree of a node is a nonzero real number. -/
theorem degCol_real (n : Fin N) : ∃ c : ℝ, c ≠ 0 ∧ degCol S (ix2 n (0 : Fin 1)) = (c : EReal) := by
  have hr : IsReal (degCol S (ix2 n (0 : Fin 1))) := by
    rw [degCol_apply]
    exact isReal_max (isReal_add isReal_w0 (isReal_sum _ _ fun _ _ => isReal_w1)) isReal_w1
  obtain ⟨c, hc⟩ := hr
  refine ⟨c, ?_, hc⟩
  have h1 : (1 : EReal) ≤ degCol S (ix2 n (0 : Fin 1)) := by
    rw [degCol_apply, ← w1_eq]
    exact le_max_right _ _
  rw [hc, ← EReal.coe_one, EReal.coe_le_coe_iff] at h1
  intro h0
  rw [h0] at h1
  exact absurd h1 (by norm_num)

/-- The reciprocal column holds the real reciprocal of the degree. -/
theorem invCol_real (n : Fin N) :
    ∃ c : ℝ, c ≠ 0 ∧ degCol S (ix2 n (0 : Fin 1)) = (c : EReal) ∧ invCol S (ix2 n (0 : Fin 1)) = ((1 / c : ℝ) : EReal) := by
  obtain ⟨c, hc0, hc⟩ := degCol_real S n
  refine ⟨c, hc0, hc, ?_⟩
  rw [invCol_apply, hc, Ideal.div_coe hc0, w1_eq, one_mul]

theorem isReal_invCol (i : (⟨2, ![N, 1]⟩ : Shape).Idx) : IsReal (invCol S i) := by
  obtain ⟨n, u, rfl⟩ : ∃ (n : Fin N) (u : Fin 1), i = ix2 n u := ⟨i 0, i 1, eq_ix2 i⟩
  obtain rfl : u = 0 := Subsingleton.elim _ _
  obtain ⟨c, _, _, hc⟩ := invCol_real S n
  exact ⟨1 / c, hc⟩

/-- Scaling by the reciprocal of the degree is dividing by the degree, for every extended real. -/
theorem mul_invCol (n : Fin N) (x : EReal) :
    x * invCol S (ix2 n (0 : Fin 1)) = Ideal.div x (degCol S (ix2 n (0 : Fin 1))) := by
  obtain ⟨c, hc0, hd, hi⟩ := invCol_real S n
  rw [hi, hd, Ideal.div_coe hc0]

theorem rowScale_invCol {D : ℕ} (A : FVec Ideal ⟨2, ![N, D]⟩ .f32) : rowScale A (invCol S) = rowDiv A (degCol S) := by
  funext i
  exact mul_invCol S (i 0) (A i)

/-- A layer scaling by the reciprocal column is the layer dividing by the degree column. -/
theorem layerMul_eq_layerDiv {Din Dout : ℕ} (X A : FVec Ideal ⟨2, ![N, Din]⟩ .f32)
    (Ws Wn : FVec Ideal ⟨2, ![Din, Dout]⟩ .f32) (b : FVec Ideal ⟨2, ![1, Dout]⟩ .f32) :
    layerMul X A (invCol S) Ws Wn b = layerDiv X A (degCol S) Ws Wn b := by
  unfold layerMul layerDiv
  rw [rowScale_invCol]

/-! ## Real inputs give real layer outputs -/

theorem isReal_matProd {P K Q : ℕ} (x : FVec Ideal ⟨2, ![P, K]⟩ .f32) (w : FVec Ideal ⟨2, ![K, Q]⟩ .f32)
    (hx : ∀ i, IsReal (x i)) (hw : ∀ i, IsReal (w i)) (i : (⟨2, ![P, Q]⟩ : Shape).Idx) : IsReal (matProd x w i) :=
  isReal_sum _ _ fun _ _ => isReal_mul (hx _) (hw _)

theorem isReal_aggRows {D : ℕ} (X : FVec Ideal ⟨2, ![N, D]⟩ .f32) (hX : ∀ i, IsReal (X i))
    (i : (⟨2, ![N, D]⟩ : Shape).Idx) : IsReal (aggRows r S X i) :=
  isReal_add isReal_w0 (isReal_sum _ _ fun _ _ => hX _)

theorem isReal_rowScale {D : ℕ} (x : FVec Ideal ⟨2, ![N, D]⟩ .f32) (s : FVec Ideal ⟨2, ![N, 1]⟩ .f32)
    (hx : ∀ i, IsReal (x i)) (hs : ∀ i, IsReal (s i)) (i : (⟨2, ![N, D]⟩ : Shape).Idx) : IsReal (rowScale x s i) :=
  isReal_mul (hx _) (hs _)

theorem isReal_rowOf {D : ℕ} (b : FVec Ideal ⟨1, ![D]⟩ .f32) (hb : ∀ i, IsReal (b i))
    (i : (⟨2, ![1, D]⟩ : Shape).Idx) : IsReal (rowOf b i) := hb _

theorem isReal_layerMul {Din Dout : ℕ} (X A : FVec Ideal ⟨2, ![N, Din]⟩ .f32) (s : FVec Ideal ⟨2, ![N, 1]⟩ .f32)
    (Ws Wn : FVec Ideal ⟨2, ![Din, Dout]⟩ .f32) (b : FVec Ideal ⟨2, ![1, Dout]⟩ .f32)
    (hX : ∀ i, IsReal (X i)) (hA : ∀ i, IsReal (A i)) (hs : ∀ i, IsReal (s i))
    (hWs : ∀ i, IsReal (Ws i)) (hWn : ∀ i, IsReal (Wn i)) (hb : ∀ i, IsReal (b i))
    (i : (⟨2, ![N, Dout]⟩ : Shape).Idx) : IsReal (layerMul X A s Ws Wn b i) :=
  isReal_max
    (isReal_add
      (isReal_add (isReal_matProd X Ws hX hWs i) (isReal_matProd _ Wn (isReal_rowScale A s hA hs) hWn i))
      (hb _))
    isReal_w0

/-! ## The neighbour weights move across the aggregation -/

/-- On real data, aggregating the products with the weights and then scaling the rows is the product of the scaled
    aggregate with the weights. -/
theorem hoist_law {Din Dout : ℕ} (h : FVec Ideal ⟨2, ![N, Din]⟩ .f32) (s : FVec Ideal ⟨2, ![N, 1]⟩ .f32)
    (Wn : FVec Ideal ⟨2, ![Din, Dout]⟩ .f32)
    (hh : ∀ i, IsReal (h i)) (hs : ∀ i, IsReal (s i)) (hW : ∀ i, IsReal (Wn i)) :
    rowScale (aggRows r S (matProd h Wn)) s = matProd (rowScale (aggRows r S h) s) Wn := by
  choose hr hhr using hh
  choose sr hsr using hs
  choose wr hwr using hW
  funext i
  obtain ⟨n, j, rfl⟩ : ∃ (n : Fin N) (j : Fin Dout), i = ix2 n j := ⟨i 0, i 1, eq_ix2 i⟩
  rw [rowScale_apply, aggRows_apply, matProd_apply]
  have hL : ∀ e : Fin M, matProd h Wn (ix2 (r e) j) = ((∑ k : Fin Din, hr (ix2 (r e) k) * wr (ix2 k j) : ℝ) : EReal) := by
    intro e
    rw [matProd_apply, coe_sum]
    exact Finset.sum_congr rfl fun k _ => by rw [hhr, hwr, EReal.coe_mul]
  have hR : ∀ k : Fin Din, rowScale (aggRows r S h) s (ix2 n k) * Wn (ix2 k j)
      = (((0 + ∑ e ∈ S n, hr (ix2 (r e) k)) * sr (ix2 n (0 : Fin 1)) * wr (ix2 k j) : ℝ) : EReal) := by
    intro k
    rw [rowScale_apply, aggRows_apply, w0_eq, hsr, hwr, EReal.coe_mul, EReal.coe_mul, EReal.coe_add, coe_sum]
    simp only [hhr]
    rfl
  rw [Finset.sum_congr rfl fun k _ => hR k, Finset.sum_congr rfl fun e _ => hL e, w0_eq, hsr, ← coe_sum, ← coe_sum,
    ← EReal.coe_zero, ← EReal.coe_add, ← EReal.coe_mul]
  congr 1
  rw [zero_add, Finset.sum_comm, Finset.sum_mul]
  refine Finset.sum_congr rfl fun k _ => ?_
  rw [← Finset.sum_mul, zero_add]
  ring

/-- On real data the layer that applies the neighbour weights first is the layer that scales the aggregate. -/
theorem layerHoist_eq_layerMul {Din Dout : ℕ} (X : FVec Ideal ⟨2, ![N, Din]⟩ .f32) (s : FVec Ideal ⟨2, ![N, 1]⟩ .f32)
    (Ws Wn : FVec Ideal ⟨2, ![Din, Dout]⟩ .f32) (b : FVec Ideal ⟨2, ![1, Dout]⟩ .f32)
    (hX : ∀ i, IsReal (X i)) (hs : ∀ i, IsReal (s i)) (hWn : ∀ i, IsReal (Wn i)) :
    layerHoist r S X s Ws Wn b = layerMul X (aggRows r S X) s Ws Wn b := by
  unfold layerHoist layerMul
  rw [hoist_law r S X s Wn hX hs hWn]

end Graph

/-! ## The two networks -/

/-- On real features, weights and biases the network that multiplies by the reciprocal degree, with the last layer's
    neighbour weights applied before aggregating, is the network that divides by the degree in every layer. -/
theorem netMul_eq_netDiv {N M D0 D1 D2 D3 : ℕ} (r : Fin M → Fin N) (S : Fin N → Finset (Fin M))
    (feat : FVec Ideal ⟨2, ![N, D0]⟩ .f32)
    (ws0 wn0 : FVec Ideal ⟨2, ![D0, D1]⟩ .f32) (b0 : FVec Ideal ⟨1, ![D1]⟩ .f32)
    (ws1 wn1 : FVec Ideal ⟨2, ![D1, D2]⟩ .f32) (b1 : FVec Ideal ⟨1, ![D2]⟩ .f32)
    (ws2 wn2 : FVec Ideal ⟨2, ![D2, D3]⟩ .f32) (b2 : FVec Ideal ⟨1, ![D3]⟩ .f32)
    (hfeat : ∀ i, IsReal (feat i)) (hws0 : ∀ i, IsReal (ws0 i)) (hwn0 : ∀ i, IsReal (wn0 i)) (hb0 : ∀ i, IsReal (b0 i))
    (hws1 : ∀ i, IsReal (ws1 i)) (hwn1 : ∀ i, IsReal (wn1 i)) (hb1 : ∀ i, IsReal (b1 i)) (hwn2 : ∀ i, IsReal (wn2 i)) :
    netMul r S feat ws0 wn0 b0 ws1 wn1 b1 ws2 wn2 b2 = netDiv r S feat ws0 wn0 b0 ws1 wn1 b1 ws2 wn2 b2 := by
  have hR0 : ∀ i, IsReal (layerMul feat (aggRows r S feat) (invCol S) ws0 wn0 (rowOf b0) i) :=
    isReal_layerMul _ _ _ _ _ _ hfeat (isReal_aggRows r S feat hfeat) (isReal_invCol S) hws0 hwn0 (isReal_rowOf b0 hb0)
  have hR1 : ∀ i, IsReal (layerMul (layerMul feat (aggRows r S feat) (invCol S) ws0 wn0 (rowOf b0))
      (aggRows r S (layerMul feat (aggRows r S feat) (invCol S) ws0 wn0 (rowOf b0))) (invCol S) ws1 wn1 (rowOf b1) i) :=
    isReal_layerMul _ _ _ _ _ _ hR0 (isReal_aggRows r S _ hR0) (isReal_invCol S) hws1 hwn1 (isReal_rowOf b1 hb1)
  simp only [netMul, netDiv, ← layerMul_eq_layerDiv]
  exact layerHoist_eq_layerMul r S _ (invCol S) ws2 wn2 (rowOf b2) hR1 (isReal_invCol S) hwn2

end Cert.Sage

end
-- ==== Proof.Finite.lean ====
/-
  The precondition read back: every float argument array holds real numbers.

  The precondition compares, for each float argument x, |x| against the float word of +∞ entry by entry, reduces
  each comparison array by "and" to one bit, and says the "and" of the ten bits is 1. So every comparison
  holds at every index, and an extended real x with max x (-x) < ⊤ is neither ⊤ nor ⊥: it is a real number.
-/
import proofs.«120637_j50062138802388_2_alg».proof.Defs
import proofs.«120637_j50062138802388_2_alg».proof.Proof.Gen.Pre_finite_inputs
import proofs.«120637_j50062138802388_2_alg».proof.Proof.Spec
import Idealize.ShloMosaic.Lib.ReduceAll
import Idealize.ShloMosaic.Lib.ValueIdx

noncomputable section

namespace Cert.Sage

open Idealize.ShloMosaic Idealize.ShloMosaic.ValueIdx Cert.Pre_finite_inputs

/-- The rank-0 shape has one index. -/
instance subsingleton_scalar_idx : Subsingleton S_.Idx := ⟨fun a b => funext fun d => d.elim0⟩

/-- The float word 0x7F800000 denotes +∞. -/
theorem inf_word : Ideal.ofBits .f32 0x7F800000#32 = (⊤ : EReal) := by simp [Ideal.ofBits, Ideal.ieee]

/-- An extended real whose absolute value is strictly below the word of +∞ is a real number. -/
theorem isReal_of_abs_lt_inf (x : EReal)
    (h : Ideal.cmp .olt (max x (-x)) (Ideal.ofBits .f32 0x7F800000#32) = 1#1) : IsReal x := by
  rw [inf_word] at h
  induction x using EReal.rec with
  | bot => simp [Ideal.cmp] at h
  | coe r => exact ⟨r, rfl⟩
  | top => simp [Ideal.cmp] at h

/-- One conjunct of the precondition, for an array of any shape: if the "and" over all entries of
    |x| < +∞ is 1, every entry of x is a real number. -/
theorem all_real {s : Shape} {axes : List (Fin s.rank)} (x : FVec Ideal s .f32)
    (hb : S_.BroadcastsInDim s (![] : Fin 0 → Fin s.rank)) (hr : s.ReducesTo axes S_) (hu : 0 < S_.numel)
    (e : Host.reduce IntOp.andi
          (cmpf .olt (Host.absf x) (broadcastInDim s ![] hb (constant S_ .f32 0x7F800000#32)))
          (constantI S_ 1 1#1) hr hu ix0 = 1#1) :
    ∀ i, IsReal (x i) := by
  intro i
  have hi := Host.reduce_andi_all _ _ hr hu ix0 e i
  exact isReal_of_abs_lt_inf (x i) hi

/-- Under the precondition every entry of each of the ten float arguments is a real number. -/
theorem args_real [hP : Cert.Pre_finite_inputs.Facts]
    (x0 : FVec Ideal S100000x64 .f32) (x1 x2 : IVec S1600000 32)
    (x3 x4 : FVec Ideal S64x128 .f32) (x5 : FVec Ideal S128 .f32)
    (x6 x7 : FVec Ideal S128x128 .f32) (x8 : FVec Ideal S128 .f32)
    (x9 x10 : FVec Ideal S128x64 .f32) (x11 : FVec Ideal S64 .f32)
    (h : Cert.Pre_finite_inputs.fn (F := Ideal) x0 x1 x2 x3 x4 x5 x6 x7 x8 x9 x10 x11 = fun _ => 1#1) :
    (∀ i, IsReal (x0 i)) ∧ (∀ i, IsReal (x3 i)) ∧ (∀ i, IsReal (x4 i)) ∧ (∀ i, IsReal (x5 i))
      ∧ (∀ i, IsReal (x6 i)) ∧ (∀ i, IsReal (x7 i)) ∧ (∀ i, IsReal (x8 i)) ∧ (∀ i, IsReal (x9 i))
      ∧ (∀ i, IsReal (x10 i)) ∧ (∀ i, IsReal (x11 i)) := by
  have e := congrFun h ix0
  dsimp only [fn, fn_part1, fn_part2, andi] at e
  simp only [IntOp.andi_eq_one] at e
  obtain ⟨⟨⟨⟨⟨⟨⟨⟨⟨h0, h3⟩, h4⟩, h5⟩, h6⟩, h7⟩, h8⟩, h9⟩, h10⟩, h11⟩ := e
  exact ⟨all_real x0 _ _ _ h0, all_real x3 _ _ _ h3, all_real x4 _ _ _ h4, all_real x5 _ _ _ h5,
    all_real x6 _ _ _ h6, all_real x7 _ _ _ h7, all_real x8 _ _ _ h8, all_real x9 _ _ _ h9,
    all_real x10 _ _ _ h10, all_real x11 _ _ _ h11⟩

end Cert.Sage

end
-- ==== Proof.lean ====
/-
  A three-layer mean-aggregation graph network (GraphSAGE): the kernel against its reference, on the extended reals.

  Both programs compute, layer by layer, relu (H · Ws + mean · Wn + b), where row n of mean is the sum of the rows
  H[src e] over the edges e with dst e = n, divided by the in-degree of n (at least one). The reference divides the
  aggregate by the degree. The kernel multiplies by the reciprocal degree, which on the extended reals is the same for a
  nonzero real degree, and in the last layer multiplies by the neighbour weights BEFORE aggregating:
  (Σ_e H[src e] · Wn) / deg in place of ((Σ_e H[src e]) / deg) · Wn. That exchange of two finite sums and a product is a
  law of the reals, false at infinities; under the precondition every input is finite, every intermediate layer is real,
  and the two results agree entry by entry.
  The parts: the network as whole-array functions (Spec), the law (Algebra), finiteness from the precondition (Finite),
  the reference's run read as the network (RefValue), the kernel's four regions and three stretches of host operations
  followed to its result (Region0 … Region3, HostReads, KernelValue, KernelRun).
-/
import proofs.«120637_j50062138802388_2_alg».proof.Defs
import proofs.«120637_j50062138802388_2_alg».proof.Proof.Gen.Kernel
import proofs.«120637_j50062138802388_2_alg».proof.Proof.Gen.Kernel.Skeleton
import proofs.«120637_j50062138802388_2_alg».proof.Proof.KernelLaunchP
import proofs.«120637_j50062138802388_2_alg».proof.Proof.Gen.Kernel.Points
import proofs.«120637_j50062138802388_2_alg».proof.Proof.KernelFrameP
import proofs.«120637_j50062138802388_2_alg».proof.Proof.Gen.KernelIdeal
import proofs.«120637_j50062138802388_2_alg».proof.Proof.Gen.KernelIdeal.Skeleton
import proofs.«120637_j50062138802388_2_alg».proof.Proof.KernelIdealLaunchP
import proofs.«120637_j50062138802388_2_alg».proof.Proof.Gen.KernelIdeal.Points
import proofs.«120637_j50062138802388_2_alg».proof.Proof.KernelIdealFrameP
import proofs.«120637_j50062138802388_2_alg».proof.Proof.Gen.ReferenceIdeal
import proofs.«120637_j50062138802388_2_alg».proof.Proof.Gen.Pre_finite_inputs
import proofs.«120637_j50062138802388_2_alg».proof.Proof.Gen.ReferenceIdeal.Run
import proofs.«120637_j50062138802388_2_alg».proof.Proof.Gen.ReferenceIdeal.Read
import proofs.«120637_j50062138802388_2_alg».proof.Proof.KernelRun
import proofs.«120637_j50062138802388_2_alg».proof.Proof.KernelValue
import proofs.«120637_j50062138802388_2_alg».proof.Proof.RefValue
import proofs.«120637_j50062138802388_2_alg».proof.Proof.Algebra
import proofs.«120637_j50062138802388_2_alg».proof.Proof.Finite
import Idealize.ShloMosaic.Adequacy
import Idealize.ShloMosaic.Init

set_option maxRecDepth 16384

noncomputable section

namespace Cert.Proof

open Idealize.ShloMosaic Idealize.ShloMosaic.TcCoe Idealize.SL.Sem

/-- The word-level kernel runs, and its arguments end unchanged. -/
theorem frame_k : Cert.frame_Kernel (hKernel := Cert.Kernel.Gen.facts) (hPre_finite_inputs := Cert.Pre_finite_inputs.Gen.facts) :=
  fun m ρ _ => Cert.Kernel.Gen.frame m ρ

/-- The idealized kernel runs, and its arguments end unchanged. -/
theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference runs, and its arguments end unchanged: its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- From memories agreeing on the arguments, both idealized programs end with the same result: the kernel's is the
    network with reciprocal degrees and hoisted last weights, the reference's the network with divisions, and on the
    finite inputs the precondition grants the two are one function. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.KernelIdeal.Gen.W7 m ρ c (Proc.devRef .tc Cert.KernelIdeal.main_v49), ?_, ?_⟩
  · exact Cert.KernelIdeal.RunValue.run_result m ρ
  · refine (θ_run Cert.ReferenceIdeal.defs _ _).mono (fun r h c => ⟨(h c).1.trans ?_, (h c).2⟩)
      (Cert.ReferenceIdeal.Value.run (F := Ideal) m' ρ')
    obtain ⟨e0, e1, e2, e3, e4, e5, e6, e7, e8, e9, e10, e11⟩ := hagree c
    obtain ⟨r0, r3, r4, r5, r6, r7, r8, -, r10, -⟩ := Cert.Sage.args_real _ _ _ _ _ _ _ _ _ _ _ _ (hpre c)
    rw [Cert.ReferenceIdeal.Read.val_main_v65_eq, Cert.Sage.Ref.ref_eq, e0, e1, e2, e3, e4, e5, e6, e7, e8, e9, e10, e11]
    refine Eq.trans ?_ (Cert.Sage.KV.result_eq m ρ c).symm
    exact (Cert.Sage.netMul_eq_netDiv _ _ _ _ _ _ _ _ _ _ _ _ r0 r3 r4 r5 r6 r7 r8 r10).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
